-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x2 : Shape := ⟨2, ![16, 2]⟩
abbrev S2 : Shape := ⟨1, ![2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S16x2 .f32) (main_arg9 : FVec F S16x2 .f32) (main_arg10 : FVec F S2 .f32) (main_v33 : IVec S_ 1) : IVec S_ 1 :=
  let main_v34 : FVec F S16x2 .f32 := Host.absf main_arg8
  let main_cst_12 : FVec F S_ .f32 := constant S_ .f32 0x7F800000#32
  let main_v35 : FVec F S16x2 .f32 := broadcastInDim S16x2 ![] bcast_S_S16x2 main_cst_12
  let main_v36 : IVec S16x2 1 := cmpf .olt main_v34 main_v35
  let main_c_13 : IVec S_ 1 := constantI S_ 1 1#1
  let main_v37 : IVec S_ 1 := (fun x v => Host.reduce IntOp.andi x v reducesTo_S16x2_S_d0_1 h_S_) main_v36 main_c_13
  let main_v38 : IVec S_ 1 := andi main_v33 main_v37
  let main_v39 : FVec F S16x2 .f32 := Host.absf main_arg9
  let main_cst_14 : FVec F S_ .f32 := constant S_ .f32 0x7F800000#32
  let main_v40 : FVec F S16x2 .f32 := broadcastInDim S16x2 ![] bcast_S_S16x2 main_cst_14
  let main_v41 : IVec S16x2 1 := cmpf .olt main_v39 main_v40
  let main_c_15 : IVec S_ 1 := constantI S_ 1 1#1
  let main_v42 : IVec S_ 1 := (fun x v => Host.reduce IntOp.andi x v reducesTo_S16x2_S_d0_1 h_S_) main_v41 main_c_15
  let main_v43 : IVec S_ 1 := andi main_v38 main_v42
  let main_v44 : FVec F S2 .f32 := Host.absf main_arg10
  let main_cst_16 : FVec F S_ .f32 := constant S_ .f32 0x7F800000#32
  let main_v45 : FVec F S2 .f32 := broadcastInDim S2 ![] bcast_S_S2 main_cst_16
  let main_v46 : IVec S2 1 := cmpf .olt main_v44 main_v45
  let main_c_17 : IVec S_ 1 := constantI S_ 1 1#1
  let main_v47 : IVec S_ 1 := (fun x v => Host.reduce IntOp.andi x v reducesTo_S2_S_d0 h_S_) main_v46 main_c_17
  let main_v48 : IVec S_ 1 := andi main_v43 main_v47
  main_v48

def fn_part1 {F : FTy → Type} [FloatOps F] (main_arg5 : FVec F S32x16 .f32) (main_arg6 : FVec F S32x16 .f32) (main_arg7 : FVec F S16 .f32) (main_arg8 : FVec F S16x2 .f32) (main_arg9 : FVec F S16x2 .f32) (main_arg10 : FVec F S2 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x16 .f32 := Host.absf main_arg5
  let main_cst_6 : FVec F S_ .f32 := constant S_ .f32 0x7F800000#32
  let main_v20 : FVec F S32x16 .f32 := broadcastInDim S32x16 ![] bcast_S_S32x16 main_cst_6
  let main_v21 : IVec S32x16 1 := cmpf .olt main_v19 main_v20
  let main_c_7 : IVec S_ 1 := constantI S_ 1 1#1
  let main_v22 : IVec S_ 1 := (fun x v => Host.reduce IntOp.andi x v reducesTo_S32x16_S_d0_1 h_S_) main_v21 main_c_7
  let main_v23 : IVec S_ 1 := andi main_v18 main_v22
  let main_v24 : FVec F S32x16 .f32 := Host.absf main_arg6
  let main_cst_8 : FVec F S_ .f32 := constant S_ .f32 0x7F800000#32
  let main_v25 : FVec F S32x16 .f32 := broadcastInDim S32x16 ![] bcast_S_S32x16 main_cst_8
  let main_v26 : IVec S32x16 1 := cmpf .olt main_v24 main_v25
  let main_c_9 : IVec S_ 1 := constantI S_ 1 1#1
  let main_v27 : IVec S_ 1 := (fun x v => Host.reduce IntOp.andi x v reducesTo_S32x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg8 main_arg9 main_arg10 main_v33

def fn {F : FTy → Type} [FloatOps F] (main_arg0 : FVec F S100000x64 .f32) (main_arg1 : IVec S2x1600000 32) (main_arg2 : FVec F S64x32 .f32) (main_arg3 : FVec F S64x32 .f32) (main_arg4 : FVec F S32 .f32) (main_arg5 : FVec F S32x16 .f32) (main_arg6 : FVec F S32x16 .f32) (main_arg7 : FVec F S16 .f32) (main_arg8 : FVec F S16x2 .f32) (main_arg9 : FVec F S16x2 .f32) (main_arg10 : FVec F S2 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x32 .f32 := Host.absf main_arg2
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S64x32 .f32 := Host.absf main_arg3
  let main_cst_2 : FVec F S_ .f32 := constant S_ .f32 0x7F800000#32
  let main_v10 : FVec F S64x32 .f32 := broadcastInDim S64x32 ![] bcast_S_S64x32 main_cst_2
  let main_v11 : IVec S64x32 1 := cmpf .olt main_v9 main_v10
  let main_c_3 : IVec S_ 1 := constantI S_ 1 1#1
  let main_v12 : IVec S_ 1 := (fun x v => Host.reduce IntOp.andi x v reducesTo_S64x32_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_arg7 main_arg8 main_arg9 main_arg10 main_v13 main_v16
-- ==== Kernel.lean ====
abbrev S100000x64 : Shape := ⟨2, ![100000, 64]⟩
abbrev S2x1600000 : Shape := ⟨2, ![2, 1600000]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x2 : Shape := ⟨2, ![16, 2]⟩
abbrev S2 : Shape := ⟨1, ![2]⟩
abbrev S1x1600000 : Shape := ⟨2, ![1, 1600000]⟩
abbrev S1600000 : Shape := ⟨1, ![1600000]⟩
abbrev S100000x32 : Shape := ⟨2, ![100000, 32]⟩
abbrev S5000x64 : Shape := ⟨2, ![5000, 64]⟩
abbrev S5000x32 : Shape := ⟨2, ![5000, 32]⟩
abbrev S_ : Shape := ⟨0, ![]⟩
abbrev S1600000x1 : Shape := ⟨2, ![1600000, 1]⟩
abbrev S1600000x32 : Shape := ⟨2, ![1600000, 32]⟩
abbrev S1x32 : Shape := ⟨2, ![1, 32]⟩
abbrev S100000x16 : Shape := ⟨2, ![100000, 16]⟩
abbrev S5000x16 : Shape := ⟨2, ![5000, 16]⟩
abbrev S1600000x16 : Shape := ⟨2, ![1600000, 16]⟩
abbrev S1x16 : Shape := ⟨2, ![1, 16]⟩
abbrev S100000x2 : Shape := ⟨2, ![100000, 2]⟩
abbrev S5000x2 : Shape := ⟨2, ![5000, 2]⟩
abbrev S1600000x2 : Shape := ⟨2, ![1600000, 2]⟩
abbrev S1x2 : Shape := ⟨2, ![1, 2]⟩
abbrev S5000 : Shape := ⟨1, ![5000]⟩
abbrev S5000x1 : Shape := ⟨2, ![5000, 1]⟩

abbrev nBuf : Space → Nat
  | .hbm => 69
  | .vmem => 35
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x32, .f32⟩
  | .hbm, ⟨3, _⟩ => ⟨S64x32, .f32⟩
  | .hbm, ⟨4, _⟩ => ⟨S32, .f32⟩
  | .hbm, ⟨5, _⟩ => ⟨S32x16, .f32⟩
  | .hbm, ⟨6, _⟩ => ⟨S32x16, .f32⟩
  | .hbm, ⟨7, _⟩ => ⟨S16, .f32⟩
  | .hbm, ⟨8, _⟩ => ⟨S16x2, .f32⟩
  | .hbm, ⟨9, _⟩ => ⟨S16x2, .f32⟩
  | .hbm, ⟨10, _⟩ => ⟨S2, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S100000x32, .f32⟩
  | .hbm, ⟨16, _⟩ => ⟨S100000x32, .bf16⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x32, .bf16⟩
  | .hbm, ⟨26, _⟩ => ⟨S1600000x32, .f32⟩
  | .hbm, ⟨27, _⟩ => ⟨S_, .f32⟩
  | .hbm, ⟨28, _⟩ => ⟨S100000x32, .f32⟩
  | .hbm, ⟨29, _⟩ => ⟨S1600000x1, .i32⟩
  | .hbm, ⟨30, _⟩ => ⟨S100000x32, .f32⟩
  | .hbm, ⟨31, _⟩ => ⟨S1x32, .f32⟩
  | .hbm, ⟨32, _⟩ => ⟨S100000x32, .f32⟩
  | .hbm, ⟨33, _⟩ => ⟨S100000x16, .f32⟩
  | .hbm, ⟨34, _⟩ => ⟨S100000x16, .bf16⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x16, .bf16⟩
  | .hbm, ⟨44, _⟩ => ⟨S1600000x16, .f32⟩
  | .hbm, ⟨45, _⟩ => ⟨S_, .f32⟩
  | .hbm, ⟨46, _⟩ => ⟨S100000x16, .f32⟩
  | .hbm, ⟨47, _⟩ => ⟨S1600000x1, .i32⟩
  | .hbm, ⟨48, _⟩ => ⟨S100000x16, .f32⟩
  | .hbm, ⟨49, _⟩ => ⟨S1x16, .f32⟩
  | .hbm, ⟨50, _⟩ => ⟨S100000x16, .f32⟩
  | .hbm, ⟨51, _⟩ => ⟨S100000x2, .f32⟩
  | .hbm, ⟨52, _⟩ => ⟨S100000x2, .bf16⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x2, .bf16⟩
  | .hbm, ⟨62, _⟩ => ⟨S1600000x2, .f32⟩
  | .hbm, ⟨63, _⟩ => ⟨S_, .f32⟩
  | .hbm, ⟨64, _⟩ => ⟨S100000x2, .f32⟩
  | .hbm, ⟨65, _⟩ => ⟨S1600000x1, .i32⟩
  | .hbm, ⟨66, _⟩ => ⟨S100000x2, .f32⟩
  | .hbm, ⟨67, _⟩ => ⟨S1x2, .f32⟩
  | .hbm, ⟨68, _⟩ => ⟨S100000x2, .f32⟩
  | .local _ .vmem, ⟨0, _⟩ => ⟨S5000x64, .f32⟩
  | .local _ .vmem, ⟨1, _⟩ => ⟨S5000x64, .f32⟩
  | .local _ .vmem, ⟨2, _⟩ => ⟨S64x32, .f32⟩
  | .local _ .vmem, ⟨3, _⟩ => ⟨S5000x32, .f32⟩
  | .local _ .vmem, ⟨4, _⟩ => ⟨S5000x32, .f32⟩
  | .local _ .vmem, ⟨5, _⟩ => ⟨S5000x32, .f32⟩
  | .local _ .vmem, ⟨6, _⟩ => ⟨S5000x32, .f32⟩
  | .local _ .vmem, ⟨7, _⟩ => ⟨S5000x64, .f32⟩
  | .local _ .vmem, ⟨8, _⟩ => ⟨S5000x64, .f32⟩
  | .local _ .vmem, ⟨9, _⟩ => ⟨S64x32, .f32⟩
  | .local _ .vmem, ⟨10, _⟩ => ⟨S1x32, .f32⟩
  | .local _ .vmem, ⟨11, _⟩ => ⟨S32x16, .f32⟩
  | .local _ .vmem, ⟨12, _⟩ => ⟨S5000x32, .f32⟩
  | .local _ .vmem, ⟨13, _⟩ => ⟨S5000x32, .f32⟩
  | .local _ .vmem, ⟨14, _⟩ => ⟨S5000x16, .f32⟩
  | .local _ .vmem, ⟨15, _⟩ => ⟨S5000x16, .f32⟩
  | .local _ .vmem, ⟨16, _⟩ => ⟨S5000x16, .f32⟩
  | .local _ .vmem, ⟨17, _⟩ => ⟨S5000x16, .f32⟩
  | .local _ .vmem, ⟨18, _⟩ => ⟨S5000x32, .f32⟩
  | .local _ .vmem, ⟨19, _⟩ => ⟨S5000x32, .f32⟩
  | .local _ .vmem, ⟨20, _⟩ => ⟨S32x16, .f32⟩
  | .local _ .vmem, ⟨21, _⟩ => ⟨S1x16, .f32⟩
  | .local _ .vmem, ⟨22, _⟩ => ⟨S16x2, .f32⟩
  | .local _ .vmem, ⟨23, _⟩ => ⟨S5000x16, .f32⟩
  | .local _ .vmem, ⟨24, _⟩ => ⟨S5000x16, .f32⟩
  | .local _ .vmem, ⟨25, _⟩ => ⟨S5000x2, .f32⟩
  | .local _ .vmem, ⟨26, _⟩ => ⟨S5000x2, .f32⟩
  | .local _ .vmem, ⟨27, _⟩ => ⟨S5000x2, .f32⟩
  | .local _ .vmem, ⟨28, _⟩ => ⟨S5000x2, .f32⟩
  | .local _ .vmem, ⟨29, _⟩ => ⟨S5000x16, .f32⟩
  | .local _ .vmem, ⟨30, _⟩ => ⟨S5000x16, .f32⟩
  | .local _ .vmem, ⟨31, _⟩ => ⟨S16x2, .f32⟩
  | .local _ .vmem, ⟨32, _⟩ => ⟨S1x2, .f32⟩
  | .local _ .vmem, ⟨33, _⟩ => ⟨S5000x2, .f32⟩
  | .local _ .vmem, ⟨34, _⟩ => ⟨S5000x2, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18_0 : Ref sig .tc := ⟨.hbm, 32, rfl⟩
abbrev main_v18_1 : Ref sig .tc := ⟨.hbm, 33, rfl⟩
abbrev main_v19 : Ref sig .tc := ⟨.hbm, 34, rfl⟩
abbrev main_c_1 : Ref sig .tc := ⟨.hbm, 35, rfl⟩
abbrev main_v20 : Ref sig .tc := ⟨.hbm, 36, rfl⟩
abbrev main_v21 : Ref sig .tc := ⟨.hbm, 37, rfl⟩
abbrev main_c_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_3 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32_0 : Ref sig .tc := ⟨.hbm, 50, rfl⟩
abbrev main_v32_1 : Ref sig .tc := ⟨.hbm, 51, rfl⟩
abbrev main_v33 : Ref sig .tc := ⟨.hbm, 52, rfl⟩
abbrev main_c_4 : Ref sig .tc := ⟨.hbm, 53, rfl⟩
abbrev main_v34 : Ref sig .tc := ⟨.hbm, 54, rfl⟩
abbrev main_v35 : Ref sig .tc := ⟨.hbm, 55, rfl⟩
abbrev main_c_5 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_6 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc2_stg6_0 : Ref sig .tc := ⟨.vmem, 25, rfl⟩
abbrev cc2_stg6_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg4_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem5_1 : DmaSem sig := 24
abbrev cc2_sem6_0 : DmaSem sig := 25
abbrev cc2_sem6_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem4_1 : DmaSem sig := 34

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x16 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S16x2 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x16 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S5000x2 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x2 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S16x2 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x2 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x2 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  shapeCasts_S32_S1x32 : S32.ShapeCasts S1x32
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x16_S32x16_0_0 : ∀ a, (![0, 0] : Fin 2 → Nat) a + S32x16.size a ≤ S32x16.size a
  h_S32x16 : 0 < S32x16.numel
  inb_S5000x16_S5000x16_0_0 : ∀ a, (![0, 0] : Fin 2 → Nat) a + S5000x16.size a ≤ S5000x16.size a
  h_S5000x16 : 0 < S5000x16.numel
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x2_S16x2_0_0 : ∀ a, (![0, 0] : Fin 2 → Nat) a + S16x2.size a ≤ S16x2.size a
  h_S16x2 : 0 < S16x2.numel
  inb_S5000x2_S5000x2_0_0 : ∀ a, (![0, 0] : Fin 2 → Nat) a + S5000x2.size a ≤ S5000x2.size a
  h_S5000x2 : 0 < S5000x2.numel
  bcast_S_S100000x2 : S_.BroadcastsInDim S100000x2 (![] : Fin 0 → Fin S100000x2.rank)
  shapeCasts_S2_S1x2 : S2.ShapeCasts S1x2
  shapeCasts_S5000x2_S5000x2 : S5000x2.ShapeCasts S5000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  reduces_S5000x2_S5000 : S5000x2.Reduces [1] S5000
  shapeCasts_S5000_S5000x1 : S5000.ShapeCasts S5000x1
  broadcasts_S5000x1_S5000x2 : S5000x1.Broadcasts S5000x2
  dot_S5000x64_S64x32_S5000x32_1_0_0_1_n_n_wf : DotDims.WF S5000x64 S64x32 S5000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S5000x32_S32x16_S5000x16_1_0_0_1_n_n_wf : DotDims.WF S5000x32 S32x16 S5000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S5000x16_S16x2_S5000x2_1_0_0_1_n_n_wf : DotDims.WF S5000x16 S16x2 S5000x2 [1] [0] [0] [1] [] []
  gather_S100000x2_S1600000x1_S1600000x2_1_0_n_n_0_1_12_wf : GatherDims.WF S100000x2 S1600000x1 S1600000x2 [1] [0] [] [0] [] 1 ![1, 2]
  scatter_S100000x2_S1600000x1_S1600000x2_1_0_0_1_wf : ScatterDims.WF S100000x2 S1600000x1 S1600000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x32.size a ≤ S64x32.size a
  hwx0_1 : ∀ i : grid0.Coords, EltTy.bits .f32 = 32 ∨ (Rect.block (s := S64x32) S64x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S100000x32.size a
  hwx0_2 : ∀ i : grid0.Coords, EltTy.bits .f32 = 32 ∨ (Rect.block (s := S100000x32) S5000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x16.size a ≤ S32x16.size a
  hwx1_4 : ∀ i : grid1.Coords, EltTy.bits .f32 = 32 ∨ (Rect.block (s := S32x16) S32x16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x32.size a ≤ S100000x32.size a
  hwx1_5 : ∀ i : grid1.Coords, EltTy.bits .f32 = 32 ∨ (Rect.block (s := S100000x32) S5000x32.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x16.size a ≤ S100000x16.size a
  hwx1_6 : ∀ i : grid1.Coords, EltTy.bits .f32 = 32 ∨ (Rect.block (s := S100000x16) S5000x16.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x32.size a ≤ S100000x32.size a
  hwx2_1 : ∀ i : grid2.Coords, EltTy.bits .f32 = 32 ∨ (Rect.block (s := S100000x32) S5000x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x16.size a ≤ S32x16.size a
  hwx2_2 : ∀ i : grid2.Coords, EltTy.bits .f32 = 32 ∨ (Rect.block (s := S32x16) S32x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x16.size a ≤ S1x16.size a
  hwx2_3 : ∀ i : grid2.Coords, EltTy.bits .f32 = 32 ∨ (Rect.block (s := S1x16) S1x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S16x2.size a ≤ S16x2.size a
  hwx2_4 : ∀ i : grid2.Coords, EltTy.bits .f32 = 32 ∨ (Rect.block (s := S16x2) S16x2.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x16.size a ≤ S100000x16.size a
  hwx2_5 : ∀ i : grid2.Coords, EltTy.bits .f32 = 32 ∨ (Rect.block (s := S100000x16) S5000x16.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x2.size a ≤ S100000x2.size a
  hwx2_6 : ∀ i : grid2.Coords, EltTy.bits .f32 = 32 ∨ (Rect.block (s := S100000x2) S5000x2.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x2.size a ≤ S100000x2.size a
  hwx3_0 : ∀ i : grid3.Coords, EltTy.bits .f32 = 32 ∨ (Rect.block (s := S100000x2) S5000x2.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x16.size a ≤ S100000x16.size a
  hwx3_1 : ∀ i : grid3.Coords, EltTy.bits .f32 = 32 ∨ (Rect.block (s := S100000x16) S5000x16.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S16x2.size a ≤ S16x2.size a
  hwx3_2 : ∀ i : grid3.Coords, EltTy.bits .f32 = 32 ∨ (Rect.block (s := S16x2) S16x2.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x2.size a ≤ S1x2.size a
  hwx3_3 : ∀ i : grid3.Coords, EltTy.bits .f32 = 32 ∨ (Rect.block (s := S1x2) S1x2.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x2.size a ≤ S100000x2.size a
  hwx3_4 : ∀ i : grid3.Coords, EltTy.bits .f32 = 32 ∨ (Rect.block (s := S100000x2) S5000x2.size (cc3_transform_4 i) (hinb3_4 i)).WholeWords (EltTy.packing .f32)

variable [Facts₀]

def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x32_S32x16_S5000x16_1_0_0_1_n_n : DotDims S5000x32 S32x16 S5000x16 where
  lhsContracting := [1]
  rhsContracting := [0]
  lhsNonContracting := [0]
  rhsNonContracting := [1]
  lhsBatch := []
  rhsBatch := []
  wf := dot_S5000x32_S32x16_S5000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S5000x16_S16x2_S5000x2_1_0_0_1_n_n : DotDims S5000x16 S16x2 S5000x2 where
  lhsContracting := [1]
  rhsContracting := [0]
  lhsNonContracting := [0]
  rhsNonContracting := [1]
  lhsBatch := []
  rhsBatch := []
  wf := dot_S5000x16_S16x2_S5000x2_1_0_0_1_n_n_wf
def gather_S100000x2_S1600000x1_S1600000x2_1_0_n_n_0_1_12 : GatherDims S100000x2 S1600000x1 S1600000x2 where
  offsetDims := [1]
  collapsedSliceDims := [0]
  operandBatchingDims := []
  startIndicesBatchingDims := []
  startIndexMap := [0]
  indexVectorDim := 1
  sliceSizes := ![1, 2]
  wf := gather_S100000x2_S1600000x1_S1600000x2_1_0_n_n_0_1_12_wf
def scatter_S100000x2_S1600000x1_S1600000x2_1_0_0_1 : ScatterDims S100000x2 S1600000x1 S1600000x2 where
  updateWindowDims := [1]
  insertedWindowDims := [0]
  scatterDimsToOperandDims := [0]
  indexVectorDim := 1
  wf := scatter_S100000x2_S1600000x1_S1600000x2_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v16) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S32x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v18_0) S5000x32.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v18_1) S5000x16.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v30) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18_0) S5000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S32x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v31) S1x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S16x2.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v32_0) S5000x16.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v32_1) S5000x2.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v44) S5000x2.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v32_0) S5000x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S16x2.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v45) S1x2.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v46) S5000x2.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x2 : Shape := ⟨2, ![16, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x32 : Shape := ⟨2, ![100000, 32]⟩
abbrev S1x32 : Shape := ⟨2, ![1, 32]⟩
abbrev S1600000x32 : Shape := ⟨2, ![1600000, 32]⟩
abbrev S100000x16 : Shape := ⟨2, ![100000, 16]⟩
abbrev S1x16 : Shape := ⟨2, ![1, 16]⟩
abbrev S1600000x16 : Shape := ⟨2, ![1600000, 16]⟩
abbrev S100000x2 : Shape := ⟨2, ![100000, 2]⟩
abbrev S1x2 : Shape := ⟨2, ![1, 2]⟩
abbrev S100000 : Shape := ⟨1, ![100000]⟩
abbrev S100000x1 : Shape := ⟨2, ![100000, 1]⟩

abbrev nBuf : Space → Nat
  | .hbm => 92
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x32, .f32⟩
  | .hbm, ⟨3, _⟩ => ⟨S64x32, .f32⟩
  | .hbm, ⟨4, _⟩ => ⟨S32, .f32⟩
  | .hbm, ⟨5, _⟩ => ⟨S32x16, .f32⟩
  | .hbm, ⟨6, _⟩ => ⟨S32x16, .f32⟩
  | .hbm, ⟨7, _⟩ => ⟨S16, .f32⟩
  | .hbm, ⟨8, _⟩ => ⟨S16x2, .f32⟩
  | .hbm, ⟨9, _⟩ => ⟨S16x2, .f32⟩
  | .hbm, ⟨10, _⟩ => ⟨S2, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x64, .f32⟩
  | .hbm, ⟨24, _⟩ => ⟨S_, .f32⟩
  | .hbm, ⟨25, _⟩ => ⟨S100000x64, .f32⟩
  | .hbm, ⟨26, _⟩ => ⟨S1600000x1, .i32⟩
  | .hbm, ⟨27, _⟩ => ⟨S100000x64, .f32⟩
  | .hbm, ⟨28, _⟩ => ⟨S100000x32, .f32⟩
  | .hbm, ⟨29, _⟩ => ⟨S100000x32, .f32⟩
  | .hbm, ⟨30, _⟩ => ⟨S100000x32, .f32⟩
  | .hbm, ⟨31, _⟩ => ⟨S1x32, .f32⟩
  | .hbm, ⟨32, _⟩ => ⟨S100000x32, .f32⟩
  | .hbm, ⟨33, _⟩ => ⟨S100000x32, .f32⟩
  | .hbm, ⟨34, _⟩ => ⟨S_, .f32⟩
  | .hbm, ⟨35, _⟩ => ⟨S100000x32, .f32⟩
  | .hbm, ⟨36, _⟩ => ⟨S100000x32, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x32, .f32⟩
  | .hbm, ⟨46, _⟩ => ⟨S_, .f32⟩
  | .hbm, ⟨47, _⟩ => ⟨S100000x32, .f32⟩
  | .hbm, ⟨48, _⟩ => ⟨S1600000x1, .i32⟩
  | .hbm, ⟨49, _⟩ => ⟨S100000x32, .f32⟩
  | .hbm, ⟨50, _⟩ => ⟨S100000x16, .f32⟩
  | .hbm, ⟨51, _⟩ => ⟨S100000x16, .f32⟩
  | .hbm, ⟨52, _⟩ => ⟨S100000x16, .f32⟩
  | .hbm, ⟨53, _⟩ => ⟨S1x16, .f32⟩
  | .hbm, ⟨54, _⟩ => ⟨S100000x16, .f32⟩
  | .hbm, ⟨55, _⟩ => ⟨S100000x16, .f32⟩
  | .hbm, ⟨56, _⟩ => ⟨S_, .f32⟩
  | .hbm, ⟨57, _⟩ => ⟨S100000x16, .f32⟩
  | .hbm, ⟨58, _⟩ => ⟨S100000x16, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1600000x16, .f32⟩
  | .hbm, ⟨68, _⟩ => ⟨S_, .f32⟩
  | .hbm, ⟨69, _⟩ => ⟨S100000x16, .f32⟩
  | .hbm, ⟨70, _⟩ => ⟨S1600000x1, .i32⟩
  | .hbm, ⟨71, _⟩ => ⟨S100000x16, .f32⟩
  | .hbm, ⟨72, _⟩ => ⟨S100000x2, .f32⟩
  | .hbm, ⟨73, _⟩ => ⟨S100000x2, .f32⟩
  | .hbm, ⟨74, _⟩ => ⟨S100000x2, .f32⟩
  | .hbm, ⟨75, _⟩ => ⟨S1x2, .f32⟩
  | .hbm, ⟨76, _⟩ => ⟨S100000x2, .f32⟩
  | .hbm, ⟨77, _⟩ => ⟨S100000x2, .f32⟩
  | .hbm, ⟨78, _⟩ => ⟨S_, .f32⟩
  | .hbm, ⟨79, _⟩ => ⟨S100000, .f32⟩
  | .hbm, ⟨80, _⟩ => ⟨S_, .f32⟩
  | .hbm, ⟨81, _⟩ => ⟨S100000, .f32⟩
  | .hbm, ⟨82, _⟩ => ⟨S100000, .f32⟩
  | .hbm, ⟨83, _⟩ => ⟨S100000x1, .f32⟩
  | .hbm, ⟨84, _⟩ => ⟨S100000x2, .f32⟩
  | .hbm, ⟨85, _⟩ => ⟨S100000x2, .f32⟩
  | .hbm, ⟨86, _⟩ => ⟨S100000x2, .f32⟩
  | .hbm, ⟨87, _⟩ => ⟨S_, .f32⟩
  | .hbm, ⟨88, _⟩ => ⟨S100000, .f32⟩
  | .hbm, ⟨89, _⟩ => ⟨S100000x1, .f32⟩
  | .hbm, ⟨90, _⟩ => ⟨S100000x2, .f32⟩
  | .hbm, ⟨91, _⟩ => ⟨S100000x2, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_call0_cst : Ref sig .tc := ⟨.hbm, 34, rfl⟩
abbrev main_call0_v0 : Ref sig .tc := ⟨.hbm, 35, rfl⟩
abbrev main_v20 : Ref sig .tc := ⟨.hbm, 36, rfl⟩
abbrev main_c_1 : Ref sig .tc := ⟨.hbm, 37, rfl⟩
abbrev main_v21 : Ref sig .tc := ⟨.hbm, 38, rfl⟩
abbrev main_v22 : Ref sig .tc := ⟨.hbm, 39, rfl⟩
abbrev main_c_2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_call1_cst : Ref sig .tc := ⟨.hbm, 56, rfl⟩
abbrev main_call1_v0 : Ref sig .tc := ⟨.hbm, 57, rfl⟩
abbrev main_v37 : Ref sig .tc := ⟨.hbm, 58, rfl⟩
abbrev main_c_4 : Ref sig .tc := ⟨.hbm, 59, rfl⟩
abbrev main_v38 : Ref sig .tc := ⟨.hbm, 60, rfl⟩
abbrev main_v39 : Ref sig .tc := ⟨.hbm, 61, rfl⟩
abbrev main_c_5 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_6 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_7 : Ref sig .tc := ⟨.hbm, 78, rfl⟩
abbrev main_v54 : Ref sig .tc := ⟨.hbm, 79, rfl⟩
abbrev main_cst_8 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_9 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x32_S100000x32_1_0_0_1_n_n_wf : DotDims.WF S100000x64 S64x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x16_S100000x16_1_0_0_1_n_n_wf : DotDims.WF S100000x32 S32x16 S100000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S100000x16_S16x2_S100000x2_1_0_0_1_n_n_wf : DotDims.WF S100000x16 S16x2 S100000x2 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S100000x16_S16x2_S100000x2_1_0_0_1_n_n : DotDims S100000x16 S16x2 S100000x2 where
  lhsContracting := [1]
  rhsContracting := [0]
  lhsNonContracting := [0]
  rhsNonContracting := [1]
  lhsBatch := []
  rhsBatch := []
  wf := dot_S100000x16_S16x2_S100000x2_1_0_0_1_n_n_wf

class Facts : Prop extends Facts₀ where

variable [Facts]
-- ==== Proof.LibGnnSpec.lean ====
/-
  The graph network both programs compute, over the extended reals and over arbitrary extents.

  A node feature matrix has one row per node. An edge `e` carries two index words: its source word names the row it
  reads (read as a signed integer and clamped into the rows), its destination word the row it adds to (an edge whose
  destination is not a row adds nowhere). The neighbour sum `agg x` has, at node `i` and column `c`, the sum of
  `x` at the source rows of the edges into `i`.

  One layer is, before its activation, `(agg x) · W_rel + x · W_root + b`. It can be formed in two orders: summing the
  neighbours' features and then multiplying by `W_rel` (`preAggFirst`), or multiplying every node's features by
  `W_rel` and then summing the neighbours' products (`preMulFirst`). The two agree when the features and the weights
  are finite, because a finite product distributes over a finite sum and two finite sums exchange; over the extended
  reals proper they need not agree.

  The network is three such layers, the first two followed by the positive part, the last by a softmax over each row.
-/
import Idealize.ShloMosaic.PureOps.Ideal
import Idealize.ShloMosaic.Lib.ValueIdx

noncomputable section

open scoped BigOperators

namespace Cert.Gnn

open Idealize.ShloMosaic Idealize.ShloMosaic.ValueIdx

/-- An `a × b` matrix of extended reals, indexed as the programs index a rank-2 array. -/
abbrev Mat (a b : ℕ) : Type := (⟨2, ![a, b]⟩ : Shape).Idx → EReal

/-- A vector of `n` extended reals. -/
abbrev Vec1 (n : ℕ) : Type := (⟨1, ![n]⟩ : Shape).Idx → EReal

/-- The edges' index words, one per edge, as a column. -/
abbrev EdgeIdx (R : ℕ) : Type := IVec ⟨2, ![R, 1]⟩ 32

/-- Every entry is a real number (neither infinity). -/
def IsReal {α : Type} (a : α → EReal) : Prop := ∀ i, a i ≠ ⊤ ∧ a i ≠ ⊥

/-- The matrix product: entry `(r, c)` is the sum over `k` of `l (r, k) · r (k, c)`. -/
def mm {M K N : ℕ} (l : Mat M K) (r : Mat K N) : Mat M N :=
  fun i => ∑ k : Fin K, l (ix2 (i 0) k) * r (ix2 k (i 1))

/-- The row an edge reads: its source word as a signed integer, clamped into `[0, N − 1]`. -/
def srcRow {N R : ℕ} (hN : 0 < N) (sidx : EdgeIdx R) (e : Fin R) : Fin N :=
  ⟨min (sidx (ix2 e 0)).toInt.toNat (N - 1), by omega⟩

/-- The edges into row `i`: those whose destination word, read signed, is `i`. -/
def inEdges {R : ℕ} (didx : EdgeIdx R) (i : ℕ) : Finset (Fin R) :=
  Finset.univ.filter fun e : Fin R => (didx (ix2 e 0)).toInt = (i : Int)

/-- The neighbour sum: at `(i, c)`, the sum over the edges into `i` of `x` at the edge's source row and column `c`. -/
def agg {N R C : ℕ} (hN : 0 < N) (sidx didx : EdgeIdx R) (x : Mat N C) : Mat N C :=
  fun i => ∑ e ∈ inEdges didx (i 0).val, x (ix2 (srcRow hN sidx e) (i 1))

/-- Add a vector to every row. -/
def addRow {N C : ℕ} (a : Mat N C) (b : Vec1 C) : Mat N C := fun i => a i + b (ix1 (i 1))

/-- The positive part, entry by entry. -/
def relu {α : Type} (a : α → EReal) : α → EReal := fun i => max (a i) 0

/-- A layer before its activation, multiplying first: `(x · W_root + agg (x · W_rel)) + b`. -/
def preMulFirst {N R Ci Co : ℕ} (hN : 0 < N) (sidx didx : EdgeIdx R) (x : Mat N Ci) (wrel wroot : Mat Ci Co)
    (b : Vec1 Co) : Mat N Co :=
  addRow (fun i => mm x wroot i + agg hN sidx didx (mm x wrel) i) b

/-- A layer before its activation, summing the neighbours first: `((agg x) · W_rel + x · W_root) + b`. -/
def preAggFirst {N R Ci Co : ℕ} (hN : 0 < N) (sidx didx : EdgeIdx R) (x : Mat N Ci) (wrel wroot : Mat Ci Co)
    (b : Vec1 Co) : Mat N Co :=
  addRow (fun i => mm (agg hN sidx didx x) wrel i + mm x wroot i) b

/-- The float word of negative infinity, as both programs write it (never evaluated: it is the same word on both sides). -/
abbrev negInf : EReal := Ideal.ofBits .f32 0xFF800000#32

/-- A row's maximum as both programs take it: the fold of `max` from negative infinity over the row, then once more
    against negative infinity. -/
def rowMax {N C : ℕ} (t : Mat N C) (r : Fin N) : EReal :=
  max negInf ((Finset.univ : Finset (Fin C)).fold max negInf fun k => t (ix2 r k))

/-- The softmax of each row: `exp (t − max) / ∑ exp (t − max)`. -/
def softmax {N C : ℕ} (t : Mat N C) : Mat N C :=
  fun i => Ideal.div (Ideal.exp (t i - rowMax t (i 0)))
    (∑ k : Fin C, Ideal.exp (t (ix2 (i 0) k) - rowMax t (i 0)))

/-- The three-layer network, every layer multiplying first. -/
def netMulFirst {N R C0 C1 C2 C3 : ℕ} (hN : 0 < N) (sidx didx : EdgeIdx R) (z : Mat N C0)
    (wrel1 wroot1 : Mat C0 C1) (b1 : Vec1 C1) (wrel2 wroot2 : Mat C1 C2) (b2 : Vec1 C2)
    (wrel3 wroot3 : Mat C2 C3) (b3 : Vec1 C3) : Mat N C3 :=
  softmax (preMulFirst hN sidx didx
    (relu (preMulFirst hN sidx didx (relu (preMulFirst hN sidx didx z wrel1 wroot1 b1)) wrel2 wroot2 b2))
    wrel3 wroot3 b3)

/-- The three-layer network, every layer summing the neighbours first. -/
def netAggFirst {N R C0 C1 C2 C3 : ℕ} (hN : 0 < N) (sidx didx : EdgeIdx R) (z : Mat N C0)
    (wrel1 wroot1 : Mat C0 C1) (b1 : Vec1 C1) (wrel2 wroot2 : Mat C1 C2) (b2 : Vec1 C2)
    (wrel3 wroot3 : Mat C2 C3) (b3 : Vec1 C3) : Mat N C3 :=
  softmax (preAggFirst hN sidx didx
    (relu (preAggFirst hN sidx didx (relu (preAggFirst hN sidx didx z wrel1 wroot1 b1)) wrel2 wroot2 b2))
    wrel3 wroot3 b3)

end Cert.Gnn

end
-- ==== Proof.LibGnnAlgebra.lean ====
/-
  The algebra of the two layer orders.

  A family of extended reals none of whose entries is an infinity is the entrywise image of a family of reals. On such
  images the matrix product, the neighbour sum, the addition of a row and the positive part are again images, because
  the inclusion of the reals commutes with products, with finite sums and with maxima. The two orders of a layer are
  then compared inside the reals, where a product distributes over a finite sum and two finite sums exchange.
-/
import proofs.«120834_j13211319403151_2_alg».proof.Proof.LibGnnSpec

noncomputable section

open scoped BigOperators

namespace Cert.Gnn

open Idealize.ShloMosaic Idealize.ShloMosaic.ValueIdx

/-- The inclusion of the reals into the extended reals commutes with finite sums. -/
theorem coe_finset_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The entrywise image of a family of reals. -/
def ofReal {α : Type} (f : α → ℝ) : α → EReal := fun i => (f i : EReal)

/-- An entrywise image of reals has no infinite entry. -/
theorem isReal_ofReal {α : Type} (f : α → ℝ) : IsReal (ofReal f) :=
  fun i => ⟨EReal.coe_ne_top (f i), EReal.coe_ne_bot (f i)⟩

/-- A family with no infinite entry is the entrywise image of its real parts. -/
theorem IsReal.exists_ofReal {α : Type} {a : α → EReal} (ha : IsReal a) : ∃ f : α → ℝ, a = ofReal f :=
  ⟨fun i => (a i).toReal, funext fun i => (EReal.coe_toReal (ha i).1 (ha i).2).symm⟩

/-- The matrix product of two images is the image of the real matrix product. -/
theorem mm_ofReal {M K N : ℕ} (l : (⟨2, ![M, K]⟩ : Shape).Idx → ℝ) (r : (⟨2, ![K, N]⟩ : Shape).Idx → ℝ) :
    mm (ofReal l) (ofReal r) = ofReal (fun i => ∑ k : Fin K, l (ix2 (i 0) k) * r (ix2 k (i 1))) := by
  funext i
  simp only [mm, ofReal, coe_finset_sum, EReal.coe_mul]

/-- The neighbour sum of an image is the image of the real neighbour sum. -/
theorem agg_ofReal {N R C : ℕ} (hN : 0 < N) (sidx didx : EdgeIdx R) (x : (⟨2, ![N, C]⟩ : Shape).Idx → ℝ) :
    agg hN sidx didx (ofReal x)
      = ofReal (fun i => ∑ e ∈ inEdges didx (i 0).val, x (ix2 (srcRow hN sidx e) (i 1))) := by
  funext i
  simp only [agg, ofReal, coe_finset_sum]

/-- Adding the image of a row to the image of a matrix gives the image of the real sum. -/
theorem addRow_ofReal {N C : ℕ} (a : (⟨2, ![N, C]⟩ : Shape).Idx → ℝ) (b : (⟨1, ![C]⟩ : Shape).Idx → ℝ) :
    addRow (ofReal a) (ofReal b) = ofReal (fun i => a i + b (ix1 (i 1))) := by
  funext i
  simp only [addRow, ofReal, EReal.coe_add]

/-- The matrix product of two matrices of reals is a matrix of reals. -/
theorem isReal_mm {M K N : ℕ} {l : Mat M K} {r : Mat K N} (hl : IsReal l) (hr : IsReal r) : IsReal (mm l r) := by
  obtain ⟨l', rfl⟩ := hl.exists_ofReal
  obtain ⟨r', rfl⟩ := hr.exists_ofReal
  rw [mm_ofReal]
  exact isReal_ofReal _

/-- The neighbour sum of a matrix of reals is a matrix of reals. -/
theorem isReal_agg {N R C : ℕ} (hN : 0 < N) (sidx didx : EdgeIdx R) {x : Mat N C} (hx : IsReal x) :
    IsReal (agg hN sidx didx x) := by
  obtain ⟨x', rfl⟩ := hx.exists_ofReal
  rw [agg_ofReal]
  exact isReal_ofReal _

/-- The entrywise sum of two families of reals is a family of reals. -/
theorem isReal_add {α : Type} {a b : α → EReal} (ha : IsReal a) (hb : IsReal b) : IsReal (fun i => a i + b i) := by
  obtain ⟨a', rfl⟩ := ha.exists_ofReal
  obtain ⟨b', rfl⟩ := hb.exists_ofReal
  intro i
  simp only [ofReal, ← EReal.coe_add]
  exact ⟨EReal.coe_ne_top _, EReal.coe_ne_bot _⟩

/-- Adding a row of reals to a matrix of reals gives a matrix of reals. -/
theorem isReal_addRow {N C : ℕ} {a : Mat N C} {b : Vec1 C} (ha : IsReal a) (hb : IsReal b) : IsReal (addRow a b) := by
  obtain ⟨a', rfl⟩ := ha.exists_ofReal
  obtain ⟨b', rfl⟩ := hb.exists_ofReal
  rw [addRow_ofReal]
  exact isReal_ofReal _

/-- The positive part of a family of reals is a family of reals: each entry is the entry itself or zero. -/
theorem isReal_relu {α : Type} {a : α → EReal} (ha : IsReal a) : IsReal (relu a) := by
  intro i
  show max (a i) 0 ≠ ⊤ ∧ max (a i) 0 ≠ ⊥
  rcases max_choice (a i) 0 with h | h
  · rw [h]; exact ha i
  · rw [h]; exact ⟨EReal.zero_ne_top, EReal.zero_ne_bot⟩

/-- A layer summing the neighbours first, on reals, gives reals. -/
theorem isReal_preAggFirst {N R Ci Co : ℕ} (hN : 0 < N) (sidx didx : EdgeIdx R) (x : Mat N Ci)
    (wrel wroot : Mat Ci Co) (b : Vec1 Co) (hx : IsReal x) (hwrel : IsReal wrel) (hwroot : IsReal wroot)
    (hb : IsReal b) : IsReal (preAggFirst hN sidx didx x wrel wroot b) := by
  unfold preAggFirst
  exact isReal_addRow (isReal_add (isReal_mm (isReal_agg hN sidx didx hx) hwrel) (isReal_mm hx hwroot)) hb

/-- Multiplying and then summing the neighbours equals summing the neighbours and then multiplying, on reals:
    `∑ e, ∑ k, x (row e, k) · w (k, c) = ∑ k, (∑ e, x (row e, k)) · w (k, c)`. -/
theorem agg_mm {N R Ci Co : ℕ} (hN : 0 < N) (sidx didx : EdgeIdx R) (x : Mat N Ci) (w : Mat Ci Co)
    (hx : IsReal x) (hw : IsReal w) : agg hN sidx didx (mm x w) = mm (agg hN sidx didx x) w := by
  obtain ⟨x', rfl⟩ := hx.exists_ofReal
  obtain ⟨w', rfl⟩ := hw.exists_ofReal
  rw [mm_ofReal, agg_ofReal, agg_ofReal, mm_ofReal]
  congr 1
  funext i
  show ∑ e ∈ inEdges didx (i 0).val, ∑ k : Fin Ci, x' (ix2 (srcRow hN sidx e) k) * w' (ix2 k (i 1))
      = ∑ k : Fin Ci, (∑ e ∈ inEdges didx (i 0).val, x' (ix2 (srcRow hN sidx e) k)) * w' (ix2 k (i 1))
  rw [Finset.sum_comm]
  exact Finset.sum_congr rfl fun k _ => (Finset.sum_mul _ _ _).symm

/-- The two orders of a layer agree when the features and the neighbour weights are real. -/
theorem preMulFirst_eq_preAggFirst {N R Ci Co : ℕ} (hN : 0 < N) (sidx didx : EdgeIdx R) (x : Mat N Ci)
    (wrel wroot : Mat Ci Co) (b : Vec1 Co) (hx : IsReal x) (hwrel : IsReal wrel) :
    preMulFirst hN sidx didx x wrel wroot b = preAggFirst hN sidx didx x wrel wroot b := by
  unfold preMulFirst preAggFirst
  rw [agg_mm hN sidx didx x wrel hx hwrel]
  congr 1
  funext i
  exact add_comm _ _

/-- The two networks agree on real inputs and real parameters: layer by layer, the inputs of a layer agree and are
    real, so its two orders agree and its output is real; the softmax is applied to equal arguments. -/
theorem net_eq {N R C0 C1 C2 C3 : ℕ} (hN : 0 < N) (sidx didx : EdgeIdx R) (z : Mat N C0)
    (wrel1 wroot1 : Mat C0 C1) (b1 : Vec1 C1) (wrel2 wroot2 : Mat C1 C2) (b2 : Vec1 C2)
    (wrel3 wroot3 : Mat C2 C3) (b3 : Vec1 C3) (hz : IsReal z)
    (hwrel1 : IsReal wrel1) (hwroot1 : IsReal wroot1) (hb1 : IsReal b1)
    (hwrel2 : IsReal wrel2) (hwroot2 : IsReal wroot2) (hb2 : IsReal b2)
    (hwrel3 : IsReal wrel3) (hwroot3 : IsReal wroot3) (hb3 : IsReal b3) :
    netMulFirst hN sidx didx z wrel1 wroot1 b1 wrel2 wroot2 b2 wrel3 wroot3 b3
      = netAggFirst hN sidx didx z wrel1 wroot1 b1 wrel2 wroot2 b2 wrel3 wroot3 b3 := by
  unfold netMulFirst netAggFirst
  have r1 := isReal_relu (isReal_preAggFirst hN sidx didx z wrel1 wroot1 b1 hz hwrel1 hwroot1 hb1)
  rw [preMulFirst_eq_preAggFirst hN sidx didx z wrel1 wroot1 b1 hz hwrel1]
  have r2 := isReal_relu (isReal_preAggFirst hN sidx didx _ wrel2 wroot2 b2 r1 hwrel2 hwroot2 hb2)
  rw [preMulFirst_eq_preAggFirst hN sidx didx _ wrel2 wroot2 b2 r1 hwrel2]
  rw [preMulFirst_eq_preAggFirst hN sidx didx _ wrel3 wroot3 b3 r2 hwrel3]

end Cert.Gnn

end
-- ==== Proof.PreReal.lean ====
/-
  The precondition read back: every float argument is an array of real numbers.

  The precondition is the conjunction, over the ten float arguments, of "every entry x has |x| < +∞", where |x| is
  max x (−x) and +∞ is the float word 0x7F800000. Over the extended reals that word is ⊤, and max x (−x) < ⊤ says
  that x is neither ⊤ nor ⊥.
-/
import proofs.«120834_j13211319403151_2_alg».proof.Pre_finite_inputs
import proofs.«120834_j13211319403151_2_alg».proof.Proof.LibGnnSpec
import Idealize.ShloMosaic.Lib.ReduceAll

noncomputable section

namespace Cert.PreReal

open Idealize.ShloMosaic Idealize.ShloMosaic.ValueIdx Cert.Pre_finite_inputs

/-- The float word of positive infinity is `⊤`. -/
theorem posInf_eq_top : Ideal.ofBits .f32 0x7F800000#32 = (⊤ : EReal) := by
  simp [Ideal.ofBits, Ideal.ieee]

/-- `max x (−x) < ⊤` says that `x` is a real number. -/
theorem real_of_abs_lt_top (x : EReal) (h : max x (-x) < ⊤) : x ≠ ⊤ ∧ x ≠ ⊥ := by
  constructor
  · rintro rfl; simp at h
  · rintro rfl; simp at h

/-- One comparison `|x| < +∞` that came out 1 says that `x` is a real number. -/
theorem real_of_cmp (x : EReal)
    (h : Ideal.cmp .olt (max x (-x)) (Ideal.ofBits .f32 0x7F800000#32) = 1#1) : x ≠ ⊤ ∧ x ≠ ⊥ := by
  rw [posInf_eq_top] at h
  refine real_of_abs_lt_top x ?_
  by_cases hlt : max x (-x) < ⊤
  · exact hlt
  · have h' : BitVec.ofBool (decide (max x (-x) < ⊤)) = 1#1 := h
    rw [decide_eq_false hlt] at h'
    exact absurd h' (by decide)

/-- A rank-0 array has one index. -/
instance : Subsingleton S_.Idx := ⟨fun a b => funext fun d => d.elim0⟩

/-- The test "every entry has `|x| < +∞`" as printed (the comparison of `|x|` with the broadcast constant `+∞`, reduced
    by `and` over every axis) being 1 says that every entry of `x` is a real number. -/
theorem isReal_of_all {s u v t : Shape} {axes : List (Fin s.rank)} [Subsingleton t.Idx]
    (x : FVec Ideal s .f32) (dims : Fin u.rank → Fin s.rank) (hb : u.BroadcastsInDim s dims)
    (hr : s.ReducesTo axes t) (hv : 0 < v.numel) (init : IVec v 1) (j : t.Idx)
    (e : Host.reduce IntOp.andi (cmpf .olt (Host.absf x) (broadcastInDim s dims hb (constant u .f32 0x7F800000#32)))
      init hr hv j = 1#1) : Cert.Gnn.IsReal x := by
  intro i
  exact real_of_cmp (x i) (Host.reduce_andi_all _ init hr hv j e i)

/-- The precondition at the ideal instance: each of the ten float arguments is an array of real numbers. The
    predicate is the conjunction of the ten tests "every entry has `|x| < +∞`", nested to the left in argument order. -/
theorem isReal_of_fn [Cert.Pre_finite_inputs.Facts]
    (a0 : FVec Ideal S100000x64 .f32) (a1 : IVec S2x1600000 32) (a2 a3 : FVec Ideal S64x32 .f32)
    (a4 : FVec Ideal S32 .f32) (a5 a6 : FVec Ideal S32x16 .f32) (a7 : FVec Ideal S16 .f32)
    (a8 a9 : FVec Ideal S16x2 .f32) (a10 : FVec Ideal S2 .f32)
    (h : Cert.Pre_finite_inputs.fn (F := Ideal) a0 a1 a2 a3 a4 a5 a6 a7 a8 a9 a10 = (fun _ => 1#1)) :
    Cert.Gnn.IsReal a0 ∧ Cert.Gnn.IsReal a2 ∧ Cert.Gnn.IsReal a3 ∧ Cert.Gnn.IsReal a4 ∧ Cert.Gnn.IsReal a5
      ∧ Cert.Gnn.IsReal a6 ∧ Cert.Gnn.IsReal a7 ∧ Cert.Gnn.IsReal a8 ∧ Cert.Gnn.IsReal a9 ∧ Cert.Gnn.IsReal a10 := by
  have h0 := congrFun h ix0
  dsimp only [fn, fn_part1, fn_part2, andi] at h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨isReal_of_all a0 _ _ _ _ _ _ e0, isReal_of_all a2 _ _ _ _ _ _ e2, isReal_of_all a3 _ _ _ _ _ _ e3,
    isReal_of_all a4 _ _ _ _ _ _ e4, isReal_of_all a5 _ _ _ _ _ _ e5, isReal_of_all a6 _ _ _ _ _ _ e6,
    isReal_of_all a7 _ _ _ _ _ _ e7, isReal_of_all a8 _ _ _ _ _ _ e8, isReal_of_all a9 _ _ _ _ _ _ e9,
    isReal_of_all a10 _ _ _ _ _ _ e10⟩

end Cert.PreReal

end
-- ==== Proof.LibHostIndex.lean ====
/-
  THE HOST'S GATHER AND SCATTER-ADD READ AT AN INDEX, for the dimension numbers that row indexing of a matrix and
  cell indexing of a matrix lower to. General lemmas over the extents `N`, `M`, `R`, `C`: nothing here mentions a program.

  * Row scatter-add (a segment sum, `x.at[idx].add(upd)` on rows): operand `[N, C]`, scatter indices `[R, 1]`, updates
    `[R, C]`. Row `e` of the updates lands on row `idx[e, 0]` of the operand, the index read as a signed integer and NOT
    clamped, the column kept; a row whose index is outside `[0, N)` is dropped. So element `(i, c)` of the result is
    `x (i, c)` plus the sum of `upd (e, c)` over the rows `e` whose index is `i` (`scatterAdd_rows_apply`).
  * Cell scatter-add (`x.at[rows, cols].add(v)` on a matrix): operand `[N, M]`, scatter indices `[R, 2]`, updates `[R]`.
    Update `e` lands on cell `(idx[e, 0], idx[e, 1])`, both read signed and not clamped; so element `(i, j)` of the result is
    `x (i, j)` plus the sum of `upd e` over the `e` whose index pair is `(i, j)` (`scatterAdd_cells_apply`).
  * Vector scatter-add (`x.at[idx].add(v)` on a vector): operand `[N]`, scatter indices `[R, 1]`, updates `[R]`: element `i`
    of the result is `x i` plus the sum of `upd e` over the `e` whose signed index is `i` (`scatterAdd_vec_apply`).
  * Row gather (`x[idx]` on a matrix): operand `[N, C]`, start indices `[R, 1]`, result `[R, C]`. Row `e` of the result is
    the operand's row `idx[e, 0]`, the index read signed and CLAMPED into `[0, N − 1]` (`gather_rows_apply`); and the
    same for a vector operand `[N]` (`gather_vec_apply`).

  Each scatter lemma has the same two steps. First the landing place of one update index is computed coordinate by
  coordinate from the dimension numbers (the start is the signed index on the axis the map names, the window coordinate
  is the update's own coordinate on a window axis and zero on an inserted one), which says exactly when an update lands
  on a given element (`…_resultIdx_iff`). Then the sum over the update indices that land there is re-indexed by the
  update's row alone, the other coordinate being forced.
-/
import Idealize.ShloMosaic.PureOps.Ideal
import Idealize.ShloMosaic.Lib.ValueIdx

noncomputable section

open scoped BigOperators

namespace Cert.Lib.HostIndex

open Idealize.ShloMosaic Idealize.ShloMosaic.ValueIdx

/-! ## Row scatter-add: operand `[N, C]`, scatter indices `[R, 1]`, updates `[R, C]` -/

/-- The dimension numbers of a scatter of whole rows: the updates' axis 1 is the window axis (it goes to the operand's
    axis 1), the operand's axis 0 is inserted and is the one the scatter index names. Their conditions `wf` are decided
    on a program's literal shapes. -/
abbrev rowScatterDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section RowScatter
variable {N R C w : Nat} (wf : ScatterDims.WF ⟨2, ![N, C]⟩ ⟨2, ![R, 1]⟩ ⟨2, ![R, C]⟩ [1] [0] [0] 1)

/-- On the row axis the window of update `(e, c')` starts at the signed index `idx[e, 0]` … -/
theorem rowScatter_start0 (idx : IVec ⟨2, ![R, 1]⟩ w) (e : Fin R) (c' : Fin C) :
    (rowScatterDims N R C wf).start (ix2 e c') idx 0 = (idx (ix2 e 0)).toInt := by
  unfold ScatterDims.start
  rw [dif_pos (show (0 : Fin 2) ∈ (rowScatterDims N R C wf).scatterDimsToOperandDims from List.mem_singleton.mpr rfl)]
  have hsi : (rowScatterDims N R C wf).siIdx (ix2 e c') ⟨List.idxOf (0 : Fin 2) (rowScatterDims N R C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and on the column axis, which the map does not name, at `0`. -/
theorem rowScatter_start1 (idx : IVec ⟨2, ![R, 1]⟩ w) (e : Fin R) (c' : Fin C) :
    (rowScatterDims N R C wf).start (ix2 e c') idx 1 = 0 := by
  unfold ScatterDims.start
  rw [dif_neg (show (1 : Fin 2) ∉ ([0] : List (Fin 2)) by decide)]

/-- The row axis is inserted: the window coordinate there is `0` … -/
theorem rowScatter_window0 (e : Fin R) (c' : Fin C) :
    (rowScatterDims N R C wf).window (ix2 e c') 0 = 0 := by
  have h : (0 : Fin 2) ∉ (rowScatterDims N R C wf).sKept := by
    show (0 : Fin 2) ∉ (List.finRange 2).filter (· ∉ ([0] : List (Fin 2)))
    decide
  unfold ScatterDims.window
  rw [dif_neg h]

/-- … and on the column axis it is the update's own column. -/
theorem rowScatter_window1 (e : Fin R) (c' : Fin C) :
    (rowScatterDims N R C wf).window (ix2 e c') 1 = c'.val := by
  unfold ScatterDims.window
  have h : (1 : Fin 2) ∈ (rowScatterDims N R C wf).sKept := by
    show (1 : Fin 2) ∈ (List.finRange 2).filter (· ∉ ([0] : List (Fin 2)))
    decide
  rw [dif_pos h]
  rfl

/-- WHERE AN UPDATE LANDS: update `(e, c')` lands on element `(i, c)` exactly when its signed index is `i` and its
    column is `c`. (When the index is outside `[0, N)` the update lands nowhere, and the right side fails for every `i`.) -/
theorem rowScatter_resultIdx_iff (idx : IVec ⟨2, ![R, 1]⟩ w) (e : Fin R) (c' : Fin C) (i : Fin N) (c : Fin C) :
    (rowScatterDims N R C wf).resultIdx? (ix2 e c') idx = some (ix2 i c)
      ↔ (idx (ix2 e 0)).toInt = (i.val : Int) ∧ c' = c := by
  have hs0 := rowScatter_start0 wf idx e c'
  have hs1 := rowScatter_start1 wf idx e c'
  have hw0 := rowScatter_window0 wf e c'
  have hw1 := rowScatter_window1 wf e c'
  have hi : i.val < N := i.isLt
  have hc' : c'.val < C := c'.isLt
  unfold ScatterDims.resultIdx?
  split
  · rename_i h
    rw [Option.some.injEq]
    constructor
    · intro hf
      have h0 : ((rowScatterDims N R C wf).start (ix2 e c') idx 0 + ((rowScatterDims N R C wf).window (ix2 e c') 0 : Int)).toNat = i.val :=
        congrArg (fun f : (⟨2, ![N, C]⟩ : Shape).Idx => (f 0).val) hf
      have h1 : ((rowScatterDims N R C wf).start (ix2 e c') idx 1 + ((rowScatterDims N R C wf).window (ix2 e c') 1 : Int)).toNat = c.val :=
        congrArg (fun f : (⟨2, ![N, C]⟩ : Shape).Idx => (f 1).val) hf
      have g0 := (h 0).1
      rw [hs0, hw0] at h0 g0
      rw [hs1, hw1] at h1
      refine ⟨by omega, Fin.ext (by omega)⟩
    · rintro ⟨ht, rfl⟩
      funext a; refine Fin.ext ?_
      match a with
      | ⟨0, _⟩ =>
        show ((rowScatterDims N R C wf).start (ix2 e c') idx 0 + ((rowScatterDims N R C wf).window (ix2 e c') 0 : Int)).toNat = i.val
        rw [hs0, hw0]; omega
      | ⟨1, _⟩ =>
        show ((rowScatterDims N R C wf).start (ix2 e c') idx 1 + ((rowScatterDims N R C wf).window (ix2 e c') 1 : Int)).toNat = c'.val
        rw [hs1, hw1]; omega
  · rename_i h
    refine iff_of_false (by simp) ?_
    rintro ⟨ht, rfl⟩
    apply h
    intro a
    match a with
    | ⟨0, _⟩ =>
      show 0 ≤ (rowScatterDims N R C wf).start (ix2 e c') idx 0 + ((rowScatterDims N R C wf).window (ix2 e c') 0 : Int)
        ∧ (rowScatterDims N R C wf).start (ix2 e c') idx 0 + ((rowScatterDims N R C wf).window (ix2 e c') 0 : Int) < (N : Int)
      rw [hs0, hw0]; omega
    | ⟨1, _⟩ =>
      show 0 ≤ (rowScatterDims N R C wf).start (ix2 e c') idx 1 + ((rowScatterDims N R C wf).window (ix2 e c') 1 : Int)
        ∧ (rowScatterDims N R C wf).start (ix2 e c') idx 1 + ((rowScatterDims N R C wf).window (ix2 e c') 1 : Int) < (C : Int)
      rw [hs1, hw1]; omega

/-- THE ROW SCATTER-ADD READ AT `(i, c)`: the operand's element plus the sum of column `c` of the update rows whose index,
    read signed, is `i`. The sum over the update indices `(e, c')` that land on `(i, c)` is split by coordinates; for each
    row `e` the inner sum over `c'` has the one term `c' = c`, present exactly when the row's index is `i`. -/
theorem scatterAdd_rows_apply (x : (⟨2, ![N, C]⟩ : Shape).Idx → EReal) (idx : IVec ⟨2, ![R, 1]⟩ w)
    (upd : (⟨2, ![R, C]⟩ : Shape).Idx → EReal) (i : Fin N) (c : Fin C) :
    Ideal.hostScatterAdd (rowScatterDims N R C wf) x idx upd (ix2 i c)
      = x (ix2 i c) + ∑ e ∈ Finset.univ.filter (fun e : Fin R => (idx (ix2 e 0)).toInt = (i.val : Int)), upd (ix2 e c) := by
  unfold Ideal.hostScatterAdd
  congr 1
  rw [Finset.sum_filter, Finset.sum_filter, sum_idx2]
  refine Finset.sum_congr rfl fun e _ => ?_
  simp only [rowScatter_resultIdx_iff]
  by_cases hq : (idx (ix2 e 0)).toInt = (i.val : Int)
  · simp only [hq, true_and, if_true]
    rw [Finset.sum_ite_eq']
    simp
  · simp [hq]

end RowScatter

/-! ## Cell scatter-add: operand `[N, M]`, scatter indices `[R, 2]`, updates `[R]` -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-- The dimension numbers of a scatter of single cells: the updates have no window axis, both operand axes are
    inserted, and the scatter index's two components name the operand's axes 0 and 1 in order. Their conditions `wf`
    are decided on a program's literal shapes. -/
abbrev cellScatterDims (N M R : Nat)
    (wf : ScatterDims.WF ⟨2, ![N, M]⟩ ⟨2, ![R, 2]⟩ ⟨1, ![R]⟩ [] [0, 1] [0, 1] 1) :
    ScatterDims ⟨2, ![N, M]⟩ ⟨2, ![R, 2]⟩ ⟨1, ![R]⟩ where
  updateWindowDims := []
  insertedWindowDims := [0, 1]
  scatterDimsToOperandDims := [0, 1]
  indexVectorDim := 1
  wf := wf

section CellScatter
variable {N M R w : Nat} (wf : ScatterDims.WF ⟨2, ![N, M]⟩ ⟨2, ![R, 2]⟩ ⟨1, ![R]⟩ [] [0, 1] [0, 1] 1)

/-- On the row axis update `e` starts at the signed index `idx[e, 0]` … -/
theorem cellScatter_start0 (idx : IVec ⟨2, ![R, 2]⟩ w) (e : Fin R) :
    (cellScatterDims N M R wf).start (ix1 e) idx 0 = (idx (ix2 e 0)).toInt := by
  have hm : (0 : Fin 2) ∈ (cellScatterDims N M R wf).scatterDimsToOperandDims := by
    show (0 : Fin 2) ∈ ([0, 1] : List (Fin 2))
    decide
  unfold ScatterDims.start
  rw [dif_pos hm]
  have hsi : (cellScatterDims N M R wf).siIdx (ix1 e) ⟨List.idxOf (0 : Fin 2) (cellScatterDims N M R wf).scatterDimsToOperandDims,
      List.idxOf_lt_length_iff.2 hm⟩ = ix2 e 0 := by
    funext b; refine Fin.ext ?_
    match b with
    | ⟨0, _⟩ => rfl
    | ⟨1, _⟩ => rfl
  rw [hsi]

/-- … and on the column axis at the signed index `idx[e, 1]`. -/
theorem cellScatter_start1 (idx : IVec ⟨2, ![R, 2]⟩ w) (e : Fin R) :
    (cellScatterDims N M R wf).start (ix1 e) idx 1 = (idx (ix2 e 1)).toInt := by
  have hm : (1 : Fin 2) ∈ (cellScatterDims N M R wf).scatterDimsToOperandDims := by
    show (1 : Fin 2) ∈ ([0, 1] : List (Fin 2))
    decide
  unfold ScatterDims.start
  rw [dif_pos hm]
  have hsi : (cellScatterDims N M R wf).siIdx (ix1 e) ⟨List.idxOf (1 : Fin 2) (cellScatterDims N M R wf).scatterDimsToOperandDims,
      List.idxOf_lt_length_iff.2 hm⟩ = ix2 e 1 := by
    funext b; refine Fin.ext ?_
    match b with
    | ⟨0, _⟩ => rfl
    | ⟨1, _⟩ => rfl
  rw [hsi]

/-- Both operand axes are inserted: the window coordinate is `0` on each. -/
theorem cellScatter_window (e : Fin R) (a : Fin 2) :
    (cellScatterDims N M R wf).window (ix1 e) a = 0 := by
  have h : a ∉ (cellScatterDims N M R wf).sKept := by
    show a ∉ (List.finRange 2).filter (· ∉ ([0, 1] : List (Fin 2)))
    revert a; decide
  unfold ScatterDims.window
  rw [dif_neg h]

/-- WHERE AN UPDATE LANDS: update `e` lands on cell `(i, j)` exactly when its signed index pair is `(i, j)`. -/
theorem cellScatter_resultIdx_iff (idx : IVec ⟨2, ![R, 2]⟩ w) (e : Fin R) (i : Fin N) (j : Fin M) :
    (cellScatterDims N M R wf).resultIdx? (ix1 e) idx = some (ix2 i j)
      ↔ (idx (ix2 e 0)).toInt = (i.val : Int) ∧ (idx (ix2 e 1)).toInt = (j.val : Int) := by
  have hs0 := cellScatter_start0 wf idx e
  have hs1 := cellScatter_start1 wf idx e
  have hw0 := cellScatter_window wf e 0
  have hw1 := cellScatter_window wf e 1
  have hi : i.val < N := i.isLt
  have hj : j.val < M := j.isLt
  unfold ScatterDims.resultIdx?
  split
  · rename_i h
    rw [Option.some.injEq]
    constructor
    · intro hf
      have h0 : ((cellScatterDims N M R wf).start (ix1 e) idx 0 + ((cellScatterDims N M R wf).window (ix1 e) 0 : Int)).toNat = i.val :=
        congrArg (fun f : (⟨2, ![N, M]⟩ : Shape).Idx => (f 0).val) hf
      have h1 : ((cellScatterDims N M R wf).start (ix1 e) idx 1 + ((cellScatterDims N M R wf).window (ix1 e) 1 : Int)).toNat = j.val :=
        congrArg (fun f : (⟨2, ![N, M]⟩ : Shape).Idx => (f 1).val) hf
      have g0 := (h 0).1
      have g1 := (h 1).1
      rw [hs0, hw0] at h0 g0
      rw [hs1, hw1] at h1 g1
      exact ⟨by omega, by omega⟩
    · rintro ⟨ht0, ht1⟩
      funext a; refine Fin.ext ?_
      match a with
      | ⟨0, _⟩ =>
        show ((cellScatterDims N M R wf).start (ix1 e) idx 0 + ((cellScatterDims N M R wf).window (ix1 e) 0 : Int)).toNat = i.val
        rw [hs0, hw0]; omega
      | ⟨1, _⟩ =>
        show ((cellScatterDims N M R wf).start (ix1 e) idx 1 + ((cellScatterDims N M R wf).window (ix1 e) 1 : Int)).toNat = j.val
        rw [hs1, hw1]; omega
  · rename_i h
    refine iff_of_false (by simp) ?_
    rintro ⟨ht0, ht1⟩
    apply h
    intro a
    match a with
    | ⟨0, _⟩ =>
      show 0 ≤ (cellScatterDims N M R wf).start (ix1 e) idx 0 + ((cellScatterDims N M R wf).window (ix1 e) 0 : Int)
        ∧ (cellScatterDims N M R wf).start (ix1 e) idx 0 + ((cellScatterDims N M R wf).window (ix1 e) 0 : Int) < (N : Int)
      rw [hs0, hw0]; omega
    | ⟨1, _⟩ =>
      show 0 ≤ (cellScatterDims N M R wf).start (ix1 e) idx 1 + ((cellScatterDims N M R wf).window (ix1 e) 1 : Int)
        ∧ (cellScatterDims N M R wf).start (ix1 e) idx 1 + ((cellScatterDims N M R wf).window (ix1 e) 1 : Int) < (M : Int)
      rw [hs1, hw1]; omega

/-- THE CELL SCATTER-ADD READ AT `(i, j)`: the operand's element plus the sum of the updates whose index pair, read
    signed, is `(i, j)`. -/
theorem scatterAdd_cells_apply (x : (⟨2, ![N, M]⟩ : Shape).Idx → EReal) (idx : IVec ⟨2, ![R, 2]⟩ w)
    (upd : (⟨1, ![R]⟩ : Shape).Idx → EReal) (i : Fin N) (j : Fin M) :
    Ideal.hostScatterAdd (cellScatterDims N M R wf) x idx upd (ix2 i j)
      = x (ix2 i j) + ∑ e ∈ Finset.univ.filter (fun e : Fin R =>
          (idx (ix2 e 0)).toInt = (i.val : Int) ∧ (idx (ix2 e 1)).toInt = (j.val : Int)), upd (ix1 e) := by
  unfold Ideal.hostScatterAdd
  congr 1
  rw [Finset.sum_filter, Finset.sum_filter, sum_idx1]
  refine Finset.sum_congr rfl fun e _ => ?_
  simp only [cellScatter_resultIdx_iff]

end CellScatter

/-! ## Vector scatter-add: operand `[N]`, scatter indices `[R, 1]`, updates `[R]` -/

/-- The dimension numbers of `x.at[idx].add(v)` on a vector with the indices as a column: the updates have no window
    axis, the operand's one axis is inserted and named by the scatter index. -/
abbrev vecScatterDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

section VecScatter
variable {N R w : Nat} (wf : ScatterDims.WF ⟨1, ![N]⟩ ⟨2, ![R, 1]⟩ ⟨1, ![R]⟩ [] [0] [0] 1)

/-- Update `e` starts at the signed index `idx[e, 0]` … -/
theorem vecScatter_start (idx : IVec ⟨2, ![R, 1]⟩ w) (e : Fin R) :
    (vecScatterDims N R wf).start (ix1 e) idx 0 = (idx (ix2 e 0)).toInt := by
  unfold ScatterDims.start
  rw [dif_pos (show (0 : Fin 1) ∈ (vecScatterDims N R wf).scatterDimsToOperandDims from List.mem_singleton.mpr rfl)]
  have hsi : (vecScatterDims N R wf).siIdx (ix1 e) ⟨List.idxOf (0 : Fin 1) (vecScatterDims N R wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and, the axis being inserted, its window coordinate is `0`. -/
theorem vecScatter_window (e : Fin R) :
    (vecScatterDims N R wf).window (ix1 e) 0 = 0 := by
  have h : (0 : Fin 1) ∉ (vecScatterDims N R wf).sKept := by
    show (0 : Fin 1) ∉ (List.finRange 1).filter (· ∉ ([0] : List (Fin 1)))
    decide
  unfold ScatterDims.window
  rw [dif_neg h]

/-- WHERE AN UPDATE LANDS: update `e` lands on element `i` exactly when its signed index is `i`. -/
theorem vecScatter_resultIdx_iff (idx : IVec ⟨2, ![R, 1]⟩ w) (e : Fin R) (i : Fin N) :
    (vecScatterDims N R wf).resultIdx? (ix1 e) idx = some (ix1 i) ↔ (idx (ix2 e 0)).toInt = (i.val : Int) := by
  have hs0 := vecScatter_start wf idx e
  have hw0 := vecScatter_window wf e
  have hi : i.val < N := i.isLt
  unfold ScatterDims.resultIdx?
  split
  · rename_i h
    rw [Option.some.injEq]
    constructor
    · intro hf
      have h0 : ((vecScatterDims N R wf).start (ix1 e) idx 0 + ((vecScatterDims N R wf).window (ix1 e) 0 : Int)).toNat = i.val :=
        congrArg (fun f : (⟨1, ![N]⟩ : Shape).Idx => (f 0).val) hf
      have g0 := (h 0).1
      rw [hs0, hw0] at h0 g0
      omega
    · intro ht
      funext a; refine Fin.ext ?_
      match a with
      | ⟨0, _⟩ =>
        show ((vecScatterDims N R wf).start (ix1 e) idx 0 + ((vecScatterDims N R wf).window (ix1 e) 0 : Int)).toNat = i.val
        rw [hs0, hw0]; omega
  · rename_i h
    refine iff_of_false (by simp) ?_
    intro ht
    apply h
    intro a
    match a with
    | ⟨0, _⟩ =>
      show 0 ≤ (vecScatterDims N R wf).start (ix1 e) idx 0 + ((vecScatterDims N R wf).window (ix1 e) 0 : Int)
        ∧ (vecScatterDims N R wf).start (ix1 e) idx 0 + ((vecScatterDims N R wf).window (ix1 e) 0 : Int) < (N : Int)
      rw [hs0, hw0]; omega

/-- THE VECTOR SCATTER-ADD READ AT `i`: the operand's element plus the sum of the updates whose index, read signed,
    is `i`. -/
theorem scatterAdd_vec_apply (x : (⟨1, ![N]⟩ : Shape).Idx → EReal) (idx : IVec ⟨2, ![R, 1]⟩ w)
    (upd : (⟨1, ![R]⟩ : Shape).Idx → EReal) (i : Fin N) :
    Ideal.hostScatterAdd (vecScatterDims N R wf) x idx upd (ix1 i)
      = x (ix1 i) + ∑ e ∈ Finset.univ.filter (fun e : Fin R => (idx (ix2 e 0)).toInt = (i.val : Int)), upd (ix1 e) := by
  unfold Ideal.hostScatterAdd
  congr 1
  rw [Finset.sum_filter, Finset.sum_filter, sum_idx1]
  refine Finset.sum_congr rfl fun e _ => ?_
  simp only [vecScatter_resultIdx_iff]

end VecScatter

/-! ## Row gather: operand `[N, C]`, start indices `[R, 1]`, result `[R, C]` -/

/-- The dimension numbers of a gather of whole rows: the result's axis 1 is the offset axis (it reads the operand's
    axis 1, kept whole), the operand's axis 0 is collapsed and is the one the start index names. Their conditions `wf`
    are decided on a program's literal shapes. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

section RowGather
variable {α : Type} {N R C w : Nat}

/-- THE ROW GATHER READ AT `(e, c)`: the operand at row `idx[e, 0]`, read signed and clamped into `[0, N − 1]`, and
    column `c`. On the row axis the operand coordinate is the clamped start alone (the axis is collapsed: no offset); on
    the column axis the start is `0` (the map does not name it) and the offset is the result's own column. -/
theorem gather_rows_apply (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (c : Fin C) :
    Host.gather (rowGatherDims N R C wf) x idx (ix2 e c)
      = x (ix2 ⟨min (idx (ix2 e 0)).toInt.toNat (N - 1), by omega⟩ c) := by
  unfold Host.gather
  congr 1
  funext a
  refine Fin.ext ?_
  match a with
  | ⟨0, _⟩ =>
    show (rowGatherDims N R C wf).start (ix2 e c) idx 0 + (rowGatherDims N R C wf).batchCoord (ix2 e c) 0
      + (rowGatherDims N R C wf).offCoord (ix2 e c) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N R C wf).startIndexMap from List.mem_singleton.mpr rfl)]
    have hsi : (rowGatherDims N R C wf).siIdx (ix2 e c) ⟨List.idxOf (0 : Fin 2) (rowGatherDims N R C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N R C wf).start (ix2 e c) idx 1 + (rowGatherDims N R C wf).batchCoord (ix2 e c) 1
      + (rowGatherDims N R C wf).offCoord (ix2 e c) 1 = c.val
    rw [GatherDims.batchCoord_eq_zero _ _ _ List.not_mem_nil]
    have hs : (rowGatherDims N R C wf).start (ix2 e c) idx 1 = 0 := by
      unfold GatherDims.start
      rw [dif_neg (show (1 : Fin 2) ∉ ([0] : List (Fin 2)) by decide)]
    have hk : (1 : Fin 2) ∈ (rowGatherDims N R C wf).sKept := by
      show (1 : Fin 2) ∈ (List.finRange 2).filter (· ∉ (([0] : List (Fin 2)) ++ []))
      decide
    have ho : (rowGatherDims N R C wf).offCoord (ix2 e c) 1 = c.val := by
      unfold GatherDims.offCoord
      rw [dif_pos hk]
      rfl
    rw [hs, ho]
    omega

end RowGather

/-! ## Vector gather: operand `[N]`, start indices `[R, 1]`, result `[R]` -/

/-- The dimension numbers of `x[idx]` on a vector with the indices as a column: no offset axis, the operand's one axis
    collapsed and named by the start index. -/
abbrev vecGatherDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

section VecGather
variable {α : Type} {N R w : Nat}

/-- THE VECTOR GATHER READ AT `e`: the operand at `idx[e, 0]`, read signed and clamped into `[0, N − 1]`. -/
theorem gather_vec_apply (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (vecGatherDims N R wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (vecGatherDims N R wf).start (ix1 e) idx 0 + (vecGatherDims N R wf).batchCoord (ix1 e) 0
    + (vecGatherDims N R wf).offCoord (ix1 e) 0 = min (idx (ix2 e 0)).toInt.toNat (N - 1)
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N R wf).startIndexMap from List.mem_singleton.mpr rfl)]
  have hsi : (vecGatherDims N R wf).siIdx (ix1 e) ⟨List.idxOf (0 : Fin 1) (vecGatherDims N R wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end VecGather

end Cert.Lib.HostIndex

end
-- ==== Proof.LibScatterDims.lean ====
/-
  A scatter's dimension numbers are determined by their four data fields: a record over the row-scatter shapes whose
  update window axis is 1, whose inserted axis is 0, whose index component names operand axis 0 and whose index vector is
  axis 1 IS the row scatter's record (the remaining field is a proof). So a lemma about the row scatter applies to any
  record printed with those numbers, whatever proof it carries.

  Hence the host's accumulating row scatter, for ANY such record and any extents, read at an element: element `(i, c)`
  of the result is the operand's element plus the sum of column `c` of the update rows whose index word, read as a
  signed integer, is `i`; a row whose index is not a row of the operand contributes nothing.
-/
import proofs.«120834_j13211319403151_2_alg».proof.Proof.LibHostIndex

noncomputable section

open scoped BigOperators

namespace Cert.Lib.HostIndex

open Idealize.ShloMosaic Idealize.ShloMosaic.ValueIdx

theorem eq_rowScatterDims {N R C : Nat} (d : ScatterDims ⟨2, ![N, C]⟩ ⟨2, ![R, 1]⟩ ⟨2, ![R, C]⟩)
    (h1 : d.updateWindowDims = [1]) (h2 : d.insertedWindowDims = [0]) (h3 : d.scatterDimsToOperandDims = [0])
    (h4 : d.indexVectorDim = 1) : ∃ wf, d = rowScatterDims N R C wf := by
  obtain ⟨u, i, s, v, wf⟩ := d
  dsimp only at h1 h2 h3 h4
  subst h1 h2 h3 h4
  exact ⟨wf, rfl⟩

/-- THE HOST'S ROW SCATTER-ADD OF ANY RECORD WITH THE ROW NUMBERS, READ AT `(i, c)`: the operand's element plus the
    sum of column `c` of the update rows whose index, read signed, is `i` (rows indexed outside `[0, N)` land
    nowhere). -/
theorem hostScatterAdd_rows_apply {N R C w : Nat} (d : ScatterDims ⟨2, ![N, C]⟩ ⟨2, ![R, 1]⟩ ⟨2, ![R, C]⟩)
    (h1 : d.updateWindowDims = [1]) (h2 : d.insertedWindowDims = [0]) (h3 : d.scatterDimsToOperandDims = [0])
    (h4 : d.indexVectorDim = 1)
    (x : (⟨2, ![N, C]⟩ : Shape).Idx → EReal) (idx : IVec ⟨2, ![R, 1]⟩ w)
    (upd : (⟨2, ![R, C]⟩ : Shape).Idx → EReal) (i : Fin N) (c : Fin C) :
    Host.scatterAdd (F := Ideal) (φ := .f32) d x idx upd (ix2 i c)
      = x (ix2 i c) + ∑ e ∈ Finset.univ.filter (fun e : Fin R => (idx (ix2 e 0)).toInt = (i.val : Int)), upd (ix2 e c) := by
  obtain ⟨wf, rfl⟩ := eq_rowScatterDims d h1 h2 h3 h4
  exact scatterAdd_rows_apply wf x idx upd i c

end Cert.Lib.HostIndex

end
-- ==== Proof.LibRowGatherDims.lean ====
/-
  A gather's dimension numbers are determined by their seven data fields: a record over the row-gather shapes whose
  offset axis is 1, whose collapsed axis is 0, with no batching axes, whose start index names operand axis 0, whose
  index vector is axis 1 and whose slice is one whole row IS the row gather's record (the remaining field is a proof).

  Hence the host's row gather, for ANY such record and any extents, read at an element: element `(e, c)` of the result is
  the operand at column `c` of the row the index word of `e` names, that word read as a signed integer and clamped into
  `[0, N − 1]`.
-/
import proofs.«120834_j13211319403151_2_alg».proof.Proof.LibHostIndex

noncomputable section

namespace Cert.Lib.HostIndex

open Idealize.ShloMosaic Idealize.ShloMosaic.ValueIdx

theorem eq_rowGatherDims {N R C : Nat} (d : GatherDims ⟨2, ![N, C]⟩ ⟨2, ![R, 1]⟩ ⟨2, ![R, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) : ∃ wf, d = rowGatherDims N R C wf := by
  obtain ⟨o, cs, ob, sb, sm, iv, ss, wf⟩ := d
  dsimp only at h1 h2 h3 h4 h5 h6 h7
  subst h1 h2 h3 h4 h5 h6 h7
  exact ⟨wf, rfl⟩

/-- THE HOST'S ROW GATHER OF ANY RECORD WITH THE ROW NUMBERS, READ AT `(e, c)`: the operand at the row the index of
    `e` names (signed, clamped into `[0, N − 1]`) and column `c`. -/
theorem hostGather_rows_apply {α : Type} {N R C w : Nat} (hN : 0 < N)
    (d : GatherDims ⟨2, ![N, C]⟩ ⟨2, ![R, 1]⟩ ⟨2, ![R, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![R, 1]⟩ w) (e : Fin R) (c : Fin C) :
    Host.gather d x idx (ix2 e c)
      = x (ix2 ⟨min (idx (ix2 e 0)).toInt.toNat (N - 1), by omega⟩ c) := by
  obtain ⟨wf, rfl⟩ := eq_rowGatherDims d h1 h2 h3 h4 h5 h6 h7
  exact gather_rows_apply hN wf x idx e c

end Cert.Lib.HostIndex

end
-- ==== Proof.LibColBroadcast.lean ====
/-
  A column broadcast over the columns, read at an index: a `[a, 1]` array broadcast to `[a, b]` reads, at `(p, c)`, the
  operand's row `p` (the `keepdims` form of a per-row scalar). General over the extents.
-/
import Idealize.ShloMosaic.Lib.Pipeline.Value
import Idealize.ShloMosaic.Lib.ValueIdx

noncomputable section

namespace Cert.Lib.ColBroadcast

open Idealize.ShloMosaic Idealize.ShloMosaic.ValueIdx

/-- A `[a, 1]` array broadcast to `[a, b]` reads, at `(p, c)`, the operand at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The same through `broadcast_in_dim` with the identity axis map. -/
theorem broadcastInDim_a1_ab_apply {α : Type} {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.ColBroadcast

end
-- ==== Proof.LibPlainDot.lean ====
/-
  A plain matrix product read at an index.

  For the dimension numbers of an `M x K` by `K x N` product (contract the left operand's columns with the right
  operand's rows, no batch axis) the contraction index is one coordinate `k < K`, the left operand is read at
  `(row, k)` and the right at `(k, column)`. So at the ideal instance both the matrix unit's product into a zero
  accumulator and the host's `dot_general` are, at output index `(r, c)`, the sum over `k` of `l (r, k) * r (k, c)`.
-/
import Idealize.ShloMosaic.PureOps.Ideal.Laws
import Idealize.ShloMosaic.Lib.ValueIdx

noncomputable section

namespace Cert.Lib.PlainDot

open Idealize.ShloMosaic Idealize.ShloMosaic.ValueIdx

variable (M K N : ℕ)

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction sum of a plain product, over the contracted coordinate. -/
theorem sum_plain {α : Type*} [AddCommMonoid α] (f : (⟨2, ![M, K]⟩ : Shape).Idx → (⟨2, ![K, N]⟩ : Shape).Idx → α)
    (i : (⟨2, ![M, N]⟩ : Shape).Idx) :
    ∑ q : (DotDims.plain M K N).contr.Idx, f ((DotDims.plain M K N).lhsIdx i q) ((DotDims.plain M K N).rhsIdx i q)
      = ∑ k : Fin K, f (ix2 (i 0) k) (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs0 M K N _ _
      | ⟨1, _⟩ => exact ((DotDims.plain M K N).lhsIdx_val_of_single (cl := 1) rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single (cr := 0) rfl i _).trans hk
      | ⟨1, _⟩ => exact rhs1 M K N _ _)
  rw [el, er]
  rfl

/-- The matrix unit's product into a zero accumulator, at an index. -/
theorem matmul_zero_apply {φ₁ φ₂ : FTy} (prec : Option ContractPrecision)
    (l : FVec Ideal ⟨2, ![M, K]⟩ φ₁) (r : FVec Ideal ⟨2, ![K, N]⟩ φ₂) (i : (⟨2, ![M, N]⟩ : Shape).Idx) :
    FloatOps.matmul (DotDims.plain M K N) prec l r (constant ⟨2, ![M, N]⟩ .f32 0x00000000#32) i
      = ∑ k : Fin K, l (ix2 (i 0) k) * r (ix2 k (i 1)) := by
  rw [Ideal.matmul_constant_zero_apply]
  exact sum_plain M K N (fun a b => l a * r b) i

/-- The host's `dot_general`, at an index. -/
theorem dotGeneral_apply {φ₁ φ₂ : FTy} (prec : Option ContractPrecision) (sched : HostSchedule)
    (l : FVec Ideal ⟨2, ![M, K]⟩ φ₁) (r : FVec Ideal ⟨2, ![K, N]⟩ φ₂) (i : (⟨2, ![M, N]⟩ : Shape).Idx) :
    FloatOps.dotGeneral (DotDims.plain M K N) prec sched l r i
      = ∑ k : Fin K, l (ix2 (i 0) k) * r (ix2 k (i 1)) := by
  rw [Ideal.dotGeneral_apply]
  exact sum_plain M K N (fun a b => l a * r b) i

end Cert.Lib.PlainDot

end
-- ==== Proof.RefNet.lean ====
/-
  The reference program is the graph network that sums the neighbours first.

  The reference gathers the source rows of the features, scatter-adds them into a zero array at the destination rows
  (the neighbour sum), multiplies the sum by the relation weights and the features by the root weights, adds the two
  products and the bias row, and takes the positive part; it does this three times, the last time followed by a
  softmax over each row in place of the positive part. Each of these array operations is identified here, for
  arbitrary extents, with the corresponding operation of the network's definition; the program's stages are then
  rewritten one layer at a time.
-/
import proofs.«120834_j13211319403151_2_alg».proof.Proof.Gen.ReferenceIdeal.Read
import proofs.«120834_j13211319403151_2_alg».proof.Proof.LibGnnSpec
import proofs.«120834_j13211319403151_2_alg».proof.Proof.LibScatterDims
import proofs.«120834_j13211319403151_2_alg».proof.Proof.LibRowGatherDims
import proofs.«120834_j13211319403151_2_alg».proof.Proof.LibColBroadcast
import proofs.«120834_j13211319403151_2_alg».proof.Proof.LibPlainDot

noncomputable section

open scoped BigOperators

namespace Cert.RefNet

open Idealize.ShloMosaic Idealize.ShloMosaic.ValueIdx Cert.Gnn Cert.Lib.HostIndex

/-! ## The array operations, over arbitrary extents -/

/-- A scalar constant broadcast to any shape reads, everywhere, the constant's word. -/
theorem splat_apply {s : Shape} (w : BitVec 32) (hb : (⟨0, ![]⟩ : Shape).BroadcastsInDim s (![] : Fin 0 → Fin s.rank))
    (i : s.Idx) :
    broadcastInDim s ![] hb (constant (F := Ideal) ⟨0, ![]⟩ .f32 w) i = Ideal.ofBits .f32 w :=
  (broadcastInDim_apply ![] hb (constant (F := Ideal) ⟨0, ![]⟩ .f32 w) i (fun a => a.elim0) (fun a => a.elim0)).trans rfl

/-- Gathering the source rows and scatter-adding them into zeros at the destination rows is the neighbour sum. -/
theorem scatter_gather_eq_agg {N R C : ℕ} (hN : 0 < N)
    (d : ScatterDims ⟨2, ![N, C]⟩ ⟨2, ![R, 1]⟩ ⟨2, ![R, C]⟩)
    (h1 : d.updateWindowDims = [1]) (h2 : d.insertedWindowDims = [0]) (h3 : d.scatterDimsToOperandDims = [0])
    (h4 : d.indexVectorDim = 1)
    (g : GatherDims ⟨2, ![N, C]⟩ ⟨2, ![R, 1]⟩ ⟨2, ![R, C]⟩)
    (g1 : g.offsetDims = [1]) (g2 : g.collapsedSliceDims = [0]) (g3 : g.operandBatchingDims = [])
    (g4 : g.startIndicesBatchingDims = []) (g5 : g.startIndexMap = [0]) (g6 : g.indexVectorDim = 1)
    (g7 : g.sliceSizes = ![1, C])
    (hb : (⟨0, ![]⟩ : Shape).BroadcastsInDim ⟨2, ![N, C]⟩ (![] : Fin 0 → Fin 2))
    (x : Mat N C) (sidx didx : EdgeIdx R) :
    Host.scatterAdd (F := Ideal) (φ := .f32) d
        (broadcastInDim ⟨2, ![N, C]⟩ ![] hb (constant (F := Ideal) ⟨0, ![]⟩ .f32 0x00000000#32)) didx
        (Host.gather g x sidx)
      = agg hN sidx didx x := by
  funext i
  obtain ⟨p, c, rfl⟩ : ∃ p c, i = ix2 p c := ⟨i 0, i 1, eq_ix2 i⟩
  rw [hostScatterAdd_rows_apply d h1 h2 h3 h4, splat_apply, Ideal.ofBits_zero_f32, zero_add]
  refine Finset.sum_congr rfl fun e _ => ?_
  exact hostGather_rows_apply hN g g1 g2 g3 g4 g5 g6 g7 x sidx e c

/-- The host's plain matrix product is the matrix product. -/
theorem dot_eq_mm {M K N : ℕ} (d : DotDims ⟨2, ![M, K]⟩ ⟨2, ![K, N]⟩ ⟨2, ![M, N]⟩) (hd : d = DotDims.plain M K N)
    (l : Mat M K) (r : Mat K N) :
    Host.dotGeneral (F := Ideal) (φ₁ := .f32) (φ₂ := .f32) d none l r = mm l r := by
  subst hd
  funext i
  exact Cert.Lib.PlainDot.dotGeneral_apply M K N none .single l r i

/-- A vector laid out as one row and repeated down the rows reads, at `(p, c)`, its entry `c`. -/
theorem rowBroadcast_apply {N C : ℕ} (b : Vec1 C)
    (hb1 : (⟨1, ![C]⟩ : Shape).BroadcastsInDim ⟨2, ![1, C]⟩ (![1] : Fin 1 → Fin 2))
    (hb2 : (⟨2, ![1, C]⟩ : Shape).BroadcastsInDim ⟨2, ![N, C]⟩ (![0, 1] : Fin 2 → Fin 2))
    (p : Fin N) (c : Fin C) :
    broadcastInDim ⟨2, ![N, C]⟩ ![0, 1] hb2 (broadcastInDim ⟨2, ![1, C]⟩ ![1] hb1 b) (ix2 p c) = b (ix1 c) := by
  rw [broadcastInDim_apply ![0, 1] hb2 _ (ix2 p c) (ix2 (0 : Fin 1) c) (fun a => by
    match a with
    | ⟨0, _⟩ => rfl
    | ⟨1, _⟩ =>
      show c.val = if C = 1 then 0 else c.val
      split
      · have := c.isLt; omega
      · rfl)]
  exact broadcastInDim_apply ![1] hb1 b (ix2 (0 : Fin 1) c) (ix1 c) (fun a => by
    match a with
    | ⟨0, _⟩ =>
      show c.val = if C = 1 then 0 else c.val
      split
      · have := c.isLt; omega
      · rfl)

/-- Adding two arrays and then the bias row. -/
theorem add_add_bias_eq {N C : ℕ} (a a' : Mat N C) (b : Vec1 C)
    (hb1 : (⟨1, ![C]⟩ : Shape).BroadcastsInDim ⟨2, ![1, C]⟩ (![1] : Fin 1 → Fin 2))
    (hb2 : (⟨2, ![1, C]⟩ : Shape).BroadcastsInDim ⟨2, ![N, C]⟩ (![0, 1] : Fin 2 → Fin 2)) :
    addf (F := Ideal) (φ := .f32) (addf (F := Ideal) (φ := .f32) a a')
        (broadcastInDim ⟨2, ![N, C]⟩ ![0, 1] hb2 (broadcastInDim ⟨2, ![1, C]⟩ ![1] hb1 b))
      = addRow (fun i => a i + a' i) b := by
  funext i
  obtain ⟨p, c, rfl⟩ : ∃ p c, i = ix2 p c := ⟨i 0, i 1, eq_ix2 i⟩
  show a (ix2 p c) + a' (ix2 p c) + _ = a (ix2 p c) + a' (ix2 p c) + b (ix1 c)
  rw [rowBroadcast_apply]

/-- The maximum against a broadcast zero is the positive part. -/
theorem max_zero_eq_relu {s : Shape} (hb : (⟨0, ![]⟩ : Shape).BroadcastsInDim s (![] : Fin 0 → Fin s.rank))
    (a : s.Idx → EReal) :
    maximumf (F := Ideal) (φ := .f32) a
        (broadcastInDim s ![] hb (constant (F := Ideal) ⟨0, ![]⟩ .f32 0x00000000#32))
      = relu a := by
  funext i
  show max (a i) _ = max (a i) 0
  rw [splat_apply, Ideal.ofBits_zero_f32]

/-- A vector laid out as one column and repeated along the columns reads, at `(p, c)`, its entry `p`. -/
theorem colBroadcast_apply {α : Type} {N C : ℕ} (v : (⟨1, ![N]⟩ : Shape).Idx → α)
    (hb1 : (⟨1, ![N]⟩ : Shape).BroadcastsInDim ⟨2, ![N, 1]⟩ (![0] : Fin 1 → Fin 2))
    (hb2 : (⟨2, ![N, 1]⟩ : Shape).BroadcastsInDim ⟨2, ![N, C]⟩ (![0, 1] : Fin 2 → Fin 2))
    (p : Fin N) (c : Fin C) :
    broadcastInDim ⟨2, ![N, C]⟩ ![0, 1] hb2 (broadcastInDim ⟨2, ![N, 1]⟩ ![0] hb1 v) (ix2 p c) = v (ix1 p) := by
  rw [Cert.Lib.ColBroadcast.broadcastInDim_a1_ab_apply]
  exact broadcastInDim_apply ![0] hb1 v (ix2 p (0 : Fin 1)) (ix1 p) (fun a => by
    match a with
    | ⟨0, _⟩ =>
      show p.val = if N = 1 then 0 else p.val
      split
      · have := p.isLt; omega
      · rfl)

/-- The reduced index `r` with column `k` put back is `(r, k)`. -/
theorem lift_ix1 {N C : ℕ} (h : (⟨2, ![N, C]⟩ : Shape).Reduces [1] (⟨1, ![N]⟩ : Shape)) (r : Fin N)
    (k : Fin ((⟨2, ![N, C]⟩ : Shape).size 1)) : h.lift (ix1 r) k = ix2 r (⟨k.val, k.isLt⟩ : Fin C) := by
  funext c; apply Fin.ext
  fin_cases c <;> rfl

/-! ## The softmax tail -/

section Softmax

variable {N C : ℕ} (t : Mat N C)
  (h' : (⟨2, ![N, C]⟩ : Shape).ReducesTo [1] (⟨1, ![N]⟩ : Shape))
  (h : (⟨2, ![N, C]⟩ : Shape).Reduces [1] (⟨1, ![N]⟩ : Shape))
  (hu : 0 < (⟨0, ![]⟩ : Shape).numel)
  (hb0 : (⟨0, ![]⟩ : Shape).BroadcastsInDim ⟨1, ![N]⟩ (![] : Fin 0 → Fin 1))
  (hb1 : (⟨1, ![N]⟩ : Shape).BroadcastsInDim ⟨2, ![N, 1]⟩ (![0] : Fin 1 → Fin 2))
  (hb2 : (⟨2, ![N, 1]⟩ : Shape).BroadcastsInDim ⟨2, ![N, C]⟩ (![0, 1] : Fin 2 → Fin 2))

/-- The row maxima as the program forms them: the reduce with a maximum body from the word of negative infinity, then
    the maximum against that word once more. -/
def progRowMax : Vec1 N :=
  maximumf (F := Ideal) (φ := .f32)
    (broadcastInDim ⟨1, ![N]⟩ ![] hb0 (constant (F := Ideal) ⟨0, ![]⟩ .f32 0xFF800000#32))
    (Host.reduce (FloatOps.maximumf (F := Ideal) (φ := .f32)) t
      (constant (F := Ideal) ⟨0, ![]⟩ .f32 0xFF800000#32) h' hu)

/-- The exponentials of the entries less their row's maximum, as the program forms them. -/
def progExp : Mat N C :=
  Host.exp (F := Ideal) (φ := .f32) (subf (F := Ideal) (φ := .f32) t
    (broadcastInDim ⟨2, ![N, C]⟩ ![0, 1] hb2 (broadcastInDim ⟨2, ![N, 1]⟩ ![0] hb1 (progRowMax t h' hu hb0))))

/-- The program's softmax: the exponentials over their row sums. -/
def progSoftmax : Mat N C :=
  Host.divf (F := Ideal) (φ := .f32) (progExp t h' hu hb0 hb1 hb2)
    (broadcastInDim ⟨2, ![N, C]⟩ ![0, 1] hb2 (broadcastInDim ⟨2, ![N, 1]⟩ ![0] hb1
      (Host.reduceAdd (F := Ideal) (φ := .f32) (progExp t h' hu hb0 hb1 hb2)
        (constant (F := Ideal) ⟨0, ![]⟩ .f32 0x00000000#32) h' hu)))

include h in
theorem progRowMax_apply (r : Fin N) : progRowMax t h' hu hb0 (ix1 r) = rowMax t r := by
  unfold progRowMax
  show max _ _ = _
  rw [splat_apply, Host.reduce_eq_fold_single (FloatOps.maximumf (F := Ideal) (φ := .f32)) t _ h' h hu]
  have hf : (t ∘ h.lift (ix1 r)) = fun k : Fin C => t (ix2 r k) := funext fun k => congrArg t (lift_ix1 h r k)
  exact congrArg (fun f => max negInf (Finset.fold max negInf f (Finset.univ : Finset (Fin C)))) hf

include h in
theorem progExp_apply (p : Fin N) (c : Fin C) :
    progExp t h' hu hb0 hb1 hb2 (ix2 p c) = Ideal.exp (t (ix2 p c) - rowMax t p) := by
  unfold progExp
  show Ideal.exp (t (ix2 p c) - _) = _
  rw [colBroadcast_apply, progRowMax_apply t h' h hu hb0 p]

include h in
/-- The program's softmax tail is the softmax. -/
theorem progSoftmax_eq : progSoftmax t h' hu hb0 hb1 hb2 = softmax t := by
  funext i
  obtain ⟨p, c, rfl⟩ : ∃ p c, i = ix2 p c := ⟨i 0, i 1, eq_ix2 i⟩
  unfold progSoftmax
  show Ideal.div _ _ = Ideal.div (Ideal.exp (t (ix2 p c) - rowMax t p))
    (∑ k : Fin C, Ideal.exp (t (ix2 p k) - rowMax t p))
  rw [colBroadcast_apply, progExp_apply t h' h hu hb0 hb1 hb2 p c]
  show Ideal.div _ (Ideal.hostReduceAdd h' _ (Ideal.ofBits .f32 0x00000000#32) (ix1 p)) = _
  rw [Ideal.hostReduceAdd_single h' h, Ideal.ofBits_zero_f32, zero_add]
  refine congrArg (Ideal.div _) (Finset.sum_congr rfl fun k _ => ?_)
  rw [lift_ix1]
  exact progExp_apply t h' h hu hb0 hb1 hb2 p _

end Softmax

/-! ## The program's stages -/

section Stages

open Cert.ReferenceIdeal Cert.ReferenceIdeal.Gen Cert.ReferenceIdeal.Read

variable (x0 : (⟨S100000x64, .f32⟩ : BufTy).Contents (Elt Ideal)) (x1 : (⟨S2x1600000, .i32⟩ : BufTy).Contents (Elt Ideal))
  (x2 x3 : (⟨S64x32, .f32⟩ : BufTy).Contents (Elt Ideal)) (x4 : (⟨S32, .f32⟩ : BufTy).Contents (Elt Ideal))
  (x5 x6 : (⟨S32x16, .f32⟩ : BufTy).Contents (Elt Ideal)) (x7 : (⟨S16, .f32⟩ : BufTy).Contents (Elt Ideal))
  (x8 x9 : (⟨S16x2, .f32⟩ : BufTy).Contents (Elt Ideal)) (x10 : (⟨S2, .f32⟩ : BufTy).Contents (Elt Ideal))

/-- The source index column: row 0 of the edge array, a negative word wrapped by the number of nodes. -/
abbrev srcCol : EdgeIdx 1600000 := val_main_v9 (F := Ideal) x1

/-- The destination index column: row 1 of the edge array. -/
abbrev dstCol : EdgeIdx 1600000 := val_main_v12 (F := Ideal) x1

/-- The second layer recomputes the source column. -/
theorem v26_eq : val_main_v26 (F := Ideal) x1 = srcCol x1 := rfl
/-- The third layer recomputes the source column. -/
theorem v43_eq : val_main_v43 (F := Ideal) x1 = srcCol x1 := rfl
/-- The second layer recomputes the destination column. -/
theorem v29_eq : val_main_v29 (F := Ideal) x1 = dstCol x1 := rfl
/-- The third layer recomputes the destination column. -/
theorem v46_eq : val_main_v46 (F := Ideal) x1 = dstCol x1 := rfl

/-- There is at least one node. -/
theorem hN : 0 < 100000 := by decide

/-- The first layer before its activation. -/
theorem v19_eq : val_main_v19 (F := Ideal) x0 x1 x2 x3 x4 = preAggFirst hN (srcCol x1) (dstCol x1) x0 x2 x3 x4 := by
  unfold val_main_v19 val_main_v16 val_main_v18 val_main_v17
  rw [add_add_bias_eq]
  unfold val_main_v14 val_main_v15
  rw [dot_eq_mm dot_S100000x64_S64x32_S100000x32_1_0_0_1_n_n rfl, dot_eq_mm dot_S100000x64_S64x32_S100000x32_1_0_0_1_n_n rfl]
  unfold val_main_v13 val_main_v10 val_main_v11 val_main_cst
  rw [scatter_gather_eq_agg hN _ rfl rfl rfl rfl _ rfl rfl rfl rfl rfl rfl rfl]
  rfl

/-- The first layer. -/
theorem v20_eq : val_main_v20 (F := Ideal) x0 x1 x2 x3 x4
    = relu (preAggFirst hN (srcCol x1) (dstCol x1) x0 x2 x3 x4) := by
  unfold val_main_v20 val_main_call0_v0 val_main_call0_cst
  rw [max_zero_eq_relu, v19_eq]

/-- The second layer before its activation, over any first-layer output. -/
theorem layer2_pre (y : (⟨S100000x32, .f32⟩ : BufTy).Contents (Elt Ideal)) :
    addf (F := Ideal) (φ := .f32)
      (addf (F := Ideal) (φ := .f32)
        (Host.dotGeneral (F := Ideal) (φ₁ := .f32) (φ₂ := .f32) dot_S100000x32_S32x16_S100000x16_1_0_0_1_n_n none
          (Host.scatterAdd (F := Ideal) (φ := .f32) scatter_S100000x32_S1600000x1_S1600000x32_1_0_0_1 (val_main_v28 (F := Ideal))
            (val_main_v29 (F := Ideal) x1)
            (Host.gather (α := Ideal .f32) gather_S100000x32_S1600000x1_S1600000x32_1_0_n_n_0_1_132 y (val_main_v26 (F := Ideal) x1))) x5)
        (Host.dotGeneral (F := Ideal) (φ₁ := .f32) (φ₂ := .f32) dot_S100000x32_S32x16_S100000x16_1_0_0_1_n_n none y x6))
      (val_main_v35 (F := Ideal) x7)
    = preAggFirst hN (srcCol x1) (dstCol x1) y x5 x6 x7 := by
  unfold val_main_v35 val_main_v34
  rw [add_add_bias_eq]
  rw [dot_eq_mm dot_S100000x32_S32x16_S100000x16_1_0_0_1_n_n rfl, dot_eq_mm dot_S100000x32_S32x16_S100000x16_1_0_0_1_n_n rfl]
  unfold val_main_v28 val_main_cst_3
  rw [v29_eq, v26_eq, scatter_gather_eq_agg hN _ rfl rfl rfl rfl _ rfl rfl rfl rfl rfl rfl rfl]
  rfl

/-- The second layer. -/
theorem v37_eq : val_main_v37 (F := Ideal) x0 x1 x2 x3 x4 x5 x6 x7
    = relu (preAggFirst hN (srcCol x1) (dstCol x1)
        (relu (preAggFirst hN (srcCol x1) (dstCol x1) x0 x2 x3 x4)) x5 x6 x7) := by
  unfold val_main_v37 val_main_call1_v0 val_main_call1_cst
  rw [max_zero_eq_relu]
  unfold val_main_v36 val_main_v33 val_main_v31 val_main_v32 val_main_v30 val_main_v27
  rw [v20_eq, layer2_pre]

/-- The third layer before the softmax, over any second-layer output. -/
theorem layer3_pre (y : (⟨S100000x16, .f32⟩ : BufTy).Contents (Elt Ideal)) :
    addf (F := Ideal) (φ := .f32)
      (addf (F := Ideal) (φ := .f32)
        (Host.dotGeneral (F := Ideal) (φ₁ := .f32) (φ₂ := .f32) dot_S100000x16_S16x2_S100000x2_1_0_0_1_n_n none
          (Host.scatterAdd (F := Ideal) (φ := .f32) scatter_S100000x16_S1600000x1_S1600000x16_1_0_0_1 (val_main_v45 (F := Ideal))
            (val_main_v46 (F := Ideal) x1)
            (Host.gather (α := Ideal .f32) gather_S100000x16_S1600000x1_S1600000x16_1_0_n_n_0_1_116 y (val_main_v43 (F := Ideal) x1))) x8)
        (Host.dotGeneral (F := Ideal) (φ₁ := .f32) (φ₂ := .f32) dot_S100000x16_S16x2_S100000x2_1_0_0_1_n_n none y x9))
      (val_main_v52 (F := Ideal) x10)
    = preAggFirst hN (srcCol x1) (dstCol x1) y x8 x9 x10 := by
  unfold val_main_v52 val_main_v51
  rw [add_add_bias_eq]
  rw [dot_eq_mm dot_S100000x16_S16x2_S100000x2_1_0_0_1_n_n rfl, dot_eq_mm dot_S100000x16_S16x2_S100000x2_1_0_0_1_n_n rfl]
  unfold val_main_v45 val_main_cst_6
  rw [v46_eq, v43_eq, scatter_gather_eq_agg hN _ rfl rfl rfl rfl _ rfl rfl rfl rfl rfl rfl rfl]
  rfl

/-- The third layer before the softmax. -/
theorem v53_eq : val_main_v53 (F := Ideal) x0 x1 x2 x3 x4 x5 x6 x7 x8 x9 x10
    = preAggFirst hN (srcCol x1) (dstCol x1)
        (relu (preAggFirst hN (srcCol x1) (dstCol x1)
          (relu (preAggFirst hN (srcCol x1) (dstCol x1) x0 x2 x3 x4)) x5 x6 x7)) x8 x9 x10 := by
  unfold val_main_v53 val_main_v50 val_main_v48 val_main_v49 val_main_v47 val_main_v44
  rw [v37_eq, layer3_pre]

/-- The program's last stage is the softmax tail of its third layer. -/
theorem v64_eq_tail : val_main_v64 (F := Ideal) x0 x1 x2 x3 x4 x5 x6 x7 x8 x9 x10
    = progSoftmax (val_main_v53 (F := Ideal) x0 x1 x2 x3 x4 x5 x6 x7 x8 x9 x10)
        reducesTo_S100000x2_S100000_d1 h_S_ bcast_S_S100000 bcast_S100000_S100000x1_0 bcast_S100000x1_S100000x2_0_1 :=
  rfl

/-- THE REFERENCE IS THE NETWORK SUMMING THE NEIGHBOURS FIRST, over the two index columns the program forms from the
    edge array. -/
theorem ref_eq : val_main_v64 (F := Ideal) x0 x1 x2 x3 x4 x5 x6 x7 x8 x9 x10
    = netAggFirst (by decide : 0 < 100000) (val_main_v9 (F := Ideal) x1) (val_main_v12 (F := Ideal) x1)
        x0 x2 x3 x4 x5 x6 x7 x8 x9 x10 := by
  rw [v64_eq_tail, progSoftmax_eq _ _ (by decide), v53_eq]
  rfl

end Stages

end Cert.RefNet

end
-- ==== Proof.KRun.lean ====
/-
  The idealized kernel program's run with its result named.

  The program is eight segments: four stretches of host operations and four calls, alternating. The buffer contents at
  each boundary are a fold from the launch memory: a host stretch applies its operations, a call replaces its arrays by
  what its write-backs leave. Every weakly fair execution terminates without a fault, and in the final state every
  unscoped buffer holds the last boundary's contents; in particular the result buffer does, and the argument arrays,
  which no segment writes, hold what they held at launch.
-/
import proofs.«120834_j13211319403151_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the last boundary's contents and
    the argument arrays end as launched. -/
theorem run_result : θ_run defs (onTc (τ := τ) (main (F := F))) ⟨m, fun _ => 0, ρ⟩ (fun r => ∀ c : Dev nD,
      r.2.mem ((c.tc : Thread nD τ).loc main_v46) = W8 m ρ c (Proc.devRef .tc main_v46)
      ∧       r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v46 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c)⟩)

end Cert.KernelIdeal.RunValue

end
-- ==== Proof.KKept.lean ====
/-
  Buffers no segment has written yet. Between the launch and a boundary, a host stretch changes only the buffers its
  operations write and a call changes only its result arrays, so an argument array holds its launch contents at every
  boundary, the two index vectors formed by the first stretch hold those contents afterwards, and a layer's activations
  survive the stretch between the call that writes them and the call that reads them.
-/
import proofs.«120834_j13211319403151_2_alg».proof.Proof.Gen.KernelIdeal.Frame
import Idealize.ShloMosaic.PureOps.Ideal
import Idealize.ShloMosaic.Lib.StableHlo.Run
set_option maxRecDepth 16384

noncomputable section

namespace Cert.KernelIdeal.Kept

open Cert.KernelIdeal Cert.KernelIdeal.Gen
open Idealize.ShloMosaic Idealize.ShloMosaic.TcCoe Idealize.ShloMosaic.Tactic Idealize.SL.Sem Idealize.ShloMosaic.StableHlo
open Idealize.ShloMosaic.Pipeline (Dat)

variable (m : (ℓ : Loc nD τ sig) → Buf (Elt Ideal) ℓ) (ρ : Dev nD → PrngReg)

theorem W1_arg0 (c : Dev nD) : W1 m ρ c (Proc.devRef .tc main_arg0) = W0 m ρ c (Proc.devRef .tc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W1_arg2 (c : Dev nD) : W1 m ρ c (Proc.devRef .tc main_arg2) = W0 m ρ c (Proc.devRef .tc main_arg2) :=
  calc W1 m ρ c (Proc.devRef .tc main_arg2)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W2_arg4 (c : Dev nD) : W2 m ρ c (Proc.devRef .tc main_arg4) = W0 m ρ c (Proc.devRef .tc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W3_arg0 (c : Dev nD) : W3 m ρ c (Proc.devRef .tc main_arg0) = W0 m ρ c (Proc.devRef .tc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W3_arg3 (c : Dev nD) : W3 m ρ c (Proc.devRef .tc main_arg3) = W0 m ρ c (Proc.devRef .tc main_arg3) :=
  calc W3 m ρ c (Proc.devRef .tc main_arg3)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W3_arg5 (c : Dev nD) : W3 m ρ c (Proc.devRef .tc main_arg5) = W0 m ρ c (Proc.devRef .tc main_arg5) :=
  calc W3 m ρ c (Proc.devRef .tc main_arg5)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W4_arg7 (c : Dev nD) : W4 m ρ c (Proc.devRef .tc main_arg7) = W0 m ρ c (Proc.devRef .tc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W5_arg6 (c : Dev nD) : W5 m ρ c (Proc.devRef .tc main_arg6) = W0 m ρ c (Proc.devRef .tc main_arg6) :=
  calc W5 m ρ c (Proc.devRef .tc main_arg6)
    _ = W4 m ρ c (Proc.devRef .tc main_arg6) := StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W5_arg8 (c : Dev nD) : W5 m ρ c (Proc.devRef .tc main_arg8) = W0 m ρ c (Proc.devRef .tc main_arg8) :=
  calc W5 m ρ c (Proc.devRef .tc main_arg8)
    _ = W4 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W6_arg10 (c : Dev nD) : W6 m ρ c (Proc.devRef .tc main_arg10) = W0 m ρ c (Proc.devRef .tc main_arg10) :=
  calc W6 m ρ c (Proc.devRef .tc main_arg10)
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W7_arg9 (c : Dev nD) : W7 m ρ c (Proc.devRef .tc main_arg9) = W0 m ρ c (Proc.devRef .tc main_arg9) :=
  calc W7 m ρ c (Proc.devRef .tc main_arg9)
    _ = W6 m ρ c (Proc.devRef .tc main_arg9) := StableHlo.after_of_forall_not_mem (b := Proc.devRef .tc main_arg9) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W2_v1 (c : Dev nD) : W2 m ρ c (Proc.devRef .tc main_v1) = W1 m ρ c (Proc.devRef .tc main_v1) :=
  calc W2 m ρ c (Proc.devRef .tc main_v1)
    _ = W1 m ρ c (Proc.devRef .tc main_v1) := W2_of_ne m ρ c main_v1 (by decide)

theorem W2_v3 (c : Dev nD) : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)

theorem W4_v1 (c : Dev nD) : W4 m ρ c (Proc.devRef .tc main_v1) = W1 m ρ c (Proc.devRef .tc main_v1) :=
  calc W4 m ρ c (Proc.devRef .tc main_v1)
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v1) := W2_of_ne m ρ c main_v1 (by decide)

theorem W4_v3 (c : Dev nD) : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W2_of_ne m ρ c main_v3 (by decide)

theorem W6_v1 (c : Dev nD) : W6 m ρ c (Proc.devRef .tc main_v1) = W1 m ρ c (Proc.devRef .tc main_v1) :=
  calc W6 m ρ c (Proc.devRef .tc main_v1)
    _ = W5 m ρ c (Proc.devRef .tc main_v1) := W6_of_ne m ρ c main_v1 (by decide)
    _ = W4 m ρ c (Proc.devRef .tc main_v1) := StableHlo.after_of_forall_not_mem (b := Proc.devRef .tc main_v1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v1) := W2_of_ne m ρ c main_v1 (by decide)

theorem W6_v3 (c : Dev nD) : W6 m ρ c (Proc.devRef .tc main_v3) = W1 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W2_of_ne m ρ c main_v3 (by decide)

theorem W5_v18_0 (c : Dev nD) : W5 m ρ c (Proc.devRef .tc main_v18_0) = W4 m ρ c (Proc.devRef .tc main_v18_0) :=
  calc W5 m ρ c (Proc.devRef .tc main_v18_0)
    _ = W4 m ρ c (Proc.devRef .tc main_v18_0) := StableHlo.after_of_forall_not_mem (b := Proc.devRef .tc main_v18_0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W7_v32_0 (c : Dev nD) : W7 m ρ c (Proc.devRef .tc main_v32_0) = W6 m ρ c (Proc.devRef .tc main_v32_0) :=
  calc W7 m ρ c (Proc.devRef .tc main_v32_0)
    _ = W6 m ρ c (Proc.devRef .tc main_v32_0) := StableHlo.after_of_forall_not_mem (b := Proc.devRef .tc main_v32_0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Kept

end
-- ==== Proof.KReg0.lean ====
/-
  The first call: every block of 5000 node rows is multiplied by the whole 64 × 32 weight matrix, so the array the call
  leaves is the matrix product of the node features with the weights.

  A grid point `t` reads rows `5000 t … 5000 t + 4999` of the features (all 64 columns) and the whole weight matrix,
  and writes rows `5000 t … 5000 t + 4999` of the result (all 32 columns); entry `(p, q)` of what it writes is the sum
  over `k` of feature `(5000 t + p, k)` times weight `(k, q)`, which is entry `(5000 t + p, q)` of the product. The
  twenty blocks tile the 100000 rows, so the whole array is the product.
-/
import proofs.«120834_j13211319403151_2_alg».proof.Proof.Gen.KernelIdeal.Frame
import proofs.«120834_j13211319403151_2_alg».proof.Proof.LibGnnSpec
import proofs.«120834_j13211319403151_2_alg».proof.Proof.LibPlainDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Reg0

open Cert.KernelIdeal Cert.KernelIdeal.Gen Idealize.ShloMosaic Idealize.ShloMosaic.TcCoe Idealize.ShloMosaic.ValueIdx
open Idealize.SL.Sem Cert.Gnn
open Idealize.ShloMosaic.Pipeline (Dat)

theorem hz : (![0, 0] : Fin 2 → Nat) = fun _ => 0 := funext fun a => by fin_cases a <;> rfl

/-- The body's product at an index: the sum over the 64 contracted coordinates. -/
theorem pay1_apply (x0 : Vec Ideal S5000x64 .f32) (x1 : Vec Ideal S64x32 .f32) (j : S5000x32.Idx) :
    k0_pay1 (F := Ideal) x0 x1 j = ∑ k : Fin 64, x0 (ix2 (j 0) k) * x1 (ix2 k (j 1)) := by
  unfold k0_pay1
  exact Cert.Lib.PlainDot.matmul_zero_apply 5000 64 32 none _ _ j

/-- Where the windows sit at point `t`: the feature block and the result block at row block `t`, the weights whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- The node features and the weights as the call finds them. -/
abbrev X (c : Dev nD) : Mat 100000 64 := V c main_arg0
abbrev Wt (c : Dev nD) : Mat 64 32 := V c main_arg2

/-- Their product. -/
abbrev G (c : Dev nD) : Mat 100000 32 := mm (X V c) (Wt V c)

/-- What point `t` writes back is its block of the product. -/
theorem flushed_eq (c : Dev nD) (t : Fin cfg0.N) :
    (dat0 V c).flushed 2 t = ((cfg0.win 2).blk t).view.read (Elt Ideal) (G V c) := by
  show (cfg0.win 2).cut (grid0.coords t) ((dat0 V c).after 2 t) = _
  rw [after0_2]
  unfold out0_2
  rw [View.canon_unit_zero hz]
  simp only [View.ld_unit_zero (S := S5000x64) hz, View.ld_unit_zero (S := S64x32) hz]
  funext j
  obtain ⟨e0, e1, e2, e3, e4, e5⟩ := idx_facts t
  show k0_pay1 (F := Ideal) (iblk0 V c 0 t) (iblk0 V c 1 t) j = G V c (((cfg0.win 2).blk t).view.emb j)
  refine (pay1_apply _ _ _).trans ?_
  show ∑ k : Fin 64, X V c (((cfg0.win 0).blk t).view.emb (ix2 (j 0) k)) * Wt V c (((cfg0.win 1).blk t).view.emb (ix2 k (j 1)))
    = ∑ k : Fin 64, X V c (ix2 ((((cfg0.win 2).blk t).view.emb j) 0) k) * Wt V c (ix2 k ((((cfg0.win 2).blk t).view.emb j) 1))
  refine Finset.sum_congr rfl fun k _ => ?_
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 64 + 1 * k.val = k.val; omega
  have h1 : ((cfg0.win 1).blk t).view.emb (ix2 k (j 1)) = ix2 k ((((cfg0.win 2).blk t).view.emb j) 1) := by
    funext a; apply Fin.ext
    match a with
    | ⟨0, _⟩ => show win0_1.index t (0 : Fin 2) * 64 + 1 * k.val = k.val; omega
    | ⟨1, _⟩ => show win0_1.index t (1 : Fin 2) * 32 + 1 * (j 1).val = win0_2.index t (1 : Fin 2) * 32 + 1 * (j 1).val; omega
  rw [h0, h1]
  rfl

/-- An index of the result is in point `t`'s block iff each coordinate is in the block's range. -/
theorem mem_blk (t : Fin cfg0.N) (i : S100000x32.Idx) :
    i ∈ ((cfg0.win 2).blk t).view.set ↔ ∀ a : Fin 2, win0_2.index t a * S5000x32.size a ≤ (i a).val ∧ (i a).val < win0_2.index t a * S5000x32.size a + S5000x32.size a := by
  show i ∈ ((View.whole main_v4).slice (win0_2.rect t)).set ↔ _
  rw [View.set_slice_whole, Rect.mem_set_unit]
  exact Iff.rfl

/-- Every row is in the block of the point its row block names. -/
theorem cover (i : S100000x32.Idx) : ∃ t : Fin cfg0.N, (cfg0.win 2).flush t = true ∧ i ∈ ((cfg0.win 2).blk t).view.set := by
  have hi0 : (i 0).val < 100000 := (i 0).isLt
  have hi1 : (i 1).val < 32 := (i 1).isLt
  have hN : cfg0.N = 20 := N_0
  refine ⟨⟨(i 0).val / 5000, by omega⟩, flush0_2 _, ?_⟩
  rw [mem_blk]
  obtain ⟨e0, e1, e2, e3, e4, e5⟩ := idx_facts ⟨(i 0).val / 5000, by omega⟩
  intro a
  match a with
  | ⟨0, _⟩ => show win0_2.index _ (0 : Fin 2) * 5000 ≤ (i 0).val ∧ (i 0).val < win0_2.index _ (0 : Fin 2) * 5000 + 5000; rw [e4]; show (i 0).val / 5000 * 5000 ≤ (i 0).val ∧ (i 0).val < (i 0).val / 5000 * 5000 + 5000; omega
  | ⟨1, _⟩ => show win0_2.index _ (1 : Fin 2) * 32 ≤ (i 1).val ∧ (i 1).val < win0_2.index _ (1 : Fin 2) * 32 + 32; rw [e5]; omega

/-- The array the first call leaves: the product of the features and the weights as the call finds them. -/
theorem final (c : Dev nD) : (dat0 V c).arrAt 2 cfg0.N = G V c :=
  (dat0 V c).arrAt_eq_of_cover 2 (G V c) (fun t _ => flushed_eq V c t) cover

end Cert.KernelIdeal.Reg0

end
-- ==== Proof.LibGnnBlock.lean ====
/-
  Pieces the kernel bodies share, read at an index over arbitrary extents.

  * A bias reaches a body as a `[1, C]` array; `rowOf` is its one row as a vector.
  * A `[1, b]` array broadcast to `[a, b]` reads, at `(p, q)`, the operand at `(0, q)`.
  * The layer body: a product into a zero accumulator, plus an array, plus a broadcast row, then the maximum with a
    zero splat, is at `(p, q)` the number `max ((∑ k, x (p, k) · w (k, q) + a (p, q)) + b (0, q)) 0`; and that is the entry
    of `relu (addRow (x · w + a) (rowOf b))`.
-/
import proofs.«120834_j13211319403151_2_alg».proof.Proof.LibGnnSpec
import proofs.«120834_j13211319403151_2_alg».proof.Proof.LibPlainDot
import Idealize.ShloMosaic.Lib.Pipeline.Value
import Idealize.ShloMosaic.Lib.ValueIdx
import Idealize.ShloMosaic.PureOps.Ideal.Laws

noncomputable section

open scoped BigOperators

namespace Cert.Gnn

open Idealize.ShloMosaic Idealize.ShloMosaic.ValueIdx

/-- The one row of a `[1, C]` array, as a vector. -/
def rowOf {C : ℕ} (b : Mat 1 C) : Vec1 C := fun q => b (ix2 (0 : Fin 1) (q 0))

/-- A `[1, b]` array broadcast to `[a, b]` reads, at `(p, q)`, the operand at `(0, q)`. -/
theorem broadcastTo_1b_ab_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- The layer before its activation, from a block's pieces: `(x · w + a) + b` with `b` a `[1, N]` row. -/
def preBlock {M K N : ℕ} (x : Mat M K) (w : Mat K N) (a : Mat M N) (b : Mat 1 N) : Mat M N :=
  addRow (fun i => mm x w i + a i) (rowOf b)

theorem preBlock_apply {M K N : ℕ} (x : Mat M K) (w : Mat K N) (a : Mat M N) (b : Mat 1 N) (p : Fin M) (q : Fin N) :
    preBlock x w a b (ix2 p q) = (∑ k : Fin K, x (ix2 p k) * w (ix2 k q) + a (ix2 p q)) + b (ix2 (0 : Fin 1) q) := rfl

/-- A row of the layer's value depends only on the same row of the features and of the neighbour sum. -/
theorem preBlock_rows {M M' K N : ℕ} (x : Mat M K) (x' : Mat M' K) (w : Mat K N) (a : Mat M N) (a' : Mat M' N)
    (b : Mat 1 N) (p : Fin M) (p' : Fin M') (hx : ∀ k, x (ix2 p k) = x' (ix2 p' k))
    (ha : ∀ q, a (ix2 p q) = a' (ix2 p' q)) (q : Fin N) :
    preBlock x w a b (ix2 p q) = preBlock x' w a' b (ix2 p' q) := by
  rw [preBlock_apply, preBlock_apply, ha q]
  exact congrArg (fun s => (s + a' (ix2 p' q)) + b (ix2 (0 : Fin 1) q))
    (Finset.sum_congr rfl fun k _ => by rw [hx k])

/-- The body's pre-activation value at `(p, q)`: the product into a zero accumulator, plus `a`, plus the broadcast row. -/
theorem preBody_apply {M K N : ℕ} (d : DotDims ⟨2, ![M, K]⟩ ⟨2, ![K, N]⟩ ⟨2, ![M, N]⟩) (hd : d = DotDims.plain M K N)
    (x : Mat M K) (w : Mat K N) (a : Mat M N) (b : Mat 1 N)
    (hb : (⟨2, ![1, N]⟩ : Shape).Broadcasts ⟨2, ![M, N]⟩) (p : Fin M) (q : Fin N) :
    addf (F := Ideal) (φ := .f32)
        (addf (F := Ideal) (φ := .f32)
          (FloatOps.matmul (F := Ideal) (φ₁ := .bf16) (φ₂ := .bf16) d none x w (constant ⟨2, ![M, N]⟩ .f32 0x00000000#32)) a)
        (broadcastTo ⟨2, ![M, N]⟩ b hb) (ix2 p q)
      = preBlock x w a b (ix2 p q) := by
  subst hd
  rw [preBlock_apply]
  show (FloatOps.matmul (F := Ideal) (φ₁ := .bf16) (φ₂ := .bf16) (DotDims.plain M K N) none x w
      (constant ⟨2, ![M, N]⟩ .f32 0x00000000#32) (ix2 p q) + a (ix2 p q)) + broadcastTo ⟨2, ![M, N]⟩ b hb (ix2 p q) = _
  rw [Cert.Lib.PlainDot.matmul_zero_apply, broadcastTo_1b_ab_apply]
  rfl

/-- The maximum with a zero splat is the positive part. -/
theorem maxZero_apply {s : Shape} (v : s.Idx → EReal) (i : s.Idx) :
    maximumf (F := Ideal) (φ := .f32) v (broadcast s (Scalar.ofBits (F := Ideal) .f32 0x00000000#32)) i = relu v i := by
  show max (v i) (Ideal.ofBits .f32 0x00000000#32) = max (v i) 0
  rw [Ideal.ofBits_zero_f32]

end Cert.Gnn

end
-- ==== Proof.KReg1.lean ====
/-
  Call 1: a layer's node update fused with the next layer's projection, on blocks of 5000 node rows.

  A grid point `t` reads rows `5000 t … 5000 t + 4999` of the neighbour sum (32 columns) and of the node features
  (64 columns), and the whole root weights (64 × 32), the bias as a `[1, 32]` array and the next layer's
  neighbour weights (32 × 16). It writes the same rows of two results: the activated layer
  `h = relu ((x · W_root + a) + b)` and the projection `h · W_next`. A row of either depends only on the same row of the
  features and of the neighbour sum, so what the point writes is its block of the whole-array functions `H` and `Y`; the
  twenty blocks tile the 100000 rows.
-/
import proofs.«120834_j13211319403151_2_alg».proof.Proof.Gen.KernelIdeal.Frame
import proofs.«120834_j13211319403151_2_alg».proof.Proof.LibGnnSpec
import proofs.«120834_j13211319403151_2_alg».proof.Proof.LibPlainDot
import proofs.«120834_j13211319403151_2_alg».proof.Proof.LibGnnBlock
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Reg1

open Cert.KernelIdeal Cert.KernelIdeal.Gen Idealize.ShloMosaic Idealize.ShloMosaic.TcCoe Idealize.ShloMosaic.ValueIdx
open Idealize.SL.Sem Cert.Gnn
open Idealize.ShloMosaic.Pipeline (Dat)

theorem hz : (![0, 0] : Fin 2 → Nat) = fun _ => 0 := funext fun a => by fin_cases a <;> rfl

/-- The body's first stored value is the activated layer of its blocks. -/
theorem pay1_eq (x0 : Vec Ideal S5000x32 .f32) (x1 : Vec Ideal S5000x64 .f32) (x2 : Vec Ideal S64x32 .f32)
    (x3 : Vec Ideal S1x32 .f32) :
    k1_pay1 (F := Ideal) x0 x1 x2 x3 = relu (preBlock (M := 5000) (K := 64) (N := 32) x1 x2 x0 x3) := by
  funext j
  obtain ⟨p, q, rfl⟩ : ∃ (p : Fin 5000) (q : Fin 32), j = ix2 p q := ⟨j 0, j 1, eq_ix2 j⟩
  unfold k1_pay1
  simp only [shapeCast_self]
  refine (maxZero_apply _ _).trans ?_
  exact congrArg (fun v => max v 0) (preBody_apply _ rfl x1 x2 x0 x3 _ p q)

/-- The body's second stored value is the product of the first with the next layer's weights. -/
theorem pay2_apply (x0 : Vec Ideal S5000x32 .f32) (x1 : Vec Ideal S5000x64 .f32) (x2 : Vec Ideal S64x32 .f32)
    (x3 : Vec Ideal S1x32 .f32) (x4 : Vec Ideal S32x16 .f32) (p : Fin 5000) (q : Fin 16) :
    k1_pay2 (F := Ideal) x0 x1 x2 x3 x4 (ix2 p q)
      = ∑ j : Fin 32, k1_pay1 (F := Ideal) x0 x1 x2 x3 (ix2 p j) * x4 (ix2 j q) := by
  unfold k1_pay2
  exact Cert.Lib.PlainDot.matmul_zero_apply 5000 32 16 none _ _ (ix2 p q)

/-- Where the windows sit at point `t`: the row-blocked ones at row block `t`, the others whole. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

variable (V : (c : Dev nD) → (b : Ref sig .tc) → Buf (Elt Ideal) ((c : Thread nD τ).loc b))

/-- The arrays as the call finds them: the neighbour sum, the features, the root weights, the bias row, the next weights. -/
abbrev Ag (c : Dev nD) : Mat 100000 32 := V c main_v16
abbrev X (c : Dev nD) : Mat 100000 64 := V c main_arg0
abbrev Wr (c : Dev nD) : Mat 64 32 := V c main_arg3
abbrev B (c : Dev nD) : Mat 1 32 := V c main_v17
abbrev Wn (c : Dev nD) : Mat 32 16 := V c main_arg5

/-- The activated layer and its projection, as whole arrays. -/
abbrev H (c : Dev nD) : Mat 100000 32 := relu (preBlock (X V c) (Wr V c) (Ag V c) (B V c))
abbrev Y (c : Dev nD) : Mat 100000 16 := mm (H V c) (Wn V c)

/-- Row `r` of point `t`'s blocks is row `5000 t + r` of the arrays. -/
def rowAt (t : Fin cfg1.N) (r : Fin 5000) : Fin 100000 :=
  ⟨t.val * 5000 + r.val, by have h : cfg1.N = 20 := N_1; have := t.isLt; have := r.isLt; omega⟩

theorem blk0_apply (c : Dev nD) (t : Fin cfg1.N) (r : Fin 5000) (q : Fin 32) :
    (iblk1 V c 0 t : Mat 5000 32) (ix2 r q) = Ag V c (ix2 (rowAt t r) q) := by
  obtain ⟨e0, e1, -⟩ := idx_facts t
  show Ag V c (((cfg1.win 0).blk t).view.emb (ix2 r q)) = _
  refine congrArg _ (funext fun a => Fin.ext ?_)
  match a with
  | ⟨0, _⟩ => show win1_0.index t (0 : Fin 2) * 5000 + 1 * r.val = t.val * 5000 + r.val; omega
  | ⟨1, _⟩ => show win1_0.index t (1 : Fin 2) * 32 + 1 * q.val = q.val; omega

theorem blk1_apply (c : Dev nD) (t : Fin cfg1.N) (r : Fin 5000) (k : Fin 64) :
    (iblk1 V c 1 t : Mat 5000 64) (ix2 r k) = X V c (ix2 (rowAt t r) k) := by
  obtain ⟨-, -, e2, e3, -⟩ := idx_facts t
  show X V c (((cfg1.win 1).blk t).view.emb (ix2 r k)) = _
  refine congrArg _ (funext fun a => Fin.ext ?_)
  match a with
  | ⟨0, _⟩ => show win1_1.index t (0 : Fin 2) * 5000 + 1 * r.val = t.val * 5000 + r.val; omega
  | ⟨1, _⟩ => show win1_1.index t (1 : Fin 2) * 64 + 1 * k.val = k.val; omega

theorem blk2_eq (c : Dev nD) (t : Fin cfg1.N) : (iblk1 V c 2 t : Mat 64 32) = Wr V c := by
  obtain ⟨-, -, -, -, e4, e5, -⟩ := idx_facts t
  funext y
  show Wr V c (((cfg1.win 2).blk t).view.emb y) = _
  refine congrArg _ (funext fun a => Fin.ext ?_)
  match a with
  | ⟨0, _⟩ => show win1_2.index t (0 : Fin 2) * 64 + 1 * (y 0).val = (y 0).val; omega
  | ⟨1, _⟩ => show win1_2.index t (1 : Fin 2) * 32 + 1 * (y 1).val = (y 1).val; omega

theorem blk3_eq (c : Dev nD) (t : Fin cfg1.N) : (iblk1 V c 3 t : Mat 1 32) = B V c := by
  obtain ⟨-, -, -, -, -, -, e6, e7, -⟩ := idx_facts t
  funext y
  show B V c (((cfg1.win 3).blk t).view.emb y) = _
  refine congrArg _ (funext fun a => Fin.ext ?_)
  match a with
  | ⟨0, _⟩ => show win1_3.index t (0 : Fin 2) * 1 + 1 * (y 0).val = (y 0).val; omega
  | ⟨1, _⟩ => show win1_3.index t (1 : Fin 2) * 32 + 1 * (y 1).val = (y 1).val; omega

theorem blk4_eq (c : Dev nD) (t : Fin cfg1.N) : (iblk1 V c 4 t : Mat 32 16) = Wn V c := by
  obtain ⟨-, -, -, -, -, -, -, -, e8, e9, -⟩ := idx_facts t
  funext y
  show Wn V c (((cfg1.win 4).blk t).view.emb y) = _
  refine congrArg _ (funext fun a => Fin.ext ?_)
  match a with
  | ⟨0, _⟩ => show win1_4.index t (0 : Fin 2) * 32 + 1 * (y 0).val = (y 0).val; omega
  | ⟨1, _⟩ => show win1_4.index t (1 : Fin 2) * 16 + 1 * (y 1).val = (y 1).val; omega

/-- Where entry `(p, q)` of point `t`'s result blocks lands in the result arrays. -/
theorem emb5 (t : Fin cfg1.N) (p : Fin 5000) (q : Fin 32) :
    ((cfg1.win 5).blk t).view.emb (ix2 p q) = ix2 (rowAt t p) q := by
  obtain ⟨-, -, -, -, -, -, -, -, -, -, e10, e11, -⟩ := idx_facts t
  refine funext fun a => Fin.ext ?_
  match a with
  | ⟨0, _⟩ => show win1_5.index t (0 : Fin 2) * 5000 + 1 * p.val = t.val * 5000 + p.val; omega
  | ⟨1, _⟩ => show win1_5.index t (1 : Fin 2) * 32 + 1 * q.val = q.val; omega

theorem emb6 (t : Fin cfg1.N) (p : Fin 5000) (q : Fin 16) :
    ((cfg1.win 6).blk t).view.emb (ix2 p q) = ix2 (rowAt t p) q := by
  obtain ⟨-, -, -, -, -, -, -, -, -, -, -, -, e12, e13⟩ := idx_facts t
  refine funext fun a => Fin.ext ?_
  match a with
  | ⟨0, _⟩ => show win1_6.index t (0 : Fin 2) * 5000 + 1 * p.val = t.val * 5000 + p.val; omega
  | ⟨1, _⟩ => show win1_6.index t (1 : Fin 2) * 16 + 1 * q.val = q.val; omega

/-- Row `p` of the activated layer of point `t`'s blocks is row `5000 t + p` of `H`. -/
theorem h_row (c : Dev nD) (t : Fin cfg1.N) (p : Fin 5000) (q : Fin 32) :
    k1_pay1 (F := Ideal) (iblk1 V c 0 t) (iblk1 V c 1 t) (iblk1 V c 2 t) (iblk1 V c 3 t) (ix2 p q)
      = H V c (ix2 (rowAt t p) q) := by
  refine (congrFun (pay1_eq _ _ _ _) (ix2 p q)).trans ?_
  show max (preBlock (iblk1 V c 1 t : Mat 5000 64) (iblk1 V c 2 t : Mat 64 32) (iblk1 V c 0 t : Mat 5000 32)
      (iblk1 V c 3 t : Mat 1 32) (ix2 p q)) 0 = max (preBlock (X V c) (Wr V c) (Ag V c) (B V c) (ix2 (rowAt t p) q)) 0
  rw [blk2_eq V c t, blk3_eq V c t,
    preBlock_rows _ (X V c) (Wr V c) _ (Ag V c) (B V c) p (rowAt t p) (fun k => blk1_apply V c t p k)
      (fun q' => blk0_apply V c t p q') q]

/-- What point `t` writes back to the first result is its block of `H`. -/
theorem flushed5_eq (c : Dev nD) (t : Fin cfg1.N) :
    (dat1 V c).flushed 5 t = ((cfg1.win 5).blk t).view.read (Elt Ideal) (H V c) := by
  show (cfg1.win 5).cut (grid1.coords t) ((dat1 V c).after 5 t) = _
  rw [after1_5]
  unfold out1_5
  rw [View.canon_unit_zero hz]
  simp only [View.ld_unit_zero (S := S5000x32) hz, View.ld_unit_zero (S := S5000x64) hz,
    View.ld_unit_zero (S := S64x32) hz, View.ld_unit_zero (S := S1x32) hz]
  funext j
  obtain ⟨p, q, rfl⟩ : ∃ (p : Fin 5000) (q : Fin 32), j = ix2 p q := ⟨j 0, j 1, eq_ix2 j⟩
  show k1_pay1 (F := Ideal) (iblk1 V c 0 t) (iblk1 V c 1 t) (iblk1 V c 2 t) (iblk1 V c 3 t) (ix2 p q)
    = H V c (((cfg1.win 5).blk t).view.emb (ix2 p q))
  rw [emb5 t p q]
  exact h_row V c t p q

/-- What point `t` writes back to the second result is its block of `Y`. -/
theorem flushed6_eq (c : Dev nD) (t : Fin cfg1.N) :
    (dat1 V c).flushed 6 t = ((cfg1.win 6).blk t).view.read (Elt Ideal) (Y V c) := by
  show (cfg1.win 6).cut (grid1.coords t) ((dat1 V c).after 6 t) = _
  rw [after1_6]
  unfold out1_6
  rw [View.canon_unit_zero hz]
  simp only [View.ld_unit_zero (S := S5000x32) hz, View.ld_unit_zero (S := S5000x64) hz,
    View.ld_unit_zero (S := S64x32) hz, View.ld_unit_zero (S := S1x32) hz, View.ld_unit_zero (S := S32x16) hz]
  funext j
  obtain ⟨p, q, rfl⟩ : ∃ (p : Fin 5000) (q : Fin 16), j = ix2 p q := ⟨j 0, j 1, eq_ix2 j⟩
  show k1_pay2 (F := Ideal) (iblk1 V c 0 t) (iblk1 V c 1 t) (iblk1 V c 2 t) (iblk1 V c 3 t) (iblk1 V c 4 t) (ix2 p q)
    = Y V c (((cfg1.win 6).blk t).view.emb (ix2 p q))
  rw [emb6 t p q]
  refine (pay2_apply _ _ _ _ _ p q).trans ?_
  show ∑ j : Fin 32, k1_pay1 (F := Ideal) (iblk1 V c 0 t) (iblk1 V c 1 t) (iblk1 V c 2 t) (iblk1 V c 3 t) (ix2 p j)
      * (iblk1 V c 4 t : Mat 32 16) (ix2 j q) = ∑ j : Fin 32, H V c (ix2 (rowAt t p) j) * Wn V c (ix2 j q)
  rw [blk4_eq V c t]
  exact Finset.sum_congr rfl fun j _ => by rw [h_row V c t p j]

/-- An index of a result is in point `t`'s block iff each coordinate is in the block's range. -/
theorem mem_blk5 (t : Fin cfg1.N) (i : S100000x32.Idx) :
    i ∈ ((cfg1.win 5).blk t).view.set ↔ ∀ a : Fin 2, win1_5.index t a * S5000x32.size a ≤ (i a).val ∧ (i a).val < win1_5.index t a * S5000x32.size a + S5000x32.size a := by
  show i ∈ ((View.whole main_v18_0).slice (win1_5.rect t)).set ↔ _
  rw [View.set_slice_whole, Rect.mem_set_unit]
  exact Iff.rfl

theorem mem_blk6 (t : Fin cfg1.N) (i : S100000x16.Idx) :
    i ∈ ((cfg1.win 6).blk t).view.set ↔ ∀ a : Fin 2, win1_6.index t a * S5000x16.size a ≤ (i a).val ∧ (i a).val < win1_6.index t a * S5000x16.size a + S5000x16.size a := by
  show i ∈ ((View.whole main_v18_1).slice (win1_6.rect t)).set ↔ _
  rw [View.set_slice_whole, Rect.mem_set_unit]
  exact Iff.rfl

/-- Every row is in the block of the point its row block names. -/
theorem cover5 (i : S100000x32.Idx) : ∃ t : Fin cfg1.N, (cfg1.win 5).flush t = true ∧ i ∈ ((cfg1.win 5).blk t).view.set := by
  have hi0 : (i 0).val < 100000 := (i 0).isLt
  have hi1 : (i 1).val < 32 := (i 1).isLt
  have hN : cfg1.N = 20 := N_1
  refine ⟨⟨(i 0).val / 5000, by omega⟩, flush1_5 _, ?_⟩
  rw [mem_blk5]
  obtain ⟨-, -, -, -, -, -, -, -, -, -, e10, e11, -⟩ := idx_facts ⟨(i 0).val / 5000, by omega⟩
  intro a
  match a with
  | ⟨0, _⟩ => show win1_5.index _ (0 : Fin 2) * 5000 ≤ (i 0).val ∧ (i 0).val < win1_5.index _ (0 : Fin 2) * 5000 + 5000; rw [e10]; show (i 0).val / 5000 * 5000 ≤ (i 0).val ∧ (i 0).val < (i 0).val / 5000 * 5000 + 5000; omega
  | ⟨1, _⟩ => show win1_5.index _ (1 : Fin 2) * 32 ≤ (i 1).val ∧ (i 1).val < win1_5.index _ (1 : Fin 2) * 32 + 32; rw [e11]; omega

theorem cover6 (i : S100000x16.Idx) : ∃ t : Fin cfg1.N, (cfg1.win 6).flush t = true ∧ i ∈ ((cfg1.win 6).blk t).view.set := by
  have hi0 : (i 0).val < 100000 := (i 0).isLt
  have hi1 : (i 1).val < 16 := (i 1).isLt
  have hN : cfg1.N = 20 := N_1
  refine ⟨⟨(i 0).val / 5000, by omega⟩, flush1_6 _, ?_⟩
  rw [mem_blk6]
  obtain ⟨-, -, -, -, -, -, -, -, -, -, -, -, e12, e13⟩ := idx_facts ⟨(i 0).val / 5000, by omega⟩
  intro a
  match a with
  | ⟨0, _⟩ => show win1_6.index _ (0 : Fin 2) * 5000 ≤ (i 0).val ∧ (i 0).val < win1_6.index _ (0 : Fin 2) * 5000 + 5000; rw [e12]; show (i 0).val / 5000 * 5000 ≤ (i 0).val ∧ (i 0).val < (i 0).val / 5000 * 5000 + 5000; omega
  | ⟨1, _⟩ => show win1_6.index _ (1 : Fin 2) * 16 ≤ (i 1).val ∧ (i 1).val < win1_6.index _ (1 : Fin 2) * 16 + 16; rw [e13]; omega

/-- The two arrays the call leaves: the activated layer and its projection, of the arrays as the call finds them. -/
theorem final5 (c : Dev nD) : (dat1 V c).arrAt 5 cfg1.N = H V c :=
  (dat1 V c).arrAt_eq_of_cover 5 (H V c) (fun t _ => flushed5_eq V c t) cover5

theorem final6 (c : Dev nD) : (dat1 V c).arrAt 6 cfg1.N = Y V c :=
  (dat1 V c).arrAt_eq_of_cover 6 (Y V c) (fun t _ => flushed6_eq V c t) cover6

end Cert.KernelIdeal.Reg1

end
-- ==== Proof.KReg2.lean ====
/-
  Call 2: a layer's node update fused with the next layer's projection, on blocks of 5000 node rows.

  A grid point `t` reads rows `5000 t … 5000 t + 4999` of the neighbour sum (16 columns) and of the node features
  (32 columns), and the whole root weights (32 × 16), the bias as a `[1, 16]` array and the next layer's
  neighbour weights (16 × 2). It writes the same rows of two results: the activated layer
  `h = relu ((x · W_root + a) + b)` and the projection `h · W_next`. A row of either depends only on the same row of the
  features and of the neighbour sum, so what the point writes is its block of the whole-array functions `H` and `Y`; the
  twenty blocks tile the 100000 rows.
-/
import proofs.«120834_j13211319403151_2_alg».proof.Proof.Gen.KernelIdeal.Frame
import proofs.«120834_j13211319403151_2_alg».proof.Proof.LibGnnSpec
import proofs.«120834_j13211319403151_2_alg».proof.Proof.LibPlainDot
import proofs.«120834_j13211319403151_2_alg».proof.Proof.LibGnnBlock
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Reg2

open Cert.KernelIdeal Cert.KernelIdeal.Gen Idealize.ShloMosaic Idealize.ShloMosaic.TcCoe Idealize.ShloMosaic.ValueIdx
open Idealize.SL.Sem Cert.Gnn
open Idealize.ShloMosaic.Pipeline (Dat)

theorem hz : (![0, 0] : Fin 2 → Nat) = fun _ => 0 := funext fun a => by fin_cases a <;> rfl

/-- The body's first stored value is the activated layer of its blocks. -/
theorem pay1_eq (x0 : Vec Ideal S5000x16 .f32) (x1 : Vec Ideal S5000x32 .f32) (x2 : Vec Ideal S32x16 .f32)
    (x3 : Vec Ideal S1x16 .f32) :
    k2_pay1 (F := Ideal) x0 x1 x2 x3 = relu (preBlock (M := 5000) (K := 32) (N := 16) x1 x2 x0 x3) := by
  funext j
  obtain ⟨p, q, rfl⟩ : ∃ (p : Fin 5000) (q : Fin 16), j = ix2 p q := ⟨j 0, j 1, eq_ix2 j⟩
  unfold k2_pay1
  simp only [shapeCast_self]
  refine (maxZero_apply _ _).trans ?_
  exact congrArg (fun v => max v 0) (preBody_apply _ rfl x1 x2 x0 x3 _ p q)

/-- The body's second stored value is the product of the first with the next layer's weights. -/
theorem pay2_apply (x0 : Vec Ideal S5000x16 .f32) (x1 : Vec Ideal S5000x32 .f32) (x2 : Vec Ideal S32x16 .f32)
    (x3 : Vec Ideal S1x16 .f32) (x4 : Vec Ideal S16x2 .f32) (p : Fin 5000) (q : Fin 2) :
    k2_pay2 (F := Ideal) x0 x1 x2 x3 x4 (ix2 p q)
      = ∑ j : Fin 16, k2_pay1 (F := Ideal) x0 x1 x2 x3 (ix2 p j) * x4 (ix2 j q) := by
  unfold k2_pay2
  exact Cert.Lib.PlainDot.matmul_zero_apply 5000 16 2 none _ _ (ix2 p q)

/-- Where the windows sit at point `t`: the row-blocked ones at row block `t`, the others whole. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

variable (V : (c : Dev nD) → (b : Ref sig .tc) → Buf (Elt Ideal) ((c : Thread nD τ).loc b))

/-- The arrays as the call finds them: the neighbour sum, the features, the root weights, the bias row, the next weights. -/
abbrev Ag (c : Dev nD) : Mat 100000 16 := V c main_v30
abbrev X (c : Dev nD) : Mat 100000 32 := V c main_v18_0
abbrev Wr (c : Dev nD) : Mat 32 16 := V c main_arg6
abbrev B (c : Dev nD) : Mat 1 16 := V c main_v31
abbrev Wn (c : Dev nD) : Mat 16 2 := V c main_arg8

/-- The activated layer and its projection, as whole arrays. -/
abbrev H (c : Dev nD) : Mat 100000 16 := relu (preBlock (X V c) (Wr V c) (Ag V c) (B V c))
abbrev Y (c : Dev nD) : Mat 100000 2 := mm (H V c) (Wn V c)

/-- Row `r` of point `t`'s blocks is row `5000 t + r` of the arrays. -/
def rowAt (t : Fin cfg2.N) (r : Fin 5000) : Fin 100000 :=
  ⟨t.val * 5000 + r.val, by have h : cfg2.N = 20 := N_2; have := t.isLt; have := r.isLt; omega⟩

theorem blk0_apply (c : Dev nD) (t : Fin cfg2.N) (r : Fin 5000) (q : Fin 16) :
    (iblk2 V c 0 t : Mat 5000 16) (ix2 r q) = Ag V c (ix2 (rowAt t r) q) := by
  obtain ⟨e0, e1, -⟩ := idx_facts t
  show Ag V c (((cfg2.win 0).blk t).view.emb (ix2 r q)) = _
  refine congrArg _ (funext fun a => Fin.ext ?_)
  match a with
  | ⟨0, _⟩ => show win2_0.index t (0 : Fin 2) * 5000 + 1 * r.val = t.val * 5000 + r.val; omega
  | ⟨1, _⟩ => show win2_0.index t (1 : Fin 2) * 16 + 1 * q.val = q.val; omega

theorem blk1_apply (c : Dev nD) (t : Fin cfg2.N) (r : Fin 5000) (k : Fin 32) :
    (iblk2 V c 1 t : Mat 5000 32) (ix2 r k) = X V c (ix2 (rowAt t r) k) := by
  obtain ⟨-, -, e2, e3, -⟩ := idx_facts t
  show X V c (((cfg2.win 1).blk t).view.emb (ix2 r k)) = _
  refine congrArg _ (funext fun a => Fin.ext ?_)
  match a with
  | ⟨0, _⟩ => show win2_1.index t (0 : Fin 2) * 5000 + 1 * r.val = t.val * 5000 + r.val; omega
  | ⟨1, _⟩ => show win2_1.index t (1 : Fin 2) * 32 + 1 * k.val = k.val; omega

theorem blk2_eq (c : Dev nD) (t : Fin cfg2.N) : (iblk2 V c 2 t : Mat 32 16) = Wr V c := by
  obtain ⟨-, -, -, -, e4, e5, -⟩ := idx_facts t
  funext y
  show Wr V c (((cfg2.win 2).blk t).view.emb y) = _
  refine congrArg _ (funext fun a => Fin.ext ?_)
  match a with
  | ⟨0, _⟩ => show win2_2.index t (0 : Fin 2) * 32 + 1 * (y 0).val = (y 0).val; omega
  | ⟨1, _⟩ => show win2_2.index t (1 : Fin 2) * 16 + 1 * (y 1).val = (y 1).val; omega

theorem blk3_eq (c : Dev nD) (t : Fin cfg2.N) : (iblk2 V c 3 t : Mat 1 16) = B V c := by
  obtain ⟨-, -, -, -, -, -, e6, e7, -⟩ := idx_facts t
  funext y
  show B V c (((cfg2.win 3).blk t).view.emb y) = _
  refine congrArg _ (funext fun a => Fin.ext ?_)
  match a with
  | ⟨0, _⟩ => show win2_3.index t (0 : Fin 2) * 1 + 1 * (y 0).val = (y 0).val; omega
  | ⟨1, _⟩ => show win2_3.index t (1 : Fin 2) * 16 + 1 * (y 1).val = (y 1).val; omega

theorem blk4_eq (c : Dev nD) (t : Fin cfg2.N) : (iblk2 V c 4 t : Mat 16 2) = Wn V c := by
  obtain ⟨-, -, -, -, -, -, -, -, e8, e9, -⟩ := idx_facts t
  funext y
  show Wn V c (((cfg2.win 4).blk t).view.emb y) = _
  refine congrArg _ (funext fun a => Fin.ext ?_)
  match a with
  | ⟨0, _⟩ => show win2_4.index t (0 : Fin 2) * 16 + 1 * (y 0).val = (y 0).val; omega
  | ⟨1, _⟩ => show win2_4.index t (1 : Fin 2) * 2 + 1 * (y 1).val = (y 1).val; omega

/-- Where entry `(p, q)` of point `t`'s result blocks lands in the result arrays. -/
theorem emb5 (t : Fin cfg2.N) (p : Fin 5000) (q : Fin 16) :
    ((cfg2.win 5).blk t).view.emb (ix2 p q) = ix2 (rowAt t p) q := by
  obtain ⟨-, -, -, -, -, -, -, -, -, -, e10, e11, -⟩ := idx_facts t
  refine funext fun a => Fin.ext ?_
  match a with
  | ⟨0, _⟩ => show win2_5.index t (0 : Fin 2) * 5000 + 1 * p.val = t.val * 5000 + p.val; omega
  | ⟨1, _⟩ => show win2_5.index t (1 : Fin 2) * 16 + 1 * q.val = q.val; omega

theorem emb6 (t : Fin cfg2.N) (p : Fin 5000) (q : Fin 2) :
    ((cfg2.win 6).blk t).view.emb (ix2 p q) = ix2 (rowAt t p) q := by
  obtain ⟨-, -, -, -, -, -, -, -, -, -, -, -, e12, e13⟩ := idx_facts t
  refine funext fun a => Fin.ext ?_
  match a with
  | ⟨0, _⟩ => show win2_6.index t (0 : Fin 2) * 5000 + 1 * p.val = t.val * 5000 + p.val; omega
  | ⟨1, _⟩ => show win2_6.index t (1 : Fin 2) * 2 + 1 * q.val = q.val; omega

/-- Row `p` of the activated layer of point `t`'s blocks is row `5000 t + p` of `H`. -/
theorem h_row (c : Dev nD) (t : Fin cfg2.N) (p : Fin 5000) (q : Fin 16) :
    k2_pay1 (F := Ideal) (iblk2 V c 0 t) (iblk2 V c 1 t) (iblk2 V c 2 t) (iblk2 V c 3 t) (ix2 p q)
      = H V c (ix2 (rowAt t p) q) := by
  refine (congrFun (pay1_eq _ _ _ _) (ix2 p q)).trans ?_
  show max (preBlock (iblk2 V c 1 t : Mat 5000 32) (iblk2 V c 2 t : Mat 32 16) (iblk2 V c 0 t : Mat 5000 16)
      (iblk2 V c 3 t : Mat 1 16) (ix2 p q)) 0 = max (preBlock (X V c) (Wr V c) (Ag V c) (B V c) (ix2 (rowAt t p) q)) 0
  rw [blk2_eq V c t, blk3_eq V c t,
    preBlock_rows _ (X V c) (Wr V c) _ (Ag V c) (B V c) p (rowAt t p) (fun k => blk1_apply V c t p k)
      (fun q' => blk0_apply V c t p q') q]

/-- What point `t` writes back to the first result is its block of `H`. -/
theorem flushed5_eq (c : Dev nD) (t : Fin cfg2.N) :
    (dat2 V c).flushed 5 t = ((cfg2.win 5).blk t).view.read (Elt Ideal) (H V c) := by
  show (cfg2.win 5).cut (grid2.coords t) ((dat2 V c).after 5 t) = _
  rw [after2_5]
  unfold out2_5
  rw [View.canon_unit_zero hz]
  simp only [View.ld_unit_zero (S := S5000x16) hz, View.ld_unit_zero (S := S5000x32) hz,
    View.ld_unit_zero (S := S32x16) hz, View.ld_unit_zero (S := S1x16) hz]
  funext j
  obtain ⟨p, q, rfl⟩ : ∃ (p : Fin 5000) (q : Fin 16), j = ix2 p q := ⟨j 0, j 1, eq_ix2 j⟩
  show k2_pay1 (F := Ideal) (iblk2 V c 0 t) (iblk2 V c 1 t) (iblk2 V c 2 t) (iblk2 V c 3 t) (ix2 p q)
    = H V c (((cfg2.win 5).blk t).view.emb (ix2 p q))
  rw [emb5 t p q]
  exact h_row V c t p q

/-- What point `t` writes back to the second result is its block of `Y`. -/
theorem flushed6_eq (c : Dev nD) (t : Fin cfg2.N) :
    (dat2 V c).flushed 6 t = ((cfg2.win 6).blk t).view.read (Elt Ideal) (Y V c) := by
  show (cfg2.win 6).cut (grid2.coords t) ((dat2 V c).after 6 t) = _
  rw [after2_6]
  unfold out2_6
  rw [View.canon_unit_zero hz]
  simp only [View.ld_unit_zero (S := S5000x16) hz, View.ld_unit_zero (S := S5000x32) hz,
    View.ld_unit_zero (S := S32x16) hz, View.ld_unit_zero (S := S1x16) hz, View.ld_unit_zero (S := S16x2) hz]
  funext j
  obtain ⟨p, q, rfl⟩ : ∃ (p : Fin 5000) (q : Fin 2), j = ix2 p q := ⟨j 0, j 1, eq_ix2 j⟩
  show k2_pay2 (F := Ideal) (iblk2 V c 0 t) (iblk2 V c 1 t) (iblk2 V c 2 t) (iblk2 V c 3 t) (iblk2 V c 4 t) (ix2 p q)
    = Y V c (((cfg2.win 6).blk t).view.emb (ix2 p q))
  rw [emb6 t p q]
  refine (pay2_apply _ _ _ _ _ p q).trans ?_
  show ∑ j : Fin 16, k2_pay1 (F := Ideal) (iblk2 V c 0 t) (iblk2 V c 1 t) (iblk2 V c 2 t) (iblk2 V c 3 t) (ix2 p j)
      * (iblk2 V c 4 t : Mat 16 2) (ix2 j q) = ∑ j : Fin 16, H V c (ix2 (rowAt t p) j) * Wn V c (ix2 j q)
  rw [blk4_eq V c t]
  exact Finset.sum_congr rfl fun j _ => by rw [h_row V c t p j]

/-- An index of a result is in point `t`'s block iff each coordinate is in the block's range. -/
theorem mem_blk5 (t : Fin cfg2.N) (i : S100000x16.Idx) :
    i ∈ ((cfg2.win 5).blk t).view.set ↔ ∀ a : Fin 2, win2_5.index t a * S5000x16.size a ≤ (i a).val ∧ (i a).val < win2_5.index t a * S5000x16.size a + S5000x16.size a := by
  show i ∈ ((View.whole main_v32_0).slice (win2_5.rect t)).set ↔ _
  rw [View.set_slice_whole, Rect.mem_set_unit]
  exact Iff.rfl

theorem mem_blk6 (t : Fin cfg2.N) (i : S100000x2.Idx) :
    i ∈ ((cfg2.win 6).blk t).view.set ↔ ∀ a : Fin 2, win2_6.index t a * S5000x2.size a ≤ (i a).val ∧ (i a).val < win2_6.index t a * S5000x2.size a + S5000x2.size a := by
  show i ∈ ((View.whole main_v32_1).slice (win2_6.rect t)).set ↔ _
  rw [View.set_slice_whole, Rect.mem_set_unit]
  exact Iff.rfl

/-- Every row is in the block of the point its row block names. -/
theorem cover5 (i : S100000x16.Idx) : ∃ t : Fin cfg2.N, (cfg2.win 5).flush t = true ∧ i ∈ ((cfg2.win 5).blk t).view.set := by
  have hi0 : (i 0).val < 100000 := (i 0).isLt
  have hi1 : (i 1).val < 16 := (i 1).isLt
  have hN : cfg2.N = 20 := N_2
  refine ⟨⟨(i 0).val / 5000, by omega⟩, flush2_5 _, ?_⟩
  rw [mem_blk5]
  obtain ⟨-, -, -, -, -, -, -, -, -, -, e10, e11, -⟩ := idx_facts ⟨(i 0).val / 5000, by omega⟩
  intro a
  match a with
  | ⟨0, _⟩ => show win2_5.index _ (0 : Fin 2) * 5000 ≤ (i 0).val ∧ (i 0).val < win2_5.index _ (0 : Fin 2) * 5000 + 5000; rw [e10]; show (i 0).val / 5000 * 5000 ≤ (i 0).val ∧ (i 0).val < (i 0).val / 5000 * 5000 + 5000; omega
  | ⟨1, _⟩ => show win2_5.index _ (1 : Fin 2) * 16 ≤ (i 1).val ∧ (i 1).val < win2_5.index _ (1 : Fin 2) * 16 + 16; rw [e11]; omega

theorem cover6 (i : S100000x2.Idx) : ∃ t : Fin cfg2.N, (cfg2.win 6).flush t = true ∧ i ∈ ((cfg2.win 6).blk t).view.set := by
  have hi0 : (i 0).val < 100000 := (i 0).isLt
  have hi1 : (i 1).val < 2 := (i 1).isLt
  have hN : cfg2.N = 20 := N_2
  refine ⟨⟨(i 0).val / 5000, by omega⟩, flush2_6 _, ?_⟩
  rw [mem_blk6]
  obtain ⟨-, -, -, -, -, -, -, -, -, -, -, -, e12, e13⟩ := idx_facts ⟨(i 0).val / 5000, by omega⟩
  intro a
  match a with
  | ⟨0, _⟩ => show win2_6.index _ (0 : Fin 2) * 5000 ≤ (i 0).val ∧ (i 0).val < win2_6.index _ (0 : Fin 2) * 5000 + 5000; rw [e12]; show (i 0).val / 5000 * 5000 ≤ (i 0).val ∧ (i 0).val < (i 0).val / 5000 * 5000 + 5000; omega
  | ⟨1, _⟩ => show win2_6.index _ (1 : Fin 2) * 2 ≤ (i 1).val ∧ (i 1).val < win2_6.index _ (1 : Fin 2) * 2 + 2; rw [e13]; omega

/-- The two arrays the call leaves: the activated layer and its projection, of the arrays as the call finds them. -/
theorem final5 (c : Dev nD) : (dat2 V c).arrAt 5 cfg2.N = H V c :=
  (dat2 V c).arrAt_eq_of_cover 5 (H V c) (fun t _ => flushed5_eq V c t) cover5

theorem final6 (c : Dev nD) : (dat2 V c).arrAt 6 cfg2.N = Y V c :=
  (dat2 V c).arrAt_eq_of_cover 6 (Y V c) (fun t _ => flushed6_eq V c t) cover6

end Cert.KernelIdeal.Reg2

end
-- ==== Proof.KReg3.lean ====
/-
  The last call: every block of 5000 node rows gets the last layer's value before its activation — the block's
  features times the whole 16 × 2 weight matrix, plus the block's neighbour sum, plus the bias row — and then the
  softmax of each of its rows. So the array the call leaves is the softmax of that value over all 100000 rows.

  A grid point `t` reads rows `5000 t … 5000 t + 4999` of the neighbour sum (both columns) and of the features (all 16
  columns), the whole weight matrix and the whole bias row, and writes rows `5000 t … 5000 t + 4999` of the result.
  Entry `(p, q)` of what it writes is `exp (T (p, q) − m p) / ∑ k, exp (T (p, k) − m p)`, where `T (p, q)` is
  `(∑ k, feature (p, k) · weight (k, q) + neighbour sum (p, q)) + bias (0, q)` and `m p` is the maximum of row `p` of
  `T` taken from negative infinity. The softmax at a row reads only that row, and row `p` of the block's `T` is row
  `5000 t + p` of the whole array's, so the entry is the whole array's softmax at `(5000 t + p, q)`. The twenty blocks
  tile the 100000 rows.
-/
import proofs.«120834_j13211319403151_2_alg».proof.Proof.Gen.KernelIdeal.Frame
import proofs.«120834_j13211319403151_2_alg».proof.Proof.LibGnnSpec
import proofs.«120834_j13211319403151_2_alg».proof.Proof.LibPlainDot
import proofs.«120834_j13211319403151_2_alg».proof.Proof.LibGnnBlock
import proofs.«120834_j13211319403151_2_alg».proof.Proof.LibColBroadcast
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Reg3

open Cert.KernelIdeal Cert.KernelIdeal.Gen Idealize.ShloMosaic Idealize.ShloMosaic.TcCoe Idealize.ShloMosaic.ValueIdx
open Idealize.SL.Sem Cert.Gnn
open Idealize.ShloMosaic.Pipeline (Dat)

theorem hz : (![0, 0] : Fin 2 → Nat) = fun _ => 0 := funext fun a => by fin_cases a <;> rfl

/-- The body's arithmetic up to the value before the softmax: the product into a zero accumulator, plus the
    neighbour-sum block, plus the broadcast bias row. -/
def preArr (v0 : Vec Ideal S5000x2 .f32) (v2 : Vec Ideal S5000x16 .f32) (v5 : Vec Ideal S16x2 .f32) (v9 : Vec Ideal S1x2 .f32) :
    FVec Ideal S5000x2 .f32 :=
  have v1 : FVec Ideal S5000x2 .f32 := shapeCast S5000x2 v0 shapeCasts_S5000x2_S5000x2
  have v3 : FVec Ideal S5000x16 .f32 := shapeCast S5000x16 v2 shapeCasts_S5000x16_S5000x16
  have v4 : FVec Ideal S5000x16 .bf16 := truncf .bf16 v3 bitsLt_bf16_f32
  have v6 : FVec Ideal S16x2 .bf16 := truncf .bf16 v5 bitsLt_bf16_f32
  have cst : FVec Ideal S5000x2 .f32 := constant S5000x2 .f32 0x00000000#32
  have v7 : FVec Ideal S5000x2 .f32 := matmul dot_S5000x16_S16x2_S5000x2_1_0_0_1_n_n none v4 v6 cst
  have v8 : FVec Ideal S5000x2 .f32 := addf v7 v1
  have v10 : FVec Ideal S1x2 .f32 := shapeCast S1x2 v9 shapeCasts_S1x2_S1x2
  have v11 : FVec Ideal S5000x2 .f32 := broadcastTo S5000x2 v10 broadcasts_S1x2_S5000x2
  addf v8 v11

/-- The row maxima the body takes of a `[5000, 2]` array: the reduction from the negative-infinity word, then the
    maximum with a splat of the same word. -/
def mxArr (v12 : FVec Ideal S5000x2 .f32) : FVec Ideal S5000 .f32 :=
  have v13 : FVec Ideal S5000 .f32 := multiReduction .maximumf [1] S5000 v12 0xFF800000#32 reduces_S5000x2_S5000 (.inl rfl) rfl
  have cst_8 : Ideal .f32 := Scalar.ofBits .f32 0xFF800000#32
  have v14 : FVec Ideal S5000 .f32 := broadcast S5000 cst_8
  maximumf v14 v13

/-- The exponentials of the entries less their row's maximum. -/
def exArr (v12 : FVec Ideal S5000x2 .f32) : FVec Ideal S5000x2 .f32 :=
  have v16 : FVec Ideal S5000x1 .f32 := shapeCast S5000x1 (mxArr v12) shapeCasts_S5000_S5000x1
  have v17 : FVec Ideal S5000x2 .f32 := broadcastTo S5000x2 v16 broadcasts_S5000x1_S5000x2
  have v18 : FVec Ideal S5000x2 .f32 := subf v12 v17
  exp v18

/-- The body's softmax of a `[5000, 2]` array: each exponential over its row's sum of exponentials. -/
def smArr (v12 : FVec Ideal S5000x2 .f32) : FVec Ideal S5000x2 .f32 :=
  have v20 : FVec Ideal S5000 .f32 := multiReduction .add [1] S5000 (exArr v12) 0x00000000#32 reduces_S5000x2_S5000 (.inl rfl) rfl
  have v21 : FVec Ideal S5000x1 .f32 := shapeCast S5000x1 v20 shapeCasts_S5000_S5000x1
  have v22 : FVec Ideal S5000x2 .f32 := broadcastTo S5000x2 v21 broadcasts_S5000x1_S5000x2
  divf (exArr v12) v22

/-- The body's payload is the softmax part applied to the part before it. -/
theorem pay1_split (v0 : Vec Ideal S5000x2 .f32) (v2 : Vec Ideal S5000x16 .f32) (v5 : Vec Ideal S16x2 .f32) (v9 : Vec Ideal S1x2 .f32) :
    k3_pay1 (F := Ideal) v0 v2 v5 v9 = smArr (preArr v0 v2 v5 v9) := rfl

/-- The part before the softmax is the layer's value before its activation, from the block's pieces. -/
theorem preArr_eq (v0 : Vec Ideal S5000x2 .f32) (v2 : Vec Ideal S5000x16 .f32) (v5 : Vec Ideal S16x2 .f32) (v9 : Vec Ideal S1x2 .f32) :
    preArr v0 v2 v5 v9 = preBlock (v2 : Mat 5000 16) (v5 : Mat 16 2) (v0 : Mat 5000 2) (v9 : Mat 1 2) := by
  funext j
  obtain ⟨p, q, rfl⟩ : ∃ (p : Fin 5000) (q : Fin 2), j = ix2 p q := ⟨j 0, j 1, eq_ix2 j⟩
  unfold preArr
  rw [shapeCast_self, shapeCast_self, shapeCast_self]
  exact preBody_apply dot_S5000x16_S16x2_S5000x2_1_0_0_1_n_n rfl v2 v5 v0 v9 broadcasts_S1x2_S5000x2 p q

/-- The index the row reduction inserts: row `p`, column `k`. -/
theorem lift_eq (p : Fin 5000) (k : Fin 2) :
    reduces_S5000x2_S5000.lift (ix1 p) k = ix2 p k := by
  funext a; apply Fin.ext
  match a with
  | ⟨0, _⟩ => rfl
  | ⟨1, _⟩ => rfl

/-- The body's row maximum is the row maximum both programs take. -/
theorem mxArr_apply (t : FVec Ideal S5000x2 .f32) (p : Fin 5000) :
    mxArr t (ix1 p) = rowMax (t : Mat 5000 2) p := by
  unfold mxArr rowMax
  show max (Ideal.ofBits .f32 0xFF800000#32)
      (multiReduction (F := Ideal) .maximumf [1] S5000 t 0xFF800000#32 reduces_S5000x2_S5000 (.inl rfl) rfl (ix1 p)) = _
  refine congrArg (max _) ?_
  refine (Ideal.multiReduction_maximumf_single t _ reduces_S5000x2_S5000 (.inl rfl) rfl (ix1 p)).trans ?_
  show (Finset.univ : Finset (Fin 2)).fold max (Ideal.ofBits .f32 0xFF800000#32) (fun k => t (reduces_S5000x2_S5000.lift (ix1 p) k)) = _
  exact congrArg (fun f : Fin 2 → EReal => (Finset.univ : Finset (Fin 2)).fold max negInf f)
    (funext fun k => congrArg t (lift_eq p k))

/-- A vector of per-row values, viewed as a column and broadcast over the two columns, reads its row's value. -/
theorem col_apply (v : FVec Ideal S5000 .f32) (p : Fin 5000) (q : Fin 2) :
    broadcastTo S5000x2 (shapeCast S5000x1 v shapeCasts_S5000_S5000x1) broadcasts_S5000x1_S5000x2 (ix2 p q) = v (ix1 p) := by
  refine (Cert.Lib.ColBroadcast.broadcastTo_a1_ab_apply (a := 5000) (b := 2) _ broadcasts_S5000x1_S5000x2 p q).trans ?_
  refine shapeCast_apply v shapeCasts_S5000_S5000x1 (ix2 p (0 : Fin 1)) (ix1 p) ?_
  rw [Shape.rowMajor_val_two, Shape.rowMajor_val_one]
  show p.val = p.val * 1 + 0
  omega

/-- An exponential of the body: of the entry less its row's maximum. -/
theorem exArr_apply (t : FVec Ideal S5000x2 .f32) (p : Fin 5000) (q : Fin 2) :
    exArr t (ix2 p q) = Ideal.exp ((t : Mat 5000 2) (ix2 p q) - rowMax (t : Mat 5000 2) p) := by
  unfold exArr
  show Ideal.exp (t (ix2 p q) - broadcastTo S5000x2 (shapeCast S5000x1 (mxArr t) shapeCasts_S5000_S5000x1) broadcasts_S5000x1_S5000x2 (ix2 p q)) = _
  rw [col_apply, mxArr_apply]

/-- The body's softmax at `(p, q)` is the softmax of the array at `(p, q)`. -/
theorem smArr_apply (t : FVec Ideal S5000x2 .f32) (p : Fin 5000) (q : Fin 2) :
    smArr t (ix2 p q) = softmax (t : Mat 5000 2) (ix2 p q) := by
  unfold smArr softmax
  show Ideal.div (exArr t (ix2 p q))
      (broadcastTo S5000x2 (shapeCast S5000x1
        (multiReduction (F := Ideal) .add [1] S5000 (exArr t) 0x00000000#32 reduces_S5000x2_S5000 (.inl rfl) rfl) shapeCasts_S5000_S5000x1)
        broadcasts_S5000x1_S5000x2 (ix2 p q)) = _
  rw [col_apply, exArr_apply]
  refine congrArg (Ideal.div _) ?_
  refine (Ideal.multiReduction_add_single (exArr t) _ reduces_S5000x2_S5000 (.inl rfl) rfl (ix1 p)).trans ?_
  show ∑ k : Fin 2, exArr t (reduces_S5000x2_S5000.lift (ix1 p) k) = ∑ k : Fin 2, Ideal.exp (t (ix2 p k) - rowMax (t : Mat 5000 2) p)
  refine Finset.sum_congr rfl fun k _ => ?_
  rw [lift_eq, exArr_apply]

/-- The body's value at `(p, q)`: the softmax of the layer's value before its activation, from the block's pieces. -/
theorem pay1_apply (x0 : Vec Ideal S5000x2 .f32) (x1 : Vec Ideal S5000x16 .f32) (x2 : Vec Ideal S16x2 .f32) (x3 : Vec Ideal S1x2 .f32)
    (p : Fin 5000) (q : Fin 2) :
    k3_pay1 (F := Ideal) x0 x1 x2 x3 (ix2 p q)
      = softmax (preBlock (x1 : Mat 5000 16) (x2 : Mat 16 2) (x0 : Mat 5000 2) (x3 : Mat 1 2)) (ix2 p q) := by
  rw [pay1_split, preArr_eq]
  exact smArr_apply _ p q

/-- The softmax at a row reads only that row: two arrays that agree on a row have the same softmax there. -/
theorem softmax_congr_row {M M' C : ℕ} (t : Mat M C) (t' : Mat M' C) (r : Fin M) (r' : Fin M')
    (h : ∀ k : Fin C, t (ix2 r k) = t' (ix2 r' k)) (q : Fin C) :
    softmax t (ix2 r q) = softmax t' (ix2 r' q) := by
  have hm : rowMax t r = rowMax t' r' := by
    unfold rowMax
    exact congrArg (fun f : Fin C → EReal => max negInf ((Finset.univ : Finset (Fin C)).fold max negInf f)) (funext h)
  show Ideal.div (Ideal.exp (t (ix2 r q) - rowMax t r)) (∑ k : Fin C, Ideal.exp (t (ix2 r k) - rowMax t r))
    = Ideal.div (Ideal.exp (t' (ix2 r' q) - rowMax t' r')) (∑ k : Fin C, Ideal.exp (t' (ix2 r' k) - rowMax t' r'))
  rw [hm, h q]
  refine congrArg (Ideal.div _) (Finset.sum_congr rfl fun k _ => ?_)
  rw [h k]

/-- Two layer values built from pieces that agree on a row (the features' and the neighbour sum's row, all of the
    weights and of the bias) have the same softmax at that row. -/
theorem softmax_preBlock_congr {M M' K C : ℕ} (x : Mat M K) (w : Mat K C) (a : Mat M C) (b : Mat 1 C)
    (x' : Mat M' K) (w' : Mat K C) (a' : Mat M' C) (b' : Mat 1 C) (r : Fin M) (r' : Fin M')
    (hx : ∀ k, x (ix2 r k) = x' (ix2 r' k)) (hw : ∀ k c, w (ix2 k c) = w' (ix2 k c))
    (ha : ∀ c, a (ix2 r c) = a' (ix2 r' c)) (hb : ∀ c, b (ix2 (0 : Fin 1) c) = b' (ix2 (0 : Fin 1) c)) (q : Fin C) :
    softmax (preBlock x w a b) (ix2 r q) = softmax (preBlock x' w' a' b') (ix2 r' q) :=
  softmax_congr_row _ _ r r' (fun c => by
    rw [preBlock_apply, preBlock_apply, ha c, hb c]
    refine congrArg (· + _) (congrArg (· + _) (Finset.sum_congr rfl fun k _ => ?_))
    rw [hx k, hw k c]) q

/-- Where the windows sit at point `t`: the neighbour-sum block, the feature block and the result block at row block `t`,
    the weights and the bias whole. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

variable (V : (c : Dev nD) → (b : Ref sig .tc) → Buf (Elt Ideal) ((c : Thread nD τ).loc b))

/-- The neighbour sum, the features, the weights and the bias as the call finds them. -/
abbrev Ag (c : Dev nD) : Mat 100000 2 := V c main_v44
abbrev X (c : Dev nD) : Mat 100000 16 := V c main_v32_0
abbrev Wt (c : Dev nD) : Mat 16 2 := V c main_arg9
abbrev B (c : Dev nD) : Mat 1 2 := V c main_v45

/-- The softmax of the last layer's value before its activation. -/
abbrev G (c : Dev nD) : Mat 100000 2 := softmax (preBlock (X V c) (Wt V c) (Ag V c) (B V c))

/-- What point `t` writes back is its block of that softmax. -/
theorem flushed_eq (c : Dev nD) (t : Fin cfg3.N) :
    (dat3 V c).flushed 4 t = ((cfg3.win 4).blk t).view.read (Elt Ideal) (G V c) := by
  show (cfg3.win 4).cut (grid3.coords t) ((dat3 V c).after 4 t) = _
  rw [after3_4]
  unfold out3_4
  rw [View.canon_unit_zero hz]
  simp only [View.ld_unit_zero (S := S5000x2) hz, View.ld_unit_zero (S := S5000x16) hz, View.ld_unit_zero (S := S16x2) hz,
    View.ld_unit_zero (S := S1x2) hz]
  funext j
  obtain ⟨p, q, rfl⟩ : ∃ (p : Fin 5000) (q : Fin 2), j = ix2 p q := ⟨j 0, j 1, eq_ix2 j⟩
  obtain ⟨e0, e1, e2, e3, e4, e5, e6, e7, e8, e9⟩ := idx_facts t
  show k3_pay1 (F := Ideal) (iblk3 V c 0 t) (iblk3 V c 1 t) (iblk3 V c 2 t) (iblk3 V c 3 t) (ix2 p q)
    = G V c (((cfg3.win 4).blk t).view.emb (ix2 p q))
  refine (pay1_apply _ _ _ _ p q).trans ?_
  obtain ⟨r, hr⟩ : ∃ r : Fin 100000, r = (((cfg3.win 4).blk t).view.emb (ix2 p q)) 0 := ⟨_, rfl⟩
  have hrv : r.val = win3_4.index t (0 : Fin 2) * 5000 + 1 * p.val := congrArg Fin.val hr
  have hi : ((cfg3.win 4).blk t).view.emb (ix2 p q) = ix2 r q := by
    funext a; apply Fin.ext
    match a with
    | ⟨0, _⟩ => exact (congrArg Fin.val hr).symm
    | ⟨1, _⟩ => show win3_4.index t (1 : Fin 2) * 2 + 1 * q.val = q.val; omega
  have h0 : ∀ k : Fin 2, ((cfg3.win 0).blk t).view.emb (ix2 p k) = ix2 r k := fun k => by
    funext a; apply Fin.ext
    match a with
    | ⟨0, _⟩ => show win3_0.index t (0 : Fin 2) * 5000 + 1 * p.val = r.val; omega
    | ⟨1, _⟩ => show win3_0.index t (1 : Fin 2) * 2 + 1 * k.val = k.val; omega
  have h1 : ∀ k' : Fin 16, ((cfg3.win 1).blk t).view.emb (ix2 p k') = ix2 r k' := fun k' => by
    funext a; apply Fin.ext
    match a with
    | ⟨0, _⟩ => show win3_1.index t (0 : Fin 2) * 5000 + 1 * p.val = r.val; omega
    | ⟨1, _⟩ => show win3_1.index t (1 : Fin 2) * 16 + 1 * k'.val = k'.val; omega
  have h2 : ∀ (k' : Fin 16) (k : Fin 2), ((cfg3.win 2).blk t).view.emb (ix2 k' k) = ix2 k' k := fun k' k => by
    funext a; apply Fin.ext
    match a with
    | ⟨0, _⟩ => show win3_2.index t (0 : Fin 2) * 16 + 1 * k'.val = k'.val; omega
    | ⟨1, _⟩ => show win3_2.index t (1 : Fin 2) * 2 + 1 * k.val = k.val; omega
  have h3 : ∀ k : Fin 2, ((cfg3.win 3).blk t).view.emb (ix2 (0 : Fin 1) k) = ix2 (0 : Fin 1) k := fun k => by
    funext a; apply Fin.ext
    match a with
    | ⟨0, _⟩ => show win3_3.index t (0 : Fin 2) * 1 + 1 * 0 = 0; omega
    | ⟨1, _⟩ => show win3_3.index t (1 : Fin 2) * 2 + 1 * k.val = k.val; omega
  refine Eq.trans ?_ (congrArg (G V c) hi.symm)
  exact softmax_preBlock_congr (iblk3 V c 1 t : Mat 5000 16) (iblk3 V c 2 t : Mat 16 2) (iblk3 V c 0 t : Mat 5000 2) (iblk3 V c 3 t : Mat 1 2)
    (X V c) (Wt V c) (Ag V c) (B V c) p r
    (fun k' => congrArg (X V c) (h1 k')) (fun k' k => congrArg (Wt V c) (h2 k' k))
    (fun k => congrArg (Ag V c) (h0 k)) (fun k => congrArg (B V c) (h3 k)) q

/-- An index of the result is in point `t`'s block iff each coordinate is in the block's range. -/
theorem mem_blk (t : Fin cfg3.N) (i : S100000x2.Idx) :
    i ∈ ((cfg3.win 4).blk t).view.set ↔ ∀ a : Fin 2, win3_4.index t a * S5000x2.size a ≤ (i a).val ∧ (i a).val < win3_4.index t a * S5000x2.size a + S5000x2.size a := by
  show i ∈ ((View.whole main_v46).slice (win3_4.rect t)).set ↔ _
  rw [View.set_slice_whole, Rect.mem_set_unit]
  exact Iff.rfl

/-- Every row is in the block of the point its row block names. -/
theorem cover (i : S100000x2.Idx) : ∃ t : Fin cfg3.N, (cfg3.win 4).flush t = true ∧ i ∈ ((cfg3.win 4).blk t).view.set := by
  have hi0 : (i 0).val < 100000 := (i 0).isLt
  have hi1 : (i 1).val < 2 := (i 1).isLt
  have hN : cfg3.N = 20 := N_3
  refine ⟨⟨(i 0).val / 5000, by omega⟩, flush3_4 _, ?_⟩
  rw [mem_blk]
  obtain ⟨e0, e1, e2, e3, e4, e5, e6, e7, e8, e9⟩ := idx_facts ⟨(i 0).val / 5000, by omega⟩
  intro a
  match a with
  | ⟨0, _⟩ => show win3_4.index _ (0 : Fin 2) * 5000 ≤ (i 0).val ∧ (i 0).val < win3_4.index _ (0 : Fin 2) * 5000 + 5000; rw [e8]; show (i 0).val / 5000 * 5000 ≤ (i 0).val ∧ (i 0).val < (i 0).val / 5000 * 5000 + 5000; omega
  | ⟨1, _⟩ => show win3_4.index _ (1 : Fin 2) * 2 ≤ (i 1).val ∧ (i 1).val < win3_4.index _ (1 : Fin 2) * 2 + 2; rw [e9]; omega

/-- The array the last call leaves: the softmax of the layer's value before its activation, from the arrays as the
    call finds them. -/
theorem final (c : Dev nD) :
    (dat3 V c).arrAt 4 cfg3.N = Cert.Gnn.softmax (Cert.Gnn.preBlock (X V c) (Wt V c) (Ag V c) (B V c)) :=
  (dat3 V c).arrAt_eq_of_cover 4 (G V c) (fun t _ => flushed_eq V c t) cover

end Cert.KernelIdeal.Reg3

end
-- ==== Proof.KChain.lean ====
/-
  What the kernel program's buffers hold, boundary by boundary.

  The first stretch cuts the edge array into its two rows; every later stretch forms the source column (a negative
  word wrapped by the number of nodes) and the destination column from them, gathers the rows of the previous call's
  projection at the sources and scatter-adds them into zeros at the destinations — the neighbour sum of the projection —
  and lays the layer's bias out as one row. The first call leaves the projection `z · W_rel1`; the second and third
  leave a layer's activations `relu ((x · W_root + a) + b)` and their projection by the next layer's neighbour
  weights; the last leaves the softmax of `(x · W_root + a) + b`. Chained, the result buffer holds the three-layer
  network that multiplies before it sums the neighbours.
-/
import proofs.«120834_j13211319403151_2_alg».proof.Proof.KKept
import proofs.«120834_j13211319403151_2_alg».proof.Proof.KReg0
import proofs.«120834_j13211319403151_2_alg».proof.Proof.KReg1
import proofs.«120834_j13211319403151_2_alg».proof.Proof.KReg2
import proofs.«120834_j13211319403151_2_alg».proof.Proof.KReg3
import proofs.«120834_j13211319403151_2_alg».proof.Proof.RefNet
set_option maxRecDepth 16384

noncomputable section

namespace Cert.KernelIdeal.Chain

open Cert.KernelIdeal Cert.KernelIdeal.Gen
open Idealize.ShloMosaic Idealize.ShloMosaic.TcCoe Idealize.ShloMosaic.Tactic Idealize.SL.Sem Idealize.ShloMosaic.StableHlo
open Idealize.ShloMosaic.Pipeline (Dat)

variable (m : (ℓ : Loc nD τ sig) → Buf (Elt Ideal) ℓ) (ρ : Dev nD → PrngReg)

open Cert.Gnn Idealize.ShloMosaic.ValueIdx

theorem hN : 0 < 100000 := by decide

/-! ## The launch contents of the arguments, with their shapes -/

abbrev Z (c : Dev nD) : Mat 100000 64 := m ((c : Thread nD τ).loc main_arg0)
abbrev E (c : Dev nD) : IVec S2x1600000 32 := m ((c : Thread nD τ).loc main_arg1)
abbrev Wrel1 (c : Dev nD) : Mat 64 32 := m ((c : Thread nD τ).loc main_arg2)
abbrev Wroot1 (c : Dev nD) : Mat 64 32 := m ((c : Thread nD τ).loc main_arg3)
abbrev B1 (c : Dev nD) : Vec1 32 := m ((c : Thread nD τ).loc main_arg4)
abbrev Wrel2 (c : Dev nD) : Mat 32 16 := m ((c : Thread nD τ).loc main_arg5)
abbrev Wroot2 (c : Dev nD) : Mat 32 16 := m ((c : Thread nD τ).loc main_arg6)
abbrev B2 (c : Dev nD) : Vec1 16 := m ((c : Thread nD τ).loc main_arg7)
abbrev Wrel3 (c : Dev nD) : Mat 16 2 := m ((c : Thread nD τ).loc main_arg8)
abbrev Wroot3 (c : Dev nD) : Mat 16 2 := m ((c : Thread nD τ).loc main_arg9)
abbrev B3 (c : Dev nD) : Vec1 2 := m ((c : Thread nD τ).loc main_arg10)

/-! ## The index columns and the bias rows the host stretches form -/

/-- Row 0 and row 1 of the edge array, as vectors. -/
def rawSrc (x1 : IVec S2x1600000 32) : IVec S1600000 32 :=
  shapeCast S1600000 (extractStridedSlice S1x1600000 ![0, 0] x1 slices_S2x1600000_S1x1600000_0_0) shapeCasts_S1x1600000_S1600000
def rawDst (x1 : IVec S2x1600000 32) : IVec S1600000 32 :=
  shapeCast S1600000 (extractStridedSlice S1x1600000 ![1, 0] x1 slices_S2x1600000_S1x1600000_1_0) shapeCasts_S1x1600000_S1600000

/-- The source column: a negative word wrapped by the number of nodes. -/
def srcCol (x1 : IVec S2x1600000 32) : EdgeIdx 1600000 :=
  broadcastInDim S1600000x1 ![0] bcast_S1600000_S1600000x1_0
    (select (cmpi .slt (rawSrc x1) (broadcastInDim S1600000 ![] bcast_S_S1600000 (constantI S_ 32 0#32)))
      (addi (rawSrc x1) (broadcastInDim S1600000 ![] bcast_S_S1600000 (constantI S_ 32 100000#32))) (rawSrc x1))

/-- The destination column. -/
def dstCol (x1 : IVec S2x1600000 32) : EdgeIdx 1600000 :=
  broadcastInDim S1600000x1 ![0] bcast_S1600000_S1600000x1_0 (rawDst x1)

/-- A bias laid out as one row. -/
def bias1 (b : Vec1 32) : Mat 1 32 := shapeCast S1x32 b shapeCasts_S32_S1x32
def bias2 (b : Vec1 16) : Mat 1 16 := shapeCast S1x16 b shapeCasts_S16_S1x16
def bias3 (b : Vec1 2) : Mat 1 2 := shapeCast S1x2 b shapeCasts_S2_S1x2

/-! ## The values, layer by layer -/

def y1 (c : Dev nD) : Mat 100000 32 := mm (Z m c) (Wrel1 m c)
def ag1 (c : Dev nD) : Mat 100000 32 := agg hN (srcCol (E m c)) (dstCol (E m c)) (y1 m c)
def h1 (c : Dev nD) : Mat 100000 32 := relu (preBlock (Z m c) (Wroot1 m c) (ag1 m c) (bias1 (B1 m c)))
def y2 (c : Dev nD) : Mat 100000 16 := mm (h1 m c) (Wrel2 m c)
def ag2 (c : Dev nD) : Mat 100000 16 := agg hN (srcCol (E m c)) (dstCol (E m c)) (y2 m c)
def h2 (c : Dev nD) : Mat 100000 16 := relu (preBlock (h1 m c) (Wroot2 m c) (ag2 m c) (bias2 (B2 m c)))
def y3 (c : Dev nD) : Mat 100000 2 := mm (h2 m c) (Wrel3 m c)
def ag3 (c : Dev nD) : Mat 100000 2 := agg hN (srcCol (E m c)) (dstCol (E m c)) (y3 m c)
def out (c : Dev nD) : Mat 100000 2 := softmax (preBlock (h2 m c) (Wroot3 m c) (ag3 m c) (bias3 (B3 m c)))

/-! ## After the first stretch -/

theorem W1_v1 (c : Dev nD) : W1 m ρ c (Proc.devRef .tc main_v1) = rawSrc (E m c) := by
  show StableHlo.after hostOps0 (W0 m ρ c) (Proc.devRef .tc main_v1) = _
  after_results
  rfl

theorem W1_v3 (c : Dev nD) : W1 m ρ c (Proc.devRef .tc main_v3) = rawDst (E m c) := by
  show StableHlo.after hostOps0 (W0 m ρ c) (Proc.devRef .tc main_v3) = _
  after_results
  rfl

/-! ## After the first call -/

theorem W2_v4 (c : Dev nD) : W2 m ρ c (Proc.devRef .tc main_v4) = y1 m c :=
  (W2_arr m ρ c 2).trans ((Reg0.final (V1 m ρ) c).trans (by
    show mm (M := 100000) (K := 64) (N := 32) (W1 m ρ c (Proc.devRef .tc main_arg0)) (W1 m ρ c (Proc.devRef .tc main_arg2)) = _
    rw [Kept.W1_arg0, Kept.W1_arg2]
    rfl))

set_option maxHeartbeats 2000000 in
theorem W3_v16 (c : Dev nD) : W3 m ρ c (Proc.devRef .tc main_v16) = ag1 m c := by
  show StableHlo.after hostOps1 (W2 m ρ c) (Proc.devRef .tc main_v16) = _
  after_results
  rw [Kept.W2_v3, Kept.W2_v1, W2_v4, W1_v3, W1_v1]
  exact Cert.RefNet.scatter_gather_eq_agg hN _ rfl rfl rfl rfl _ rfl rfl rfl rfl rfl rfl rfl _ (y1 m c) (srcCol (E m c)) (dstCol (E m c))

theorem W3_v17 (c : Dev nD) : W3 m ρ c (Proc.devRef .tc main_v17) = bias1 (B1 m c) := by
  show StableHlo.after hostOps1 (W2 m ρ c) (Proc.devRef .tc main_v17) = _
  after_results
  rw [Kept.W2_arg4]
  rfl

/-! ## After the second call -/

theorem W4_v18_0 (c : Dev nD) : W4 m ρ c (Proc.devRef .tc main_v18_0) = h1 m c :=
  (W4_arr m ρ c 5).trans ((Reg1.final5 (V3 m ρ) c).trans (by
    show relu (preBlock (M := 100000) (K := 64) (N := 32) (W3 m ρ c (Proc.devRef .tc main_arg0)) (W3 m ρ c (Proc.devRef .tc main_arg3))
      (W3 m ρ c (Proc.devRef .tc main_v16)) (W3 m ρ c (Proc.devRef .tc main_v17))) = _
    rw [Kept.W3_arg0, Kept.W3_arg3, W3_v16, W3_v17]
    rfl))

theorem W4_v18_1 (c : Dev nD) : W4 m ρ c (Proc.devRef .tc main_v18_1) = y2 m c :=
  (W4_arr m ρ c 6).trans ((Reg1.final6 (V3 m ρ) c).trans (by
    show mm (M := 100000) (K := 32) (N := 16) (relu (preBlock (M := 100000) (K := 64) (N := 32) (W3 m ρ c (Proc.devRef .tc main_arg0)) (W3 m ρ c (Proc.devRef .tc main_arg3))
      (W3 m ρ c (Proc.devRef .tc main_v16)) (W3 m ρ c (Proc.devRef .tc main_v17)))) (W3 m ρ c (Proc.devRef .tc main_arg5)) = _
    rw [Kept.W3_arg0, Kept.W3_arg3, W3_v16, W3_v17, Kept.W3_arg5]
    rfl))

/-! ## After the third stretch -/

set_option maxHeartbeats 2000000 in
theorem W5_v30 (c : Dev nD) : W5 m ρ c (Proc.devRef .tc main_v30) = ag2 m c := by
  show StableHlo.after hostOps2 (W4 m ρ c) (Proc.devRef .tc main_v30) = _
  after_results
  rw [Kept.W4_v3, Kept.W4_v1, W4_v18_1, W1_v3, W1_v1]
  exact Cert.RefNet.scatter_gather_eq_agg hN _ rfl rfl rfl rfl _ rfl rfl rfl rfl rfl rfl rfl _ (y2 m c) (srcCol (E m c)) (dstCol (E m c))

theorem W5_v31 (c : Dev nD) : W5 m ρ c (Proc.devRef .tc main_v31) = bias2 (B2 m c) := by
  show StableHlo.after hostOps2 (W4 m ρ c) (Proc.devRef .tc main_v31) = _
  after_results
  rw [Kept.W4_arg7]
  rfl

/-! ## After the third call -/

theorem W6_v32_0 (c : Dev nD) : W6 m ρ c (Proc.devRef .tc main_v32_0) = h2 m c :=
  (W6_arr m ρ c 5).trans ((Reg2.final5 (V5 m ρ) c).trans (by
    show relu (preBlock (M := 100000) (K := 32) (N := 16) (W5 m ρ c (Proc.devRef .tc main_v18_0)) (W5 m ρ c (Proc.devRef .tc main_arg6))
      (W5 m ρ c (Proc.devRef .tc main_v30)) (W5 m ρ c (Proc.devRef .tc main_v31))) = _
    rw [Kept.W5_v18_0, W4_v18_0, Kept.W5_arg6, W5_v30, W5_v31]
    rfl))

theorem W6_v32_1 (c : Dev nD) : W6 m ρ c (Proc.devRef .tc main_v32_1) = y3 m c :=
  (W6_arr m ρ c 6).trans ((Reg2.final6 (V5 m ρ) c).trans (by
    show mm (M := 100000) (K := 16) (N := 2) (relu (preBlock (M := 100000) (K := 32) (N := 16) (W5 m ρ c (Proc.devRef .tc main_v18_0)) (W5 m ρ c (Proc.devRef .tc main_arg6))
      (W5 m ρ c (Proc.devRef .tc main_v30)) (W5 m ρ c (Proc.devRef .tc main_v31)))) (W5 m ρ c (Proc.devRef .tc main_arg8)) = _
    rw [Kept.W5_v18_0, W4_v18_0, Kept.W5_arg6, W5_v30, W5_v31, Kept.W5_arg8]
    rfl))

/-! ## After the fourth stretch -/

set_option maxHeartbeats 2000000 in
theorem W7_v44 (c : Dev nD) : W7 m ρ c (Proc.devRef .tc main_v44) = ag3 m c := by
  show StableHlo.after hostOps3 (W6 m ρ c) (Proc.devRef .tc main_v44) = _
  after_results
  rw [Kept.W6_v3, Kept.W6_v1, W6_v32_1, W1_v3, W1_v1]
  exact Cert.RefNet.scatter_gather_eq_agg hN _ rfl rfl rfl rfl _ rfl rfl rfl rfl rfl rfl rfl _ (y3 m c) (srcCol (E m c)) (dstCol (E m c))

theorem W7_v45 (c : Dev nD) : W7 m ρ c (Proc.devRef .tc main_v45) = bias3 (B3 m c) := by
  show StableHlo.after hostOps3 (W6 m ρ c) (Proc.devRef .tc main_v45) = _
  after_results
  rw [Kept.W6_arg10]
  rfl

/-! ## After the last call: the result -/

theorem W8_v46 (c : Dev nD) : W8 m ρ c (Proc.devRef .tc main_v46) = out m c :=
  (W8_arr m ρ c 4).trans ((Reg3.final (V7 m ρ) c).trans (by
    show softmax (preBlock (M := 100000) (K := 16) (N := 2) (W7 m ρ c (Proc.devRef .tc main_v32_0)) (W7 m ρ c (Proc.devRef .tc main_arg9))
      (W7 m ρ c (Proc.devRef .tc main_v44)) (W7 m ρ c (Proc.devRef .tc main_v45))) = _
    rw [Kept.W7_v32_0, W6_v32_0, Kept.W7_arg9, W7_v44, W7_v45]
    rfl))

/-! ## The result is the network multiplying first -/

/-- A vector laid out as one row, read back as a vector, is the vector. -/
theorem rowOf_shapeCast {C : ℕ} (b : Vec1 C) (h : (⟨1, ![C]⟩ : Shape).ShapeCasts ⟨2, ![1, C]⟩) :
    rowOf (shapeCast ⟨2, ![1, C]⟩ b h) = b := by
  funext q
  obtain ⟨k, rfl⟩ : ∃ k : Fin C, q = ix1 k := ⟨q 0, eq_ix1 q⟩
  show shapeCast ⟨2, ![1, C]⟩ b h (ix2 (0 : Fin 1) k) = b (ix1 k)
  refine (shapeCast_addUnit_apply ![C] b h (ix2 (0 : Fin 1) k)).trans (congrArg b (funext fun a => ?_))
  match a with
  | ⟨0, _⟩ => rfl

/-- A layer's pre-activation from a block's pieces, with the neighbour sum of the projection and the bias laid out as a
    row, is the layer multiplying first. -/
theorem preBlock_eq_preMulFirst {N R Ci Co : ℕ} (hN' : 0 < N) (sidx didx : EdgeIdx R) (x : Mat N Ci) (wrel wroot : Mat Ci Co)
    (b : Vec1 Co) (h : (⟨1, ![Co]⟩ : Shape).ShapeCasts ⟨2, ![1, Co]⟩) :
    preBlock x wroot (agg hN' sidx didx (mm x wrel)) (shapeCast ⟨2, ![1, Co]⟩ b h) = preMulFirst hN' sidx didx x wrel wroot b := by
  unfold preBlock preMulFirst
  rw [rowOf_shapeCast]

theorem out_eq_net (c : Dev nD) :
    out m c = netMulFirst hN (srcCol (E m c)) (dstCol (E m c)) (Z m c) (Wrel1 m c) (Wroot1 m c) (B1 m c)
      (Wrel2 m c) (Wroot2 m c) (B2 m c) (Wrel3 m c) (Wroot3 m c) (B3 m c) := by
  unfold out netMulFirst h2 ag3 y3 h2 ag2 y2 h1 ag1 y1 bias1 bias2 bias3
  rw [preBlock_eq_preMulFirst, preBlock_eq_preMulFirst, preBlock_eq_preMulFirst]

end Cert.KernelIdeal.Chain

end
-- ==== Proof.lean ====
/-
  The certificate of a three-layer graph convolution network on 100000 nodes and 1600000 edges.

  A layer of the reference is `(Σ_{e → i} x[src e]) · W_rel + x · W_root + b`: it sums each node's neighbours and then
  multiplies by `W_rel`. The kernel multiplies every node's features by `W_rel` first (a call on blocks of 5000 rows),
  sums the neighbours' products on the host, and adds `x · W_root + b` in the next call, which also applies the
  activation and forms the next layer's products; the last call applies the softmax. Over the extended reals the two
  orders agree because the inputs are finite: every intermediate array is then an array of reals, where a product
  distributes over a finite sum and two finite sums exchange. Changes of float format are the identity on extended
  reals, the index arithmetic (a negative source word wrapped by the number of nodes, the source row clamped, an edge
  with a destination outside the rows dropped) is the same on both sides, and both softmaxes take the row maximum from
  the same word of negative infinity.

  The parts: `LibGnnSpec` states the network over arbitrary extents in both orders; `LibGnnAlgebra` proves the orders equal on real
  inputs; `PreReal` reads the precondition as "every float argument is an array of reals"; `RefNet` shows the
  reference's result is the network summing first; `KReg0 … KReg3` read each call's result arrays as whole-array
  functions of the arrays the call finds; `KKept` and `KChain` follow the buffers through the eight segments, so the
  kernel's result is the network multiplying first; `KRun` is the kernel's run with its result buffer named.
-/
import proofs.«120834_j13211319403151_2_alg».proof.Defs
import proofs.«120834_j13211319403151_2_alg».proof.Proof.Gen.Kernel
import proofs.«120834_j13211319403151_2_alg».proof.Proof.Gen.Kernel.Frame
import proofs.«120834_j13211319403151_2_alg».proof.Proof.Gen.KernelIdeal
import proofs.«120834_j13211319403151_2_alg».proof.Proof.Gen.KernelIdeal.Frame
import proofs.«120834_j13211319403151_2_alg».proof.Proof.Gen.ReferenceIdeal
import proofs.«120834_j13211319403151_2_alg».proof.Proof.Gen.Pre_finite_inputs
import proofs.«120834_j13211319403151_2_alg».proof.Proof.Gen.ReferenceIdeal.Run
import proofs.«120834_j13211319403151_2_alg».proof.Proof.Gen.ReferenceIdeal.Read
import proofs.«120834_j13211319403151_2_alg».proof.Proof.LibGnnAlgebra
import proofs.«120834_j13211319403151_2_alg».proof.Proof.PreReal
import proofs.«120834_j13211319403151_2_alg».proof.Proof.RefNet
import proofs.«120834_j13211319403151_2_alg».proof.Proof.KRun
import proofs.«120834_j13211319403151_2_alg».proof.Proof.KChain
import Idealize.ShloMosaic.Adequacy
import Idealize.ShloMosaic.Init

set_option maxRecDepth 16384

noncomputable section

namespace Cert.Proof

open Idealize.ShloMosaic Idealize.SL.Sem Cert.Gnn

/-- The word-level kernel runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- The two index columns are formed by the same operations in both programs. -/
theorem srcCol_eq (x1 : IVec Cert.KernelIdeal.S2x1600000 32) :
    Cert.ReferenceIdeal.Read.val_main_v9 (F := Ideal) x1 = Cert.KernelIdeal.Chain.srcCol x1 := rfl

theorem dstCol_eq (x1 : IVec Cert.KernelIdeal.S2x1600000 32) :
    Cert.ReferenceIdeal.Read.val_main_v12 (F := Ideal) x1 = Cert.KernelIdeal.Chain.dstCol x1 := rfl

/-- From memories agreeing on the arguments, both idealized programs end with the network's value: the kernel with the
    order that multiplies first, the reference with the order that sums first, equal on the finite inputs. -/
theorem algebraic : Cert.algebraic_KernelIdeal_ReferenceIdeal := by
  intro m ρ m' ρ' hpre hagree
  refine ⟨fun c => Cert.KernelIdeal.Chain.out m c, ?_, ?_⟩
  · exact (θ_run Cert.KernelIdeal.defs _ _).mono
      (fun r h c => ⟨(h c).1.trans (Cert.KernelIdeal.Chain.W8_v46 m ρ c), (h c).2⟩)
      (Cert.KernelIdeal.RunValue.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10⟩ := hagree c
    obtain ⟨r0, r2, r3, r4, r5, r6, r7, r8, r9, r10⟩ := Cert.PreReal.isReal_of_fn _ _ _ _ _ _ _ _ _ _ _ (hpre c)
    show Cert.ReferenceIdeal.Value.res_main_v64 m' c = Cert.KernelIdeal.Chain.out m c
    rw [Cert.ReferenceIdeal.Read.val_main_v64_eq m' c, Cert.RefNet.ref_eq, e0, e1, e2, e3, e4, e5, e6, e7, e8, e9, e10,
      Cert.KernelIdeal.Chain.out_eq_net m c, srcCol_eq, dstCol_eq]
    exact (net_eq Cert.KernelIdeal.Chain.hN _ _ _ _ _ _ _ _ _ _ _ _ r0 r2 r3 r4 r5 r6 r7 r8 r9 r10).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
